-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x512 .f32) (main_arg7 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x512 .f32 := Host.absf main_arg6
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x512 .f32) (main_arg7 : FVec F S512 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S1x128 : Shape := ⟨2, ![1, 128]⟩
abbrev S1x512 : Shape := ⟨2, ![1, 512]⟩
abbrev S400x10000 : Shape := ⟨2, ![400, 10000]⟩
abbrev S400x128 : Shape := ⟨2, ![400, 128]⟩
abbrev S128x4 : Shape := ⟨2, ![128, 4]⟩

abbrev nBuf : Space → Nat
  | .hbm => 13
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x512, .f32⟩
  | .hbm, ⟨7, _⟩ => ⟨S512, .f32⟩
  | .hbm, ⟨8, _⟩ => ⟨S1x128, .f32⟩
  | .hbm, ⟨9, _⟩ => ⟨S1x128, .f32⟩
  | .hbm, ⟨10, _⟩ => ⟨S1x512, .f32⟩
  | .hbm, ⟨11, _⟩ => ⟨S1x512, .f32⟩
  | .hbm, ⟨12, _⟩ => ⟨S128x4, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x512, .f32⟩
  | .local _ .vmem, ⟨8, _⟩ => ⟨S1x512, .f32⟩
  | .local _ .vmem, ⟨9, _⟩ => ⟨S1x512, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v27 : BitVec 32 := Scalar.muli arg1 c400_i32
  let v28 : Index := Scalar.indexCast v27
  let c0_16 : Index := 0#32
  ![v28.toNat, 0]
def k0_cond4 (i : grid0.Coords) : BitVec 1 :=
  let arg0 : BitVec 32 := BitVec.ofNat 32 (i 0).val
  let c1_i32_5 : BitVec 32 := 1#32
  let v11 : BitVec 1 := Scalar.cmpi .eq arg0 c1_i32_5
  let arg1 : BitVec 32 := BitVec.ofNat 32 (i 1).val
  let c24_i32 : BitVec 32 := 24#32
  let v12 : BitVec 1 := Scalar.cmpi .eq arg1 c24_i32
  let v13 : BitVec 1 := Scalar.andi v11 v12
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

class Facts₀ : Prop where
  shapeCasts_S128_S1x128 : S128.ShapeCasts S1x128
  shapeCasts_S512_S1x512 : S512.ShapeCasts S1x512
  inb_S10000x128_S400x128_0_0 : ∀ a, (![0, 0] : Fin 2 → Nat) a + S400x128.size a ≤ S10000x128.size a
  h_S400x128 : 0 < S400x128.numel
  inb_S128x128_S128x128_0_0 : ∀ a, (![0, 0] : Fin 2 → Nat) a + S128x128.size a ≤ S128x128.size a
  h_S128x128 : 0 < S128x128.numel
  shapeCasts_S400x128_S400x128 : S400x128.ShapeCasts S400x128
  inb_S10000x128_S400x128_400_0 : ∀ a, (![400, 0] : Fin 2 → Nat) a + S400x128.size a ≤ S10000x128.size a
  inb_S10000x128_S400x128_800_0 : ∀ a, (![800, 0] : Fin 2 → Nat) a + S400x128.size a ≤ S10000x128.size a
  inb_S10000x128_S400x128_1200_0 : ∀ a, (![1200, 0] : Fin 2 → Nat) a + S400x128.size a ≤ S10000x128.size a
  inb_S10000x128_S400x128_1600_0 : ∀ a, (![1600, 0] : Fin 2 → Nat) a + S400x128.size a ≤ S10000x128.size a
  inb_S10000x128_S400x128_2000_0 : ∀ a, (![2000, 0] : Fin 2 → Nat) a + S400x128.size a ≤ S10000x128.size a
  inb_S10000x128_S400x128_2400_0 : ∀ a, (![2400, 0] : Fin 2 → Nat) a + S400x128.size a ≤ S10000x128.size a
  inb_S10000x128_S400x128_2800_0 : ∀ a, (![2800, 0] : Fin 2 → Nat) a + S400x128.size a ≤ S10000x128.size a
  inb_S10000x128_S400x128_3200_0 : ∀ a, (![3200, 0] : Fin 2 → Nat) a + S400x128.size a ≤ S10000x128.size a
  inb_S10000x128_S400x128_3600_0 : ∀ a, (![3600, 0] : Fin 2 → Nat) a + S400x128.size a ≤ S10000x128.size a
  inb_S10000x128_S400x128_4000_0 : ∀ a, (![4000, 0] : Fin 2 → Nat) a + S400x128.size a ≤ S10000x128.size a
  inb_S10000x128_S400x128_4400_0 : ∀ a, (![4400, 0] : Fin 2 → Nat) a + S400x128.size a ≤ S10000x128.size a
  inb_S10000x128_S400x128_4800_0 : ∀ a, (![4800, 0] : Fin 2 → Nat) a + S400x128.size a ≤ S10000x128.size a
  inb_S10000x128_S400x128_5200_0 : ∀ a, (![5200, 0] : Fin 2 → Nat) a + S400x128.size a ≤ S10000x128.size a
  inb_S10000x128_S400x128_5600_0 : ∀ a, (![5600, 0] : Fin 2 → Nat) a + S400x128.size a ≤ S10000x128.size a
  inb_S10000x128_S400x128_6000_0 : ∀ a, (![6000, 0] : Fin 2 → Nat) a + S400x128.size a ≤ S10000x128.size a
  inb_S10000x128_S400x128_6400_0 : ∀ a, (![6400, 0] : Fin 2 → Nat) a + S400x128.size a ≤ S10000x128.size a
  inb_S10000x128_S400x128_6800_0 : ∀ a, (![6800, 0] : Fin 2 → Nat) a + S400x128.size a ≤ S10000x128.size a
  inb_S10000x128_S400x128_7200_0 : ∀ a, (![7200, 0] : Fin 2 → Nat) a + S400x128.size a ≤ S10000x128.size a
  inb_S10000x128_S400x128_7600_0 : ∀ a, (![7600, 0] : Fin 2 → Nat) a + S400x128.size a ≤ S10000x128.size a
  inb_S10000x128_S400x128_8000_0 : ∀ a, (![8000, 0] : Fin 2 → Nat) a + S400x128.size a ≤ S10000x128.size a
  inb_S10000x128_S400x128_8400_0 : ∀ a, (![8400, 0] : Fin 2 → Nat) a + S400x128.size a ≤ S10000x128.size a
  inb_S10000x128_S400x128_8800_0 : ∀ a, (![8800, 0] : Fin 2 → Nat) a + S400x128.size a ≤ S10000x128.size a
  inb_S10000x128_S400x128_9200_0 : ∀ a, (![9200, 0] : Fin 2 → Nat) a + S400x128.size a ≤ S10000x128.size a
  inb_S10000x128_S400x128_9600_0 : ∀ a, (![9600, 0] : Fin 2 → Nat) a + S400x128.size a ≤ S10000x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  broadcasts_S1x128_S400x128 : S1x128.Broadcasts S400x128
  reduces_S400x128_S128 : S400x128.Reduces [0] S128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S128x4 : S1x512.ShapeCasts S128x4
  dot_S400x128_S128x128_S400x128_1_0_0_1_n_n_wf : DotDims.WF S400x128 S128x128 S400x128 [1] [0] [0] [1] [] []
  dot_S400x10000_S10000x128_S400x128_1_0_0_1_n_n_wf : DotDims.WF S400x10000 S10000x128 S400x128 [1] [0] [0] [1] [] []
  dot_S1x128_S128x512_S1x512_1_0_0_1_n_n_wf : DotDims.WF S1x128 S128x512 S1x512 [1] [0] [0] [1] [] []
  hrank0 : 0 < grid0.rank
  k0_off1_inb : ∀ i : grid0.Coords, ∀ (k0_h2 : k0_cond2 i = 1#1), ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S128x512.size a
  hwx0_6 : ∀ i : grid0.Coords, EltTy.bits .f32 = 32 ∨ (Rect.block (s := S128x512) S128x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)

variable [Facts₀]

def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S1x128_S128x512_S1x512_1_0_0_1_n_n : DotDims S1x128 S128x512 S1x512 where
  lhsContracting := [1]
  rhsContracting := [0]
  lhsNonContracting := [0]
  rhsNonContracting := [1]
  lhsBatch := []
  rhsBatch := []
  wf := dot_S1x128_S128x512_S1x512_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x512.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond4 i == 1#1) | ⟨_ + 9, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S1x128 : Shape := ⟨2, ![1, 128]⟩
abbrev S_ : Shape := ⟨0, ![]⟩
abbrev S1x512 : Shape := ⟨2, ![1, 512]⟩
abbrev S128x4 : Shape := ⟨2, ![128, 4]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x512, .f32⟩
  | .hbm, ⟨7, _⟩ => ⟨S512, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S128x4, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S128_d0 : S10000x128.ReducesTo [0] S128
  h_S_ : 0 < S_.numel
  bcast_S_S1x128 : S_.BroadcastsInDim S1x128 (![] : Fin 0 → Fin S1x128.rank)
  bcast_S512_S1x512_1 : S512.BroadcastsInDim S1x512 (![1] : Fin 1 → Fin S1x512.rank)
  shapeCasts_S1x512_S128x4 : S1x512.ShapeCasts S128x4
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S1x128_S128x512_S1x512_1_0_0_1_n_n_wf : DotDims.WF S1x128 S128x512 S1x512 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S1x128_S128x512_S1x512_1_0_0_1_n_n : DotDims S1x128 S128x512 S1x512 where
  lhsContracting := [1]
  rhsContracting := [0]
  lhsNonContracting := [0]
  rhsNonContracting := [1]
  lhsBatch := []
  rhsBatch := []
  wf := dot_S1x128_S128x512_S1x512_1_0_0_1_n_n_wf

class Facts : Prop extends Facts₀ where

variable [Facts]
-- ==== Proof.KernelBody.lean ====
/-
  The body of the two-layer graph-convolution kernel at a symbolic grid point, for any float instance.
  The grid is (phase p ∈ {0,1}) × (row block i ∈ 0..24). At a point the body does, in order:
    * if p = 0 and i = 0: fills the scratch Y1 with x · W1, twenty-five blocks of 400 rows, and zeroes the running column sum;
    * if p = 0: stores rows [400 i, 400 i + 400) of the scratch Y2 with  max(adj_i · Y1 + b1, 0) · W2;
    * if p = 1: adds to the running column sum the column sums of  max(adj_i · Y2 + b2, 0);
    * if p = 1 and i = 24: stores the output row  (sum · 1/10000) · Wr + br.
  Four kinds of point occur (first, rest of phase 0, phase 1 but the last, last); each is run once here, from the
  input blocks and the three scratch buffers at named contents to the contents the stores leave.
-/
import proofs.«121906_g47081431499005_cont_8to1c4_562_17_alg».proof.Proof.Gen.Kernel
import proofs.«121906_g47081431499005_cont_8to1c4_562_17_alg».proof.Proof.Gen.Kernel.Skeleton
import proofs.«121906_g47081431499005_cont_8to1c4_562_17_alg».proof.Proof.Gen.Kernel.Launch
import Idealize.ShloMosaic.Lib.Writes
import Idealize.ShloMosaic.Lib.Pipeline.FrameBody
import Idealize.ShloMosaic.Lib.Ring
import Idealize.ShloMosaic.Lib.Tactic

set_option maxRecDepth 16384

noncomputable section

namespace Cert.Proof.KernelBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The four branch conditions at a point, as the body computes them -/

/-- p = 0 and i = 0. -/
abbrev IsInit (i : grid0.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1
/-- p = 0. -/
abbrev IsL1 (i : grid0.Coords) : Prop := k0_cond2 i = 1#1
/-- p = 1. -/
abbrev IsL2 (i : grid0.Coords) : Prop := Scalar.cmpi .ne (Scalar.extui (Scalar.cmpi .eq (BitVec.ofNat 32 (i 0).val) 1#32)) 0#32 = 1#1
/-- p = 1 and i = 24. -/
abbrev IsOut (i : grid0.Coords) : Prop := k0_cond4 i = 1#1

/-! ## The rectangles the body loads and stores through -/

abbrev rX : Rect S10000x128 := Rect.unit (s := S10000x128) ![0, 0] S10000x128.size inb_S10000x128_S10000x128_0_0
abbrev rAdj : Rect S400x10000 := Rect.unit (s := S400x10000) ![0, 0] S400x10000.size inb_S400x10000_S400x10000_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rWr : Rect S128x512 := Rect.unit (s := S128x512) ![0, 0] S128x512.size inb_S128x512_S128x512_0_0
abbrev rBr : Rect S1x512 := Rect.unit (s := S1x512) ![0, 0] S1x512.size inb_S1x512_S1x512_0_0
/-- Rows [o, o + 400) of a 10000-row scratch, o a multiple of 400. -/
abbrev rC0 : Rect S10000x128 := Rect.unit (s := S10000x128) ![0, 0] S400x128.size inb_S10000x128_S400x128_0_0
abbrev rC400 : Rect S10000x128 := Rect.unit (s := S10000x128) ![400, 0] S400x128.size inb_S10000x128_S400x128_400_0
abbrev rC800 : Rect S10000x128 := Rect.unit (s := S10000x128) ![800, 0] S400x128.size inb_S10000x128_S400x128_800_0
abbrev rC1200 : Rect S10000x128 := Rect.unit (s := S10000x128) ![1200, 0] S400x128.size inb_S10000x128_S400x128_1200_0
abbrev rC1600 : Rect S10000x128 := Rect.unit (s := S10000x128) ![1600, 0] S400x128.size inb_S10000x128_S400x128_1600_0
abbrev rC2000 : Rect S10000x128 := Rect.unit (s := S10000x128) ![2000, 0] S400x128.size inb_S10000x128_S400x128_2000_0
abbrev rC2400 : Rect S10000x128 := Rect.unit (s := S10000x128) ![2400, 0] S400x128.size inb_S10000x128_S400x128_2400_0
abbrev rC2800 : Rect S10000x128 := Rect.unit (s := S10000x128) ![2800, 0] S400x128.size inb_S10000x128_S400x128_2800_0
abbrev rC3200 : Rect S10000x128 := Rect.unit (s := S10000x128) ![3200, 0] S400x128.size inb_S10000x128_S400x128_3200_0
abbrev rC3600 : Rect S10000x128 := Rect.unit (s := S10000x128) ![3600, 0] S400x128.size inb_S10000x128_S400x128_3600_0
abbrev rC4000 : Rect S10000x128 := Rect.unit (s := S10000x128) ![4000, 0] S400x128.size inb_S10000x128_S400x128_4000_0
abbrev rC4400 : Rect S10000x128 := Rect.unit (s := S10000x128) ![4400, 0] S400x128.size inb_S10000x128_S400x128_4400_0
abbrev rC4800 : Rect S10000x128 := Rect.unit (s := S10000x128) ![4800, 0] S400x128.size inb_S10000x128_S400x128_4800_0
abbrev rC5200 : Rect S10000x128 := Rect.unit (s := S10000x128) ![5200, 0] S400x128.size inb_S10000x128_S400x128_5200_0
abbrev rC5600 : Rect S10000x128 := Rect.unit (s := S10000x128) ![5600, 0] S400x128.size inb_S10000x128_S400x128_5600_0
abbrev rC6000 : Rect S10000x128 := Rect.unit (s := S10000x128) ![6000, 0] S400x128.size inb_S10000x128_S400x128_6000_0
abbrev rC6400 : Rect S10000x128 := Rect.unit (s := S10000x128) ![6400, 0] S400x128.size inb_S10000x128_S400x128_6400_0
abbrev rC6800 : Rect S10000x128 := Rect.unit (s := S10000x128) ![6800, 0] S400x128.size inb_S10000x128_S400x128_6800_0
abbrev rC7200 : Rect S10000x128 := Rect.unit (s := S10000x128) ![7200, 0] S400x128.size inb_S10000x128_S400x128_7200_0
abbrev rC7600 : Rect S10000x128 := Rect.unit (s := S10000x128) ![7600, 0] S400x128.size inb_S10000x128_S400x128_7600_0
abbrev rC8000 : Rect S10000x128 := Rect.unit (s := S10000x128) ![8000, 0] S400x128.size inb_S10000x128_S400x128_8000_0
abbrev rC8400 : Rect S10000x128 := Rect.unit (s := S10000x128) ![8400, 0] S400x128.size inb_S10000x128_S400x128_8400_0
abbrev rC8800 : Rect S10000x128 := Rect.unit (s := S10000x128) ![8800, 0] S400x128.size inb_S10000x128_S400x128_8800_0
abbrev rC9200 : Rect S10000x128 := Rect.unit (s := S10000x128) ![9200, 0] S400x128.size inb_S10000x128_S400x128_9200_0
abbrev rC9600 : Rect S10000x128 := Rect.unit (s := S10000x128) ![9600, 0] S400x128.size inb_S10000x128_S400x128_9600_0
/-- Rows [400 i, 400 i + 400) of the scratch Y2, the offset as the body computes it from the point. -/
abbrev rOff (i : grid0.Coords) (h : IsL1 i) : Rect S10000x128 := Rect.unit (s := S10000x128) (k0_off1 i) S400x128.size (k0_off1_inb i h)

/-! ## What the stores leave -/

/-- The twenty-five stores of x · W1, newest first: block j is the product of rows [400 j, 400 j + 400) of x with W1. -/
def y1Pieces (x0 : Vec F S10000x128 .f32) (x2 : Vec F S128x128 .f32) : List (View.Piece (Elt F) S10000x128 .f32) :=
  [⟨rC9600, k0_pay31 (View.ld x0 rC9600) (View.ld x2 rW)⟩,
   ⟨rC9200, k0_pay30 (View.ld x0 rC9200) (View.ld x2 rW)⟩,
   ⟨rC8800, k0_pay29 (View.ld x0 rC8800) (View.ld x2 rW)⟩,
   ⟨rC8400, k0_pay28 (View.ld x0 rC8400) (View.ld x2 rW)⟩,
   ⟨rC8000, k0_pay27 (View.ld x0 rC8000) (View.ld x2 rW)⟩,
   ⟨rC7600, k0_pay26 (View.ld x0 rC7600) (View.ld x2 rW)⟩,
   ⟨rC7200, k0_pay25 (View.ld x0 rC7200) (View.ld x2 rW)⟩,
   ⟨rC6800, k0_pay24 (View.ld x0 rC6800) (View.ld x2 rW)⟩,
   ⟨rC6400, k0_pay23 (View.ld x0 rC6400) (View.ld x2 rW)⟩,
   ⟨rC6000, k0_pay22 (View.ld x0 rC6000) (View.ld x2 rW)⟩,
   ⟨rC5600, k0_pay21 (View.ld x0 rC5600) (View.ld x2 rW)⟩,
   ⟨rC5200, k0_pay20 (View.ld x0 rC5200) (View.ld x2 rW)⟩,
   ⟨rC4800, k0_pay19 (k0_pay18 (View.ld x0 rC4800) (View.ld x2 rW))⟩,
   ⟨rC4400, k0_pay17 (View.ld x0 rC4400) (View.ld x2 rW)⟩,
   ⟨rC4000, k0_pay16 (View.ld x0 rC4000) (View.ld x2 rW)⟩,
   ⟨rC3600, k0_pay15 (View.ld x0 rC3600) (View.ld x2 rW)⟩,
   ⟨rC3200, k0_pay14 (k0_pay13 (View.ld x0 rC3200) (View.ld x2 rW))⟩,
   ⟨rC2800, k0_pay12 (View.ld x0 rC2800) (View.ld x2 rW)⟩,
   ⟨rC2400, k0_pay11 (View.ld x0 rC2400) (View.ld x2 rW)⟩,
   ⟨rC2000, k0_pay10 (View.ld x0 rC2000) (View.ld x2 rW)⟩,
   ⟨rC1600, k0_pay9 (View.ld x0 rC1600) (View.ld x2 rW)⟩,
   ⟨rC1200, k0_pay8 (View.ld x0 rC1200) (View.ld x2 rW)⟩,
   ⟨rC800, k0_pay7 (View.ld x0 rC800) (View.ld x2 rW)⟩,
   ⟨rC400, k0_pay6 (View.ld x0 rC400) (View.ld x2 rW)⟩,
   ⟨rC0, k0_pay5 (View.ld x0 rC0) (View.ld x2 rW)⟩]

/-- They tile the scratch. -/
theorem y1cover (x0 : Vec F S10000x128 .f32) (x2 : Vec F S128x128 .f32) (y : S10000x128.Idx) :
    ∃ pc ∈ y1Pieces x0 x2, y ∈ pc.1.set :=
  View.cover_of_tiledL (y1Pieces x0 x2) S400x128.size (by sl_kernel_rfl) y

/-- The scratch Y1 after the first point: x · W1. -/
def y1v (x0 : Vec F S10000x128 .f32) (x2 : Vec F S128x128 .f32) : Vec F S10000x128 .f32 := View.canon (y1Pieces x0 x2)

/-- One block of 400 rows of Y2: max(adj_i · Y1 + b1, 0) · W2, of the adjacency block, the whole Y1, b1 and W2. -/
abbrev layer1 (x1 : Vec F S400x10000 .f32) (y1 : Vec F S10000x128 .f32) (x3 : Vec F S1x128 .f32) (x4 : Vec F S128x128 .f32) : FVec F S400x128 .f32 :=
  k0_pay2 (View.ld x1 rAdj) (View.ld y1 rX) (View.ld x3 rB) (View.ld x4 rW)

/-- The scratch Y2 after a point of phase 0 stores its block over the contents `a1` it found. -/
def y2w (P1 : Memref sig .tc .vmem S10000x128 .f32) (g1 : P1.IsWhole) (a1 : Vec F S10000x128 .f32) (i : grid0.Coords) (h : IsL1 i)
    (p : FVec F S400x128 .f32) : Vec F S10000x128 .f32 :=
  P1.view.read (Elt F) (P1.view.writes (Elt F) (g1.unread a1) [⟨rOff i h, p⟩])

/-- The running column sum, zeroed. -/
def acc0 : Vec F S1x128 .f32 := View.canon [⟨rB, k0_pay1 (k0_pay32 (F := F))⟩]
/-- The running column sum after a point of phase 1: what it held plus the column sums of max(adj_i · Y2 + b2, 0). -/
def accStep (x1 : Vec F S400x10000 .f32) (y2 : Vec F S10000x128 .f32) (x5 : Vec F S1x128 .f32) (a2 : Vec F S1x128 .f32) : Vec F S1x128 .f32 :=
  View.canon [⟨rB, k0_pay3 (View.ld x1 rAdj) (View.ld y2 rX) (View.ld x5 rB) (View.ld a2 rB)⟩]
/-- The output row the last point stores: (sum · 1/10000) · Wr + br. -/
def outv (acc : Vec F S1x128 .f32) (x6 : Vec F S128x512 .f32) (x7 : Vec F S1x512 .f32) : Vec F S1x512 .f32 :=
  View.canon [⟨rBr, k0_pay4 (View.ld acc rB) (View.ld x6 rWr) (View.ld x7 rBr)⟩]

omit [FloatOps F] in
theorem coverB (p : Vec F S1x128 .f32) (y : S1x128.Idx) : ∃ pc ∈ ([⟨rB, p⟩] : List (View.Piece (Elt F) S1x128 .f32)), y ∈ pc.1.set :=
  View.cover_of_tiled [⟨rB, p⟩] S1x128.size (by rfl) y
omit [FloatOps F] in
theorem coverBr (p : Vec F S1x512 .f32) (y : S1x512.Idx) : ∃ pc ∈ ([⟨rBr, p⟩] : List (View.Piece (Elt F) S1x512 .f32)), y ∈ pc.1.set :=
  View.cover_of_tiled [⟨rBr, p⟩] S1x512.size (by rfl) y

/-! ## The four runs -/

section Runs

variable (c : Dev nD) (i : grid0.Coords)
  (M0 : Memref sig .tc .vmem S10000x128 .f32) (h0 : M0.IsWhole) (M1 : Memref sig .tc .vmem S400x10000 .f32) (h1 : M1.IsWhole)
  (M2 : Memref sig .tc .vmem S128x128 .f32) (h2 : M2.IsWhole) (M3 : Memref sig .tc .vmem S1x128 .f32) (h3 : M3.IsWhole)
  (M4 : Memref sig .tc .vmem S128x128 .f32) (h4 : M4.IsWhole) (M5 : Memref sig .tc .vmem S1x128 .f32) (h5 : M5.IsWhole)
  (M6 : Memref sig .tc .vmem S128x512 .f32) (h6 : M6.IsWhole) (M7 : Memref sig .tc .vmem S1x512 .f32) (h7 : M7.IsWhole)
  (M8 : Memref sig .tc .vmem S1x512 .f32) (h8 : M8.IsWhole)
  (P0 : Memref sig .tc .vmem S10000x128 .f32) (g0 : P0.IsWhole) (P1 : Memref sig .tc .vmem S10000x128 .f32) (g1 : P1.IsWhole)
  (P2 : Memref sig .tc .vmem S1x128 .f32) (g2 : P2.IsWhole)
  (x0 : Vec F S10000x128 .f32) (x1 : Vec F S400x10000 .f32) (x2 : Vec F S128x128 .f32) (x3 : Vec F S1x128 .f32)
  (x4 : Vec F S128x128 .f32) (x5 : Vec F S1x128 .f32) (x6 : Vec F S128x512 .f32) (x7 : Vec F S1x512 .f32)
  (a0 a1 : Vec F S10000x128 .f32) (a2 : Vec F S1x128 .f32)

local notation "BODY" => cc0__gcn_body i M0 h0 M1 h1 M2 h2 M3 h3 M4 h4 M5 h5 M6 h6 M7 h7 M8 h8 P0 g0 P1 g1 P2 g2

/-- The first point: whatever the scratch buffers held, Y1 ends at x · W1, Y2 with its first block stored, the sum at zero. -/
theorem run_first (hc1 : IsInit i) (hc2 : IsL1 i) (hc3 : ¬ IsL2 i) (hc4 : ¬ IsOut i) (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ O
      ∗ (∃ a, owns (c : Thread nD τ) P0 fullShare a) ∗ owns (c : Thread nD τ) P1 fullShare a1 ∗ (∃ a, owns (c : Thread nD τ) P2 fullShare a)
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ O
          ∗ owns (c : Thread nD τ) P0 fullShare (y1v x0 x2)
          ∗ owns (c : Thread nD τ) P1 fullShare (y2w P1 g1 a1 i hc2 (layer1 x1 (y1v x0 x2) x3 x4))
          ∗ owns (c : Thread nD τ) P2 fullShare (acc0 (F := F))) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%f4, %hf4, H4⟩, HO, ⟨%a0', %fa0, %hfa0, Ha0⟩, ⟨%fa1, %hfa1, Ha1⟩, ⟨%a2', %fa2, %hfa2, Ha2⟩, Hk⟩
  subst hf0 hf1 hf2 hf3 hf4
  obtain rfl := g1.eq_unread hfa1
  simp only [cc0__gcn_body_eq_skeleton]; unfold cc0__gcn_body_skel
  sl_exec (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [HO]; · iexact HO
  isplitl [Ha0]
  · iexists _; isplitr; swap; (· iexact Ha0); ipureintro; exact View.read_writes_eq_canon _ _ _ (y1cover _ _)
  isplitl [Ha1]
  · iexists _; isplitr; swap; (· iexact Ha1); ipureintro
    exact congrArg (fun z => P1.view.read (Elt F) (P1.view.writes (Elt F) (g1.unread a1) [⟨rOff i hc2, k0_pay2 (View.ld (M1.view.read (Elt F) f1) rAdj) z (View.ld (M3.view.read (Elt F) f3) rB) (View.ld (M4.view.read (Elt F) f4) rW)⟩]))
      (View.readCov_eq_canon_ld P0.view (y1Pieces (M0.view.read (Elt F) f0) (M2.view.read (Elt F) f2)) rX (y1cover _ _))
  iexists _; isplitr; swap; (· iexact Ha2); ipureintro; exact View.read_writes_eq_canon _ _ _ (coverB _)

/-- A later point of phase 0: Y1 at `a0` and the sum are as found; Y2 at `a1` gets its block stored. -/
theorem run_l1 (hc1 : ¬ IsInit i) (hc2 : IsL1 i) (hc3 : ¬ IsL2 i) (hc4 : ¬ IsOut i) (O : sProp 𝕄) (Q : PUnit → sProp 𝕄) :
    iprop(owns (c : Thread nD τ) M1 fullShare x1 ∗ owns (c : Thread nD τ) M3 fullShare x3 ∗ owns (c : Thread nD τ) M4 fullShare x4 ∗ O
      ∗ owns (c : Thread nD τ) P0 fullShare a0 ∗ owns (c : Thread nD τ) P1 fullShare a1
      ∗ (iprop(owns (c : Thread nD τ) M1 fullShare x1 ∗ owns (c : Thread nD τ) M3 fullShare x3 ∗ owns (c : Thread nD τ) M4 fullShare x4 ∗ O
          ∗ owns (c : Thread nD τ) P0 fullShare a0
          ∗ owns (c : Thread nD τ) P1 fullShare (y2w P1 g1 a1 i hc2 (layer1 x1 a0 x3 x4))) -∗ Q ⟨⟩))
      ⊢ wp frame (wpE (defs₀ (F := F)) Variants.none c none) Set.univ BODY Q := by
  unfold owns
  iintro ⟨⟨%f1, %hf1, H1⟩, ⟨%f3, %hf3, H3⟩, ⟨%f4, %hf4, H4⟩, HO, ⟨%fa0, %hfa0, Ha0⟩, ⟨%fa1, %hfa1, Ha1⟩, Hk⟩
  subst hf1 hf3 hf4 hfa0
  obtain rfl := g1.eq_unread hfa1
  simp only [cc0__gcn_body_eq_skeleton]; unfold cc0__gcn_body_skel
  sl_exec (disch := assumption)
  sl_step
  iapply Hk
  isplitl [H1]; · iexists f1; isplitr; (· ipureintro; rfl); iexact H1
  isplitl [H3]; · iexists f3; isplitr; (· ipureintro; rfl); iexact H3
  isplitl [H4]; · iexists f4; isplitr; (· ipureintro; rfl); iexact H4
  isplitl [HO]; · iexact HO
  isplitl [Ha0]; · iexists fa0; isplitr; (· ipureintro; rfl); iexact Ha0
  iexists _; isplitr; swap; (· iexact Ha1); ipureintro; rfl

/-- A point of phase 1 but the last: Y2 at `a1` is as found, the sum at `a2` gets this block's column sums added. -/
theorem run_l2 (hc1 : ¬ IsInit i) (hc2 : ¬ IsL1 i) (hc3 : IsL2 i) (hc4 : ¬ IsOut i) (O : sProp 𝕄) (Q : PUnit → sProp 𝕄) :
    iprop(owns (c : Thread nD τ) M1 fullShare x1 ∗ owns (c : Thread nD τ) M5 fullShare x5 ∗ O
      ∗ owns (c : Thread nD τ) P1 fullShare a1 ∗ owns (c : Thread nD τ) P2 fullShare a2
      ∗ (iprop(owns (c : Thread nD τ) M1 fullShare x1 ∗ owns (c : Thread nD τ) M5 fullShare x5 ∗ O
          ∗ owns (c : Thread nD τ) P1 fullShare a1 ∗ owns (c : Thread nD τ) P2 fullShare (accStep x1 a1 x5 a2)) -∗ Q ⟨⟩))
      ⊢ wp frame (wpE (defs₀ (F := F)) Variants.none c none) Set.univ BODY Q := by
  unfold owns
  iintro ⟨⟨%f1, %hf1, H1⟩, ⟨%f5, %hf5, H5⟩, HO, ⟨%fa1, %hfa1, Ha1⟩, ⟨%fa2, %hfa2, Ha2⟩, Hk⟩
  subst hf1 hf5 hfa1 hfa2
  simp only [cc0__gcn_body_eq_skeleton]; unfold cc0__gcn_body_skel
  sl_exec (disch := assumption)
  sl_step
  iapply Hk
  isplitl [H1]; · iexists f1; isplitr; (· ipureintro; rfl); iexact H1
  isplitl [H5]; · iexists f5; isplitr; (· ipureintro; rfl); iexact H5
  isplitl [HO]; · iexact HO
  isplitl [Ha1]; · iexists fa1; isplitr; (· ipureintro; rfl); iexact Ha1
  iexists _; isplitr; swap; (· iexact Ha2); ipureintro; exact View.read_writes_eq_canon _ _ _ (coverB _)

/-- The last point: as a point of phase 1, and the output's buffer, whatever it held, ends at the output row of the new sum. -/
theorem run_last (hc1 : ¬ IsInit i) (hc2 : ¬ IsL1 i) (hc3 : IsL2 i) (hc4 : IsOut i) (Q : PUnit → sProp 𝕄) :
    iprop(owns (c : Thread nD τ) M1 fullShare x1 ∗ owns (c : Thread nD τ) M5 fullShare x5 ∗ owns (c : Thread nD τ) M6 fullShare x6
      ∗ owns (c : Thread nD τ) M7 fullShare x7 ∗ (∃ d, owns (c : Thread nD τ) M8 fullShare d)
      ∗ owns (c : Thread nD τ) P1 fullShare a1 ∗ owns (c : Thread nD τ) P2 fullShare a2
      ∗ (iprop(owns (c : Thread nD τ) M1 fullShare x1 ∗ owns (c : Thread nD τ) M5 fullShare x5 ∗ owns (c : Thread nD τ) M6 fullShare x6
          ∗ owns (c : Thread nD τ) M7 fullShare x7 ∗ owns (c : Thread nD τ) M8 fullShare (outv (accStep x1 a1 x5 a2) x6 x7)
          ∗ owns (c : Thread nD τ) P1 fullShare a1 ∗ owns (c : Thread nD τ) P2 fullShare (accStep x1 a1 x5 a2)) -∗ Q ⟨⟩))
      ⊢ wp frame (wpE (defs₀ (F := F)) Variants.none c none) Set.univ BODY Q := by
  unfold owns
  iintro ⟨⟨%f1, %hf1, H1⟩, ⟨%f5, %hf5, H5⟩, ⟨%f6, %hf6, H6⟩, ⟨%f7, %hf7, H7⟩, ⟨%d8, %f8, %hf8, H8⟩, ⟨%fa1, %hfa1, Ha1⟩, ⟨%fa2, %hfa2, Ha2⟩, Hk⟩
  subst hf1 hf5 hf6 hf7 hfa1 hfa2
  simp only [cc0__gcn_body_eq_skeleton]; unfold cc0__gcn_body_skel
  sl_exec (disch := assumption)
  sl_step
  iapply Hk
  isplitl [H1]; · iexists f1; isplitr; (· ipureintro; rfl); iexact H1
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]
  · iexists _; isplitr; swap; (· iexact H8); ipureintro
    refine (View.read_writes_eq_canon _ _ _ (coverBr _)).trans ?_
    exact congrArg (fun z => View.canon [(⟨rBr, k0_pay4 z (View.ld (M6.view.read (Elt F) f6) rWr) (View.ld (M7.view.read (Elt F) f7) rBr)⟩ : View.Piece (Elt F) S1x512 .f32)])
      (View.readCov_eq_canon_ld P2.view _ rB (coverB _))
  isplitl [Ha1]; · iexists fa1; isplitr; (· ipureintro; rfl); iexact Ha1
  iexists _; isplitr; swap; (· iexact Ha2); ipureintro; exact View.read_writes_eq_canon _ _ _ (coverB _)

end Runs

end Cert.Proof.KernelBody

end
-- ==== Proof.KernelPoints.lean ====
/-
  The kernel's run as a pipeline of fifty points, for any float instance: what the three scratch buffers hold before each
  point, and that the body at each point takes that to what they hold before the next.
  Before point 0 the scratch buffers hold anything. Before point k ≥ 1: Y1 holds x · W1; rows [0, 400 · min k 25) of Y2
  hold max(adj · Y1 + b1, 0) · W2 (its later rows whatever they held); the running sum holds zero while k ≤ 25 and, for
  k = 25 + j, the column sums of max(adj · Y2 + b2, 0) over the first j blocks of rows, added block after block.
  The output row is stored at the last point only, from the final sum.
-/
import proofs.«121906_g47081431499005_cont_8to1c4_562_17_alg».proof.Proof.KernelBody
import proofs.«121906_g47081431499005_cont_8to1c4_562_17_alg».proof.Proof.Gen.Kernel.Frame
import proofs.«121906_g47081431499005_cont_8to1c4_562_17_alg».proof.Proof.Gen.Kernel.Points
import Idealize.ShloMosaic.Lib.WritesUnit
import Idealize.ShloMosaic.Lib.ValueIdx

set_option maxRecDepth 16384

noncomputable section

namespace Cert.Proof.KernelBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The kinds of point: point t is (phase t / 25, block t % 25) -/

theorem N_fifty : cfg0.N = 50 := N_0

theorem isInit_iff : ∀ t : Fin cfg0.N, IsInit (grid0.coords t) ↔ t.val = 0 :=
  (by decide +kernel : ∀ t : Fin grid0.N, IsInit (grid0.coords t) ↔ t.val = 0)
theorem isL1_iff : ∀ t : Fin cfg0.N, IsL1 (grid0.coords t) ↔ t.val < 25 :=
  (by decide +kernel : ∀ t : Fin grid0.N, IsL1 (grid0.coords t) ↔ t.val < 25)
theorem isL2_iff : ∀ t : Fin cfg0.N, IsL2 (grid0.coords t) ↔ 25 ≤ t.val :=
  (by decide +kernel : ∀ t : Fin grid0.N, IsL2 (grid0.coords t) ↔ 25 ≤ t.val)
theorem isOut_iff : ∀ t : Fin cfg0.N, IsOut (grid0.coords t) ↔ t.val = 49 :=
  (by decide +kernel : ∀ t : Fin grid0.N, IsOut (grid0.coords t) ↔ t.val = 49)
/-- In phase 0 the block of Y2 a point stores starts at row 400 t. -/
theorem off_eq : ∀ t : Fin cfg0.N, t.val < 25 → k0_off1 (grid0.coords t) = ![400 * t.val, 0] :=
  (by decide +kernel : ∀ t : Fin grid0.N, t.val < 25 → k0_off1 (grid0.coords t) = ![400 * t.val, 0])

/-- The output's window is idle except at the last point, and written back exactly there. -/
theorem idle8_of_out (t : Fin cfg0.N) (h : IsOut (grid0.coords t)) : idle0 8 (grid0.coords t) = false := by
  show (!(k0_cond4 (grid0.coords t) == 1#1)) = false; rw [show (k0_cond4 (grid0.coords t) == 1#1) = true from beq_iff_eq.mpr h]; rfl
theorem idle8_of_not_out (t : Fin cfg0.N) (h : ¬ IsOut (grid0.coords t)) : idle0 8 (grid0.coords t) = true := by
  show (!(k0_cond4 (grid0.coords t) == 1#1)) = true; rw [show (k0_cond4 (grid0.coords t) == 1#1) = false from beq_eq_false_iff_ne.mpr h]; rfl
theorem flush8_of_not_out (t : Fin cfg0.N) (h : ¬ IsOut (grid0.coords t)) : (cfg0.win 8).flush t = false :=
  Bool.eq_false_iff.mpr fun hf => h ((isOut_iff t).mpr (by have h1 := (flush0_8 t).mp hf; have h2 : t.val < 50 := lt_of_lt_of_eq t.isLt N_fifty; omega))

variable (m : (ℓ : Loc nD τ sig) → Buf (Elt F) ℓ) (ρ : Dev nD → PrngReg)

/-! ## The scratch buffers and the input blocks -/

abbrev sc0 : Memref sig .tc .vmem S10000x128 .f32 := Memref.whole cc0_scratch0
abbrev sc1 : Memref sig .tc .vmem S10000x128 .f32 := Memref.whole cc0_scratch1
abbrev sc2 : Memref sig .tc .vmem S1x128 .f32 := Memref.whole cc0_scratch2

/-- The input blocks at a point: x, the adjacency's block of 400 rows, W1, b1, W2, b2, Wr, br. -/
abbrev bx (c : Dev nD) (t : Fin cfg0.N) : Vec F S10000x128 .f32 := iblk m c 0 t
abbrev badj (c : Dev nD) (t : Fin cfg0.N) : Vec F S400x10000 .f32 := iblk m c 1 t
abbrev bW1 (c : Dev nD) (t : Fin cfg0.N) : Vec F S128x128 .f32 := iblk m c 2 t
abbrev bb1 (c : Dev nD) (t : Fin cfg0.N) : Vec F S1x128 .f32 := iblk m c 3 t
abbrev bW2 (c : Dev nD) (t : Fin cfg0.N) : Vec F S128x128 .f32 := iblk m c 4 t
abbrev bb2 (c : Dev nD) (t : Fin cfg0.N) : Vec F S1x128 .f32 := iblk m c 5 t
abbrev bWr (c : Dev nD) (t : Fin cfg0.N) : Vec F S128x512 .f32 := iblk m c 6 t
abbrev bbr (c : Dev nD) (t : Fin cfg0.N) : Vec F S1x512 .f32 := iblk m c 7 t

/-- The first point. -/
def t₀ : Fin cfg0.N := ⟨0, by rw [N_fifty]; decide⟩

/-- Y1 = x · W1, as the first point leaves it. -/
def Y1 (c : Dev nD) : Vec F S10000x128 .f32 := y1v (bx m c t₀) (bW1 m c t₀)

/-- The point of phase 0 that stores row y of Y2. -/
def tOf (y : S10000x128.Idx) : Fin cfg0.N := ⟨(y 0).val / 400, by have := ValueIdx.idx2_lt0 y; rw [N_fifty]; omega⟩

/-- Y2 = max(adj · Y1 + b1, 0) · W2, row by row: row y is row y % 400 of the block its point stores. -/
def Y2 (c : Dev nD) : Vec F S10000x128 .f32 := fun y =>
  layer1 (badj m c (tOf y)) (Y1 m c) (bb1 m c (tOf y)) (bW2 m c (tOf y)) (ValueIdx.ix2 ⟨(y 0).val % 400, Nat.mod_lt _ (by decide)⟩ (y 1))

/-- Contents of the scratch Y2 whose first 400 k rows are Y2's. -/
def Good (c : Dev nD) (k : ℕ) (a1 : Vec F S10000x128 .f32) : Prop := ∀ y : S10000x128.Idx, (y 0).val < 400 * k → a1 y = Y2 m c y

/-- The running column sum before point k. -/
def accAt (c : Dev nD) : ℕ → Vec F S1x128 .f32
  | 0 => acc0
  | k + 1 => if h : k < cfg0.N then (if k < 25 then acc0 else accStep (badj m c ⟨k, h⟩) (Y2 m c) (bb2 m c ⟨k, h⟩) (accAt c k)) else acc0

theorem accAt_l1 (c : Dev nD) (k : ℕ) (hk : k ≤ 25) : accAt m c k = acc0 := by
  cases k with
  | zero => rfl
  | succ k => show (if h : k < cfg0.N then _ else _) = _; split
              · rw [if_pos (by omega)]
              · rfl
theorem accAt_l2 (c : Dev nD) (t : Fin cfg0.N) (h : 25 ≤ t.val) :
    accAt m c (t.val + 1) = accStep (badj m c t) (Y2 m c) (bb2 m c t) (accAt m c t.val) := by
  show (if h : t.val < cfg0.N then _ else _) = _
  rw [dif_pos t.isLt, if_neg (by omega)]

/-- A point of phase 0 that finds the first 400 t rows of Y2 in place leaves the first 400 (t + 1). -/
theorem good_step (c : Dev nD) (t : Fin cfg0.N) (ht : t.val < 25) (hL : IsL1 (grid0.coords t)) (g1 : sc1.IsWhole) (a1 : Vec F S10000x128 .f32)
    (ha : Good m c t.val a1) :
    Good m c (t.val + 1) (y2w sc1 g1 a1 (grid0.coords t) hL (layer1 (badj m c t) (Y1 m c) (bb1 m c t) (bW2 m c t))) := by
  intro y hy
  have hy0 := ValueIdx.idx2_lt0 y
  unfold y2w
  by_cases hrow : 400 * t.val ≤ (y 0).val
  · have htof : tOf y = t := Fin.ext (by show (y 0).val / 400 = t.val; omega)
    rw [View.read_writes_cons_rows_of_mem (v := sc1.view) (f := g1.unread a1) (k0_off1_inb (grid0.coords t) hL) _ [] y
      (ValueIdx.ix2 ⟨(y 0).val % 400, Nat.mod_lt _ (by decide)⟩ (y 1)) (off_eq t ht)
      (by show (y 0).val = 400 * t.val + (y 0).val % 400; omega) rfl]
    unfold Y2; rw [htof]
  · rw [View.read_writes_cons_rows_of_not_mem (v := sc1.view) (f := g1.unread a1) (k0_off1_inb (grid0.coords t) hL) _ [] y
      (off_eq t ht) (W := 400) rfl (Or.inl (by omega)), View.writes_nil, g1.read_unread]
    exact ha y (by omega)

theorem good_mono (c : Dev nD) {k k' : ℕ} (h : k' ≤ k) (a1 : Vec F S10000x128 .f32) (ha : Good m c k a1) : Good m c k' a1 :=
  fun y hy => ha y (lt_of_lt_of_le hy (Nat.mul_le_mul_left _ h))

/-- Once all twenty-five blocks are in place the scratch holds Y2. -/
theorem good_full (c : Dev nD) (a1 : Vec F S10000x128 .f32) (ha : Good m c 25 a1) : a1 = Y2 m c :=
  funext fun y => ha y (by have := ValueIdx.idx2_lt0 y; omega)

end Cert.Proof.KernelBody

end
-- ==== Proof.KernelFrame.lean ====
/-
  The pipeline's proof data for the kernel's fifty points and the body's obligation at each of them, for any float instance:
  the invariant before point k is the scratch contents named in the points module; the body of each kind of point takes it
  to the invariant before point k + 1.
-/
import proofs.«121906_g47081431499005_cont_8to1c4_562_17_alg».proof.Proof.KernelPoints
import proofs.«121906_g47081431499005_cont_8to1c4_562_17_alg».proof.Proof.Gen.Kernel.Frame
import proofs.«121906_g47081431499005_cont_8to1c4_562_17_alg».proof.Proof.Gen.Kernel.Points
import Idealize.ShloMosaic.Lib.WritesUnit
import Idealize.ShloMosaic.Lib.ValueIdx

set_option maxRecDepth 16384

noncomputable section

namespace Cert.Proof.KernelBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The scratch buffers before point k. -/
def scPart (c : Dev nD) (k : Fin (cfg0.N + 1)) : sProp 𝕄 :=
  if k.val = 0 then iprop((∃ a, owns (c : Thread nD τ) sc0 fullShare a) ∗ (∃ a, owns (c : Thread nD τ) sc1 fullShare a) ∗ (∃ a, owns (c : Thread nD τ) sc2 fullShare a))
  else iprop(owns (c : Thread nD τ) sc0 fullShare (Y1 m c) ∗ (∃ a1, ⌜Good m c (min k.val 25) a1⌝ ∗ owns (c : Thread nD τ) sc1 fullShare a1)
    ∗ owns (c : Thread nD τ) sc2 fullShare (accAt m c k.val))
def Φv (c : Dev nD) (k : Fin (cfg0.N + 1)) : sProp 𝕄 := iprop(scPart m c k ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outv (accAt m c (t.val + 1)) (bWr m c t) (bbr m c t)
  Φ k := Φv m c k
  q _ := fullShare
  owed _ := 0

abbrev 𝒱₀ : Variants := Variants.none

theorem before_0 (c : Dev nD) (t : Fin cfg0.N) (d) : (dats m 0 c).before 0 t d = iblk m c 0 t :=
  before0_0_of m (dats m 0 c) rfl (fun _ => rfl) t d
theorem after_0 (c : Dev nD) (t : Fin cfg0.N) : (dats m 0 c).after 0 t = iblk m c 0 t := rfl
theorem idle_0 (t : Fin cfg0.N) : idle0 0 (grid0.coords t) = false := rfl
theorem before_1 (c : Dev nD) (t : Fin cfg0.N) (d) : (dats m 0 c).before 1 t d = iblk m c 1 t :=
  before0_1_of m (dats m 0 c) rfl (fun _ => rfl) t d
theorem after_1 (c : Dev nD) (t : Fin cfg0.N) : (dats m 0 c).after 1 t = iblk m c 1 t := rfl
theorem idle_1 (t : Fin cfg0.N) : idle0 1 (grid0.coords t) = false := rfl
theorem before_2 (c : Dev nD) (t : Fin cfg0.N) (d) : (dats m 0 c).before 2 t d = iblk m c 2 t :=
  before0_2_of m (dats m 0 c) rfl (fun _ => rfl) t d
theorem after_2 (c : Dev nD) (t : Fin cfg0.N) : (dats m 0 c).after 2 t = iblk m c 2 t := rfl
theorem idle_2 (t : Fin cfg0.N) : idle0 2 (grid0.coords t) = false := rfl
theorem before_3 (c : Dev nD) (t : Fin cfg0.N) (d) : (dats m 0 c).before 3 t d = iblk m c 3 t :=
  before0_3_of m (dats m 0 c) rfl (fun _ => rfl) t d
theorem after_3 (c : Dev nD) (t : Fin cfg0.N) : (dats m 0 c).after 3 t = iblk m c 3 t := rfl
theorem idle_3 (t : Fin cfg0.N) : idle0 3 (grid0.coords t) = false := rfl
theorem before_4 (c : Dev nD) (t : Fin cfg0.N) (d) : (dats m 0 c).before 4 t d = iblk m c 4 t :=
  before0_4_of m (dats m 0 c) rfl (fun _ => rfl) t d
theorem after_4 (c : Dev nD) (t : Fin cfg0.N) : (dats m 0 c).after 4 t = iblk m c 4 t := rfl
theorem idle_4 (t : Fin cfg0.N) : idle0 4 (grid0.coords t) = false := rfl
theorem before_5 (c : Dev nD) (t : Fin cfg0.N) (d) : (dats m 0 c).before 5 t d = iblk m c 5 t :=
  before0_5_of m (dats m 0 c) rfl (fun _ => rfl) t d
theorem after_5 (c : Dev nD) (t : Fin cfg0.N) : (dats m 0 c).after 5 t = iblk m c 5 t := rfl
theorem idle_5 (t : Fin cfg0.N) : idle0 5 (grid0.coords t) = false := rfl
theorem before_6 (c : Dev nD) (t : Fin cfg0.N) (d) : (dats m 0 c).before 6 t d = iblk m c 6 t :=
  before0_6_of m (dats m 0 c) rfl (fun _ => rfl) t d
theorem after_6 (c : Dev nD) (t : Fin cfg0.N) : (dats m 0 c).after 6 t = iblk m c 6 t := rfl
theorem idle_6 (t : Fin cfg0.N) : idle0 6 (grid0.coords t) = false := rfl
theorem before_7 (c : Dev nD) (t : Fin cfg0.N) (d) : (dats m 0 c).before 7 t d = iblk m c 7 t :=
  before0_7_of m (dats m 0 c) rfl (fun _ => rfl) t d
theorem after_7 (c : Dev nD) (t : Fin cfg0.N) : (dats m 0 c).after 7 t = iblk m c 7 t := rfl
theorem idle_7 (t : Fin cfg0.N) : idle0 7 (grid0.coords t) = false := rfl
theorem after_8 (c : Dev nD) (t : Fin cfg0.N) : (dats m 0 c).after 8 t = outv (accAt m c (t.val + 1)) (bWr m c t) (bbr m c t) := by dsimp only [dats]

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

theorem Φ_zero (c : Dev nD) (k : Fin (cfg0.N + 1)) (h : k.val = 0) :
    (dats m 0 c).Φ k = iprop(((∃ a, owns (c : Thread nD τ) sc0 fullShare a) ∗ (∃ a, owns (c : Thread nD τ) sc1 fullShare a) ∗ (∃ a, owns (c : Thread nD τ) sc2 fullShare a)) ∗ ∃ r, prngReg c r) := by
  show Φv m c _ = _; unfold Φv scPart; rw [if_pos h]
theorem Φ_pos (c : Dev nD) (k : Fin (cfg0.N + 1)) (h : k.val ≠ 0) :
    (dats m 0 c).Φ k = iprop((owns (c : Thread nD τ) sc0 fullShare (Y1 m c) ∗ (∃ a1, ⌜Good m c (min k.val 25) a1⌝ ∗ owns (c : Thread nD τ) sc1 fullShare a1)
      ∗ owns (c : Thread nD τ) sc2 fullShare (accAt m c k.val)) ∗ ∃ r, prngReg c r) := by
  show Φv m c _ = _; unfold Φv scPart; rw [if_neg h]

/-! ## The body obligation -/

set_option maxHeartbeats 1000000 in
/-- At every point the body takes the invariant before the point to the invariant after it, by the point's kind. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  have hN := N_fifty
  have htlt : t.val < 50 := lt_of_lt_of_eq t.isLt N_fifty
  by_cases h0 : t.val = 0
  · -- the first point
    obtain rfl : t = t₀ := Fin.ext h0
    have hI : IsInit (grid0.coords t₀) := (isInit_iff t₀).mpr h0
    have hL1 : IsL1 (grid0.coords t₀) := (isL1_iff t₀).mpr (by omega)
    have hL2 : ¬ IsL2 (grid0.coords t₀) := fun h => by have := (isL2_iff t₀).mp h; omega
    have hO : ¬ IsOut (grid0.coords t₀) := fun h => by have := (isOut_iff t₀).mp h; omega
    simp only [idle_0, idle_1, idle_2, idle_3, idle_4, idle_5, idle_6, idle_7, idle8_of_not_out t₀ hO, flush8_of_not_out t₀ hO, before_0, before_1, before_2, before_3, before_4, before_5, before_6, before_7, after_0, after_1, after_2, after_3, after_4, after_5, after_6, after_7]
    rw [Φ_zero m c t₀.castSucc h0, Φ_pos m c t₀.succ (by show t₀.val + 1 ≠ 0; omega)]
    iintro ⟨⟨⟨⟨%a0, Hs0⟩, ⟨%a1, Hs1⟩, ⟨%a2, Hs2⟩⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, H8⟩
    iapply (run_first (c := c) (i := grid0.coords t₀) (M0 := st0_0 t₀) (h0 := hstage0_0 ((cfg0.slots t₀ 0).cast nbuf0_0)) (M1 := st0_1 t₀) (h1 := hstage0_1 ((cfg0.slots t₀ 1).cast nbuf0_1)) (M2 := st0_2 t₀) (h2 := hstage0_2 ((cfg0.slots t₀ 2).cast nbuf0_2)) (M3 := st0_3 t₀) (h3 := hstage0_3 ((cfg0.slots t₀ 3).cast nbuf0_3)) (M4 := st0_4 t₀) (h4 := hstage0_4 ((cfg0.slots t₀ 4).cast nbuf0_4)) (M5 := st0_5 t₀) (h5 := hstage0_5 ((cfg0.slots t₀ 5).cast nbuf0_5)) (M6 := st0_6 t₀) (h6 := hstage0_6 ((cfg0.slots t₀ 6).cast nbuf0_6)) (M7 := st0_7 t₀) (h7 := hstage0_7 ((cfg0.slots t₀ 7).cast nbuf0_7)) (M8 := st0_8 t₀) (h8 := hstage0_8 ((cfg0.slots t₀ 8).cast nbuf0_8)) (P0 := sc0) (g0 := Memref.isWhole_whole _) (P1 := sc1) (g1 := Memref.isWhole_whole _) (P2 := sc2) (g2 := Memref.isWhole_whole _)
      (x0 := bx m c t₀) (x1 := badj m c t₀) (x2 := bW1 m c t₀) (x3 := bb1 m c t₀) (x4 := bW2 m c t₀) (a1 := a1) hI hL1 hL2 hO _ _)
    isplitl [H0]; · iexact H0
    isplitl [H1]; · iexact H1
    isplitl [H2]; · iexact H2
    isplitl [H3]; · iexact H3
    isplitl [H4]; · iexact H4
    isplitl [H8]; · iexact H8
    isplitl [Hs0]; · iexists a0; iexact Hs0
    isplitl [Hs1]; · iexact Hs1
    isplitl [Hs2]; · iexists a2; iexact Hs2
    iintro ⟨H0, H1, H2, H3, H4, H8, Hs0, Hs1, Hs2⟩
    isplitl [Hs0 Hs1 Hs2 Hp]
    · isplitr [Hp]; swap; · iexact Hp
      isplitl [Hs0]; · iexact Hs0
      isplitl [Hs1]
      · iexists _; isplitr; swap; · iexact Hs1
        ipureintro
        rw [show min t₀.succ.val 25 = t₀.val + 1 from by show min (t₀.val + 1) 25 = _; omega]
        exact good_step m c t₀ (by omega) hL1 _ a1 (fun y hy => absurd hy (by rw [h0]; omega))
      rw [show accAt m c t₀.succ.val = acc0 from accAt_l1 m c _ (by show t₀.val + 1 ≤ 25; omega)]
      iexact Hs2
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · by_cases h25 : t.val < 25
    · -- a later point of phase 0
      have hI : ¬ IsInit (grid0.coords t) := fun h => h0 ((isInit_iff t).mp h)
      have hL1 : IsL1 (grid0.coords t) := (isL1_iff t).mpr h25
      have hL2 : ¬ IsL2 (grid0.coords t) := fun h => by have := (isL2_iff t).mp h; omega
      have hO : ¬ IsOut (grid0.coords t) := fun h => by have := (isOut_iff t).mp h; omega
      simp only [idle_0, idle_1, idle_2, idle_3, idle_4, idle_5, idle_6, idle_7, idle8_of_not_out t hO, flush8_of_not_out t hO, before_0, before_1, before_2, before_3, before_4, before_5, before_6, before_7, after_0, after_1, after_2, after_3, after_4, after_5, after_6, after_7]
      rw [Φ_pos m c t.castSucc h0, Φ_pos m c t.succ (by show t.val + 1 ≠ 0; omega)]
      iintro ⟨⟨⟨Hs0, ⟨%a1, %ha1, Hs1⟩, Hs2⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run_l1 (c := c) (i := grid0.coords t) (M0 := st0_0 t) (h0 := hstage0_0 ((cfg0.slots t 0).cast nbuf0_0)) (M1 := st0_1 t) (h1 := hstage0_1 ((cfg0.slots t 1).cast nbuf0_1)) (M2 := st0_2 t) (h2 := hstage0_2 ((cfg0.slots t 2).cast nbuf0_2)) (M3 := st0_3 t) (h3 := hstage0_3 ((cfg0.slots t 3).cast nbuf0_3)) (M4 := st0_4 t) (h4 := hstage0_4 ((cfg0.slots t 4).cast nbuf0_4)) (M5 := st0_5 t) (h5 := hstage0_5 ((cfg0.slots t 5).cast nbuf0_5)) (M6 := st0_6 t) (h6 := hstage0_6 ((cfg0.slots t 6).cast nbuf0_6)) (M7 := st0_7 t) (h7 := hstage0_7 ((cfg0.slots t 7).cast nbuf0_7)) (M8 := st0_8 t) (h8 := hstage0_8 ((cfg0.slots t 8).cast nbuf0_8)) (P0 := sc0) (g0 := Memref.isWhole_whole _) (P1 := sc1) (g1 := Memref.isWhole_whole _) (P2 := sc2) (g2 := Memref.isWhole_whole _)
        (x1 := badj m c t) (x3 := bb1 m c t) (x4 := bW2 m c t) (a0 := Y1 m c) (a1 := a1) hI hL1 hL2 hO _ _)
      isplitl [H1]; · iexact H1
      isplitl [H3]; · iexact H3
      isplitl [H4]; · iexact H4
      isplitl [H8]; · iexact H8
      isplitl [Hs0]; · iexact Hs0
      isplitl [Hs1]; · iexact Hs1
      iintro ⟨H1, H3, H4, H8, Hs0, Hs1⟩
      isplitl [Hs0 Hs1 Hs2 Hp]
      · isplitr [Hp]; swap; · iexact Hp
        isplitl [Hs0]; · iexact Hs0
        isplitl [Hs1]
        · iexists _; isplitr; swap; · iexact Hs1
          ipureintro
          rw [show min t.succ.val 25 = t.val + 1 from by show min (t.val + 1) 25 = _; omega]
          exact good_step m c t h25 hL1 _ a1 (by rw [show min t.castSucc.val 25 = t.val from by show min t.val 25 = _; omega] at ha1; exact ha1)
        rw [show accAt m c t.succ.val = accAt m c t.castSucc.val from (accAt_l1 m c _ (by show t.val + 1 ≤ 25; omega)).trans (accAt_l1 m c _ (by show t.val ≤ 25; omega)).symm]
        iexact Hs2
      isplitl [HO]; · iapply (owesAt_intro m c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hI : ¬ IsInit (grid0.coords t) := fun h => h0 ((isInit_iff t).mp h)
      have hL1 : ¬ IsL1 (grid0.coords t) := fun h => h25 ((isL1_iff t).mp h)
      have hL2 : IsL2 (grid0.coords t) := (isL2_iff t).mpr (by omega)
      by_cases h49 : t.val = 49
      · -- the last point
        have hO : IsOut (grid0.coords t) := (isOut_iff t).mpr h49
        simp only [idle_0, idle_1, idle_2, idle_3, idle_4, idle_5, idle_6, idle_7, idle8_of_out t hO, before_0, before_1, before_2, before_3, before_4, before_5, before_6, before_7, after_0, after_1, after_2, after_3, after_4, after_5, after_6, after_7]
        rw [after_8, accAt_l2 m c t (by omega)]
        rw [Φ_pos m c t.castSucc h0, Φ_pos m c t.succ (by show t.val + 1 ≠ 0; omega)]
        iintro ⟨⟨⟨Hs0, ⟨%a1, %ha1, Hs1⟩, Hs2⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        obtain rfl : a1 = Y2 m c := good_full m c a1 (by rw [show min t.castSucc.val 25 = 25 from by show min t.val 25 = _; omega] at ha1; exact ha1)
        rw [show accAt m c t.succ.val = accStep (badj m c t) (Y2 m c) (bb2 m c t) (accAt m c t.val) from accAt_l2 m c t (by omega)]
        iapply (run_last (c := c) (i := grid0.coords t) (M0 := st0_0 t) (h0 := hstage0_0 ((cfg0.slots t 0).cast nbuf0_0)) (M1 := st0_1 t) (h1 := hstage0_1 ((cfg0.slots t 1).cast nbuf0_1)) (M2 := st0_2 t) (h2 := hstage0_2 ((cfg0.slots t 2).cast nbuf0_2)) (M3 := st0_3 t) (h3 := hstage0_3 ((cfg0.slots t 3).cast nbuf0_3)) (M4 := st0_4 t) (h4 := hstage0_4 ((cfg0.slots t 4).cast nbuf0_4)) (M5 := st0_5 t) (h5 := hstage0_5 ((cfg0.slots t 5).cast nbuf0_5)) (M6 := st0_6 t) (h6 := hstage0_6 ((cfg0.slots t 6).cast nbuf0_6)) (M7 := st0_7 t) (h7 := hstage0_7 ((cfg0.slots t 7).cast nbuf0_7)) (M8 := st0_8 t) (h8 := hstage0_8 ((cfg0.slots t 8).cast nbuf0_8)) (P0 := sc0) (g0 := Memref.isWhole_whole _) (P1 := sc1) (g1 := Memref.isWhole_whole _) (P2 := sc2) (g2 := Memref.isWhole_whole _)
          (x1 := badj m c t) (x5 := bb2 m c t) (x6 := bWr m c t) (x7 := bbr m c t) (a1 := Y2 m c) (a2 := accAt m c t.val) hI hL1 hL2 hO _)
        isplitl [H1]; · iexact H1
        isplitl [H5]; · iexact H5
        isplitl [H6]; · iexact H6
        isplitl [H7]; · iexact H7
        isplitl [H8]; · iexists _; iexact H8
        isplitl [Hs1]; · iexact Hs1
        isplitl [Hs2]; · iexact Hs2
        iintro ⟨H1, H5, H6, H7, H8, Hs1, Hs2⟩
        isplitl [Hs0 Hs1 Hs2 Hp]
        · isplitr [Hp]; swap; · iexact Hp
          isplitl [Hs0]; · iexact Hs0
          isplitl [Hs1]
          · iexists _; isplitr; swap; · iexact Hs1
            ipureintro
            exact fun y _ => rfl
          iexact Hs2
        isplitl [HO]; · iapply (owesAt_intro m c); iexact HO
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · -- a point of phase 1 but the last
        have hO : ¬ IsOut (grid0.coords t) := fun h => h49 ((isOut_iff t).mp h)
        simp only [idle_0, idle_1, idle_2, idle_3, idle_4, idle_5, idle_6, idle_7, idle8_of_not_out t hO, flush8_of_not_out t hO, before_0, before_1, before_2, before_3, before_4, before_5, before_6, before_7, after_0, after_1, after_2, after_3, after_4, after_5, after_6, after_7]
        rw [Φ_pos m c t.castSucc h0, Φ_pos m c t.succ (by show t.val + 1 ≠ 0; omega)]
        iintro ⟨⟨⟨Hs0, ⟨%a1, %ha1, Hs1⟩, Hs2⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, H8⟩
        obtain rfl : a1 = Y2 m c := good_full m c a1 (by rw [show min t.castSucc.val 25 = 25 from by show min t.val 25 = _; omega] at ha1; exact ha1)
        rw [show accAt m c t.succ.val = accStep (badj m c t) (Y2 m c) (bb2 m c t) (accAt m c t.val) from accAt_l2 m c t (by omega)]
        iapply (run_l2 (c := c) (i := grid0.coords t) (M0 := st0_0 t) (h0 := hstage0_0 ((cfg0.slots t 0).cast nbuf0_0)) (M1 := st0_1 t) (h1 := hstage0_1 ((cfg0.slots t 1).cast nbuf0_1)) (M2 := st0_2 t) (h2 := hstage0_2 ((cfg0.slots t 2).cast nbuf0_2)) (M3 := st0_3 t) (h3 := hstage0_3 ((cfg0.slots t 3).cast nbuf0_3)) (M4 := st0_4 t) (h4 := hstage0_4 ((cfg0.slots t 4).cast nbuf0_4)) (M5 := st0_5 t) (h5 := hstage0_5 ((cfg0.slots t 5).cast nbuf0_5)) (M6 := st0_6 t) (h6 := hstage0_6 ((cfg0.slots t 6).cast nbuf0_6)) (M7 := st0_7 t) (h7 := hstage0_7 ((cfg0.slots t 7).cast nbuf0_7)) (M8 := st0_8 t) (h8 := hstage0_8 ((cfg0.slots t 8).cast nbuf0_8)) (P0 := sc0) (g0 := Memref.isWhole_whole _) (P1 := sc1) (g1 := Memref.isWhole_whole _) (P2 := sc2) (g2 := Memref.isWhole_whole _)
          (x1 := badj m c t) (x5 := bb2 m c t) (a1 := Y2 m c) (a2 := accAt m c t.val) hI hL1 hL2 hO _ _)
        isplitl [H1]; · iexact H1
        isplitl [H5]; · iexact H5
        isplitl [H8]; · iexact H8
        isplitl [Hs1]; · iexact Hs1
        isplitl [Hs2]; · iexact Hs2
        iintro ⟨H1, H5, H8, Hs1, Hs2⟩
        isplitl [Hs0 Hs1 Hs2 Hp]
        · isplitr [Hp]; swap; · iexact Hp
          isplitl [Hs0]; · iexact Hs0
          isplitl [Hs1]
          · iexists _; isplitr; swap; · iexact Hs1
            ipureintro
            exact fun y _ => rfl
          iexact Hs2
        isplitl [HO]; · iapply (owesAt_intro m c); iexact HO
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8

/-! ## The launch -/

/-- Before the first point the scratch buffers hold anything: the pipeline's own account of them. -/
theorem PhiA_eq (c : Dev nD) :
    (Pipeline.ΦA spec0 c : sProp 𝕄)
      = iprop(((∃ a, owns (c : Thread nD τ) sc0 fullShare a) ∗ (∃ a, owns (c : Thread nD τ) sc1 fullShare a) ∗ (∃ a, owns (c : Thread nD τ) sc2 fullShare a)) ∗ ∃ r, prngReg c r) := by
  unfold Pipeline.ΦA; rw [scopedRest0_eq]; simp only [sc0, sc1, sc2, owns_whole]; try rfl

theorem hin (c : Dev nD) : (Pipeline.ΦA spec0 c : sProp 𝕄) ⊢ (dats m 0 c).Φ 0 := by
  rw [PhiA_eq, Φ_zero m c 0 rfl]

theorem hout (c : Dev nD) : (dats m 0 c).Φ (Fin.last cfg0.N) ⊢ (Pipeline.ΦA spec0 c : sProp 𝕄) := by
  rw [PhiA_eq, Φ_pos m c (Fin.last cfg0.N) (by show cfg0.N ≠ 0; rw [N_fifty]; decide)]
  iintro ⟨⟨H0, ⟨%a1, -, H1⟩, H2⟩, Hp⟩
  isplitr [Hp]; swap; · iexact Hp
  isplitl [H0]; · iexists _; iexact H0
  isplitl [H1]; · iexists _; iexact H1
  iexists _; iexact H2

/-- Every weakly fair execution of @main on the TensorCores terminates; each windowed array ends at the library's account
    of its window and every other buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) 0 launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hin := hin m) (hout := hout m)

end Cert.Proof.KernelBody

end
-- ==== Proof.KernelIdealBody.lean ====
/-
  The body of the two-layer graph-convolution kernel at a symbolic grid point, for any float instance.
  The grid is (phase p ∈ {0,1}) × (row block i ∈ 0..24). At a point the body does, in order:
    * if p = 0 and i = 0: fills the scratch Y1 with x · W1, twenty-five blocks of 400 rows, and zeroes the running column sum;
    * if p = 0: stores rows [400 i, 400 i + 400) of the scratch Y2 with  max(adj_i · Y1 + b1, 0) · W2;
    * if p = 1: adds to the running column sum the column sums of  max(adj_i · Y2 + b2, 0);
    * if p = 1 and i = 24: stores the output row  (sum · 1/10000) · Wr + br.
  Four kinds of point occur (first, rest of phase 0, phase 1 but the last, last); each is run once here, from the
  input blocks and the three scratch buffers at named contents to the contents the stores leave.
-/
import proofs.«121906_g47081431499005_cont_8to1c4_562_17_alg».proof.Proof.Gen.KernelIdeal
import proofs.«121906_g47081431499005_cont_8to1c4_562_17_alg».proof.Proof.Gen.KernelIdeal.Skeleton
import proofs.«121906_g47081431499005_cont_8to1c4_562_17_alg».proof.Proof.Gen.KernelIdeal.Launch
import Idealize.ShloMosaic.Lib.Writes
import Idealize.ShloMosaic.Lib.Pipeline.FrameBody
import Idealize.ShloMosaic.Lib.Ring
import Idealize.ShloMosaic.Lib.Tactic

set_option maxRecDepth 16384

noncomputable section

namespace Cert.Proof.KernelIdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The four branch conditions at a point, as the body computes them -/

/-- p = 0 and i = 0. -/
abbrev IsInit (i : grid0.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1
/-- p = 0. -/
abbrev IsL1 (i : grid0.Coords) : Prop := k0_cond2 i = 1#1
/-- p = 1. -/
abbrev IsL2 (i : grid0.Coords) : Prop := Scalar.cmpi .ne (Scalar.extui (Scalar.cmpi .eq (BitVec.ofNat 32 (i 0).val) 1#32)) 0#32 = 1#1
/-- p = 1 and i = 24. -/
abbrev IsOut (i : grid0.Coords) : Prop := k0_cond4 i = 1#1

/-! ## The rectangles the body loads and stores through -/

abbrev rX : Rect S10000x128 := Rect.unit (s := S10000x128) ![0, 0] S10000x128.size inb_S10000x128_S10000x128_0_0
abbrev rAdj : Rect S400x10000 := Rect.unit (s := S400x10000) ![0, 0] S400x10000.size inb_S400x10000_S400x10000_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rWr : Rect S128x512 := Rect.unit (s := S128x512) ![0, 0] S128x512.size inb_S128x512_S128x512_0_0
abbrev rBr : Rect S1x512 := Rect.unit (s := S1x512) ![0, 0] S1x512.size inb_S1x512_S1x512_0_0
/-- Rows [o, o + 400) of a 10000-row scratch, o a multiple of 400. -/
abbrev rC0 : Rect S10000x128 := Rect.unit (s := S10000x128) ![0, 0] S400x128.size inb_S10000x128_S400x128_0_0
abbrev rC400 : Rect S10000x128 := Rect.unit (s := S10000x128) ![400, 0] S400x128.size inb_S10000x128_S400x128_400_0
abbrev rC800 : Rect S10000x128 := Rect.unit (s := S10000x128) ![800, 0] S400x128.size inb_S10000x128_S400x128_800_0
abbrev rC1200 : Rect S10000x128 := Rect.unit (s := S10000x128) ![1200, 0] S400x128.size inb_S10000x128_S400x128_1200_0
abbrev rC1600 : Rect S10000x128 := Rect.unit (s := S10000x128) ![1600, 0] S400x128.size inb_S10000x128_S400x128_1600_0
abbrev rC2000 : Rect S10000x128 := Rect.unit (s := S10000x128) ![2000, 0] S400x128.size inb_S10000x128_S400x128_2000_0
abbrev rC2400 : Rect S10000x128 := Rect.unit (s := S10000x128) ![2400, 0] S400x128.size inb_S10000x128_S400x128_2400_0
abbrev rC2800 : Rect S10000x128 := Rect.unit (s := S10000x128) ![2800, 0] S400x128.size inb_S10000x128_S400x128_2800_0
abbrev rC3200 : Rect S10000x128 := Rect.unit (s := S10000x128) ![3200, 0] S400x128.size inb_S10000x128_S400x128_3200_0
abbrev rC3600 : Rect S10000x128 := Rect.unit (s := S10000x128) ![3600, 0] S400x128.size inb_S10000x128_S400x128_3600_0
abbrev rC4000 : Rect S10000x128 := Rect.unit (s := S10000x128) ![4000, 0] S400x128.size inb_S10000x128_S400x128_4000_0
abbrev rC4400 : Rect S10000x128 := Rect.unit (s := S10000x128) ![4400, 0] S400x128.size inb_S10000x128_S400x128_4400_0
abbrev rC4800 : Rect S10000x128 := Rect.unit (s := S10000x128) ![4800, 0] S400x128.size inb_S10000x128_S400x128_4800_0
abbrev rC5200 : Rect S10000x128 := Rect.unit (s := S10000x128) ![5200, 0] S400x128.size inb_S10000x128_S400x128_5200_0
abbrev rC5600 : Rect S10000x128 := Rect.unit (s := S10000x128) ![5600, 0] S400x128.size inb_S10000x128_S400x128_5600_0
abbrev rC6000 : Rect S10000x128 := Rect.unit (s := S10000x128) ![6000, 0] S400x128.size inb_S10000x128_S400x128_6000_0
abbrev rC6400 : Rect S10000x128 := Rect.unit (s := S10000x128) ![6400, 0] S400x128.size inb_S10000x128_S400x128_6400_0
abbrev rC6800 : Rect S10000x128 := Rect.unit (s := S10000x128) ![6800, 0] S400x128.size inb_S10000x128_S400x128_6800_0
abbrev rC7200 : Rect S10000x128 := Rect.unit (s := S10000x128) ![7200, 0] S400x128.size inb_S10000x128_S400x128_7200_0
abbrev rC7600 : Rect S10000x128 := Rect.unit (s := S10000x128) ![7600, 0] S400x128.size inb_S10000x128_S400x128_7600_0
abbrev rC8000 : Rect S10000x128 := Rect.unit (s := S10000x128) ![8000, 0] S400x128.size inb_S10000x128_S400x128_8000_0
abbrev rC8400 : Rect S10000x128 := Rect.unit (s := S10000x128) ![8400, 0] S400x128.size inb_S10000x128_S400x128_8400_0
abbrev rC8800 : Rect S10000x128 := Rect.unit (s := S10000x128) ![8800, 0] S400x128.size inb_S10000x128_S400x128_8800_0
abbrev rC9200 : Rect S10000x128 := Rect.unit (s := S10000x128) ![9200, 0] S400x128.size inb_S10000x128_S400x128_9200_0
abbrev rC9600 : Rect S10000x128 := Rect.unit (s := S10000x128) ![9600, 0] S400x128.size inb_S10000x128_S400x128_9600_0
/-- Rows [400 i, 400 i + 400) of the scratch Y2, the offset as the body computes it from the point. -/
abbrev rOff (i : grid0.Coords) (h : IsL1 i) : Rect S10000x128 := Rect.unit (s := S10000x128) (k0_off1 i) S400x128.size (k0_off1_inb i h)

/-! ## What the stores leave -/

/-- The twenty-five stores of x · W1, newest first: block j is the product of rows [400 j, 400 j + 400) of x with W1. -/
def y1Pieces (x0 : Vec F S10000x128 .f32) (x2 : Vec F S128x128 .f32) : List (View.Piece (Elt F) S10000x128 .f32) :=
  [⟨rC9600, k0_pay31 (View.ld x0 rC9600) (View.ld x2 rW)⟩,
   ⟨rC9200, k0_pay30 (View.ld x0 rC9200) (View.ld x2 rW)⟩,
   ⟨rC8800, k0_pay29 (View.ld x0 rC8800) (View.ld x2 rW)⟩,
   ⟨rC8400, k0_pay28 (View.ld x0 rC8400) (View.ld x2 rW)⟩,
   ⟨rC8000, k0_pay27 (View.ld x0 rC8000) (View.ld x2 rW)⟩,
   ⟨rC7600, k0_pay26 (View.ld x0 rC7600) (View.ld x2 rW)⟩,
   ⟨rC7200, k0_pay25 (View.ld x0 rC7200) (View.ld x2 rW)⟩,
   ⟨rC6800, k0_pay24 (View.ld x0 rC6800) (View.ld x2 rW)⟩,
   ⟨rC6400, k0_pay23 (View.ld x0 rC6400) (View.ld x2 rW)⟩,
   ⟨rC6000, k0_pay22 (View.ld x0 rC6000) (View.ld x2 rW)⟩,
   ⟨rC5600, k0_pay21 (View.ld x0 rC5600) (View.ld x2 rW)⟩,
   ⟨rC5200, k0_pay20 (View.ld x0 rC5200) (View.ld x2 rW)⟩,
   ⟨rC4800, k0_pay19 (k0_pay18 (View.ld x0 rC4800) (View.ld x2 rW))⟩,
   ⟨rC4400, k0_pay17 (View.ld x0 rC4400) (View.ld x2 rW)⟩,
   ⟨rC4000, k0_pay16 (View.ld x0 rC4000) (View.ld x2 rW)⟩,
   ⟨rC3600, k0_pay15 (View.ld x0 rC3600) (View.ld x2 rW)⟩,
   ⟨rC3200, k0_pay14 (k0_pay13 (View.ld x0 rC3200) (View.ld x2 rW))⟩,
   ⟨rC2800, k0_pay12 (View.ld x0 rC2800) (View.ld x2 rW)⟩,
   ⟨rC2400, k0_pay11 (View.ld x0 rC2400) (View.ld x2 rW)⟩,
   ⟨rC2000, k0_pay10 (View.ld x0 rC2000) (View.ld x2 rW)⟩,
   ⟨rC1600, k0_pay9 (View.ld x0 rC1600) (View.ld x2 rW)⟩,
   ⟨rC1200, k0_pay8 (View.ld x0 rC1200) (View.ld x2 rW)⟩,
   ⟨rC800, k0_pay7 (View.ld x0 rC800) (View.ld x2 rW)⟩,
   ⟨rC400, k0_pay6 (View.ld x0 rC400) (View.ld x2 rW)⟩,
   ⟨rC0, k0_pay5 (View.ld x0 rC0) (View.ld x2 rW)⟩]

/-- They tile the scratch. -/
theorem y1cover (x0 : Vec F S10000x128 .f32) (x2 : Vec F S128x128 .f32) (y : S10000x128.Idx) :
    ∃ pc ∈ y1Pieces x0 x2, y ∈ pc.1.set :=
  View.cover_of_tiledL (y1Pieces x0 x2) S400x128.size (by sl_kernel_rfl) y

/-- The scratch Y1 after the first point: x · W1. -/
def y1v (x0 : Vec F S10000x128 .f32) (x2 : Vec F S128x128 .f32) : Vec F S10000x128 .f32 := View.canon (y1Pieces x0 x2)

/-- One block of 400 rows of Y2: max(adj_i · Y1 + b1, 0) · W2, of the adjacency block, the whole Y1, b1 and W2. -/
abbrev layer1 (x1 : Vec F S400x10000 .f32) (y1 : Vec F S10000x128 .f32) (x3 : Vec F S1x128 .f32) (x4 : Vec F S128x128 .f32) : FVec F S400x128 .f32 :=
  k0_pay2 (View.ld x1 rAdj) (View.ld y1 rX) (View.ld x3 rB) (View.ld x4 rW)

/-- The scratch Y2 after a point of phase 0 stores its block over the contents `a1` it found. -/
def y2w (P1 : Memref sig .tc .vmem S10000x128 .f32) (g1 : P1.IsWhole) (a1 : Vec F S10000x128 .f32) (i : grid0.Coords) (h : IsL1 i)
    (p : FVec F S400x128 .f32) : Vec F S10000x128 .f32 :=
  P1.view.read (Elt F) (P1.view.writes (Elt F) (g1.unread a1) [⟨rOff i h, p⟩])

/-- The running column sum, zeroed. -/
def acc0 : Vec F S1x128 .f32 := View.canon [⟨rB, k0_pay1 (k0_pay32 (F := F))⟩]
/-- The running column sum after a point of phase 1: what it held plus the column sums of max(adj_i · Y2 + b2, 0). -/
def accStep (x1 : Vec F S400x10000 .f32) (y2 : Vec F S10000x128 .f32) (x5 : Vec F S1x128 .f32) (a2 : Vec F S1x128 .f32) : Vec F S1x128 .f32 :=
  View.canon [⟨rB, k0_pay3 (View.ld x1 rAdj) (View.ld y2 rX) (View.ld x5 rB) (View.ld a2 rB)⟩]
/-- The output row the last point stores: (sum · 1/10000) · Wr + br. -/
def outv (acc : Vec F S1x128 .f32) (x6 : Vec F S128x512 .f32) (x7 : Vec F S1x512 .f32) : Vec F S1x512 .f32 :=
  View.canon [⟨rBr, k0_pay4 (View.ld acc rB) (View.ld x6 rWr) (View.ld x7 rBr)⟩]

omit [FloatOps F] [Named F] in
theorem coverB (p : Vec F S1x128 .f32) (y : S1x128.Idx) : ∃ pc ∈ ([⟨rB, p⟩] : List (View.Piece (Elt F) S1x128 .f32)), y ∈ pc.1.set :=
  View.cover_of_tiled [⟨rB, p⟩] S1x128.size (by rfl) y
omit [FloatOps F] [Named F] in
theorem coverBr (p : Vec F S1x512 .f32) (y : S1x512.Idx) : ∃ pc ∈ ([⟨rBr, p⟩] : List (View.Piece (Elt F) S1x512 .f32)), y ∈ pc.1.set :=
  View.cover_of_tiled [⟨rBr, p⟩] S1x512.size (by rfl) y

/-! ## The four runs -/

section Runs

variable (c : Dev nD) (i : grid0.Coords)
  (M0 : Memref sig .tc .vmem S10000x128 .f32) (h0 : M0.IsWhole) (M1 : Memref sig .tc .vmem S400x10000 .f32) (h1 : M1.IsWhole)
  (M2 : Memref sig .tc .vmem S128x128 .f32) (h2 : M2.IsWhole) (M3 : Memref sig .tc .vmem S1x128 .f32) (h3 : M3.IsWhole)
  (M4 : Memref sig .tc .vmem S128x128 .f32) (h4 : M4.IsWhole) (M5 : Memref sig .tc .vmem S1x128 .f32) (h5 : M5.IsWhole)
  (M6 : Memref sig .tc .vmem S128x512 .f32) (h6 : M6.IsWhole) (M7 : Memref sig .tc .vmem S1x512 .f32) (h7 : M7.IsWhole)
  (M8 : Memref sig .tc .vmem S1x512 .f32) (h8 : M8.IsWhole)
  (P0 : Memref sig .tc .vmem S10000x128 .f32) (g0 : P0.IsWhole) (P1 : Memref sig .tc .vmem S10000x128 .f32) (g1 : P1.IsWhole)
  (P2 : Memref sig .tc .vmem S1x128 .f32) (g2 : P2.IsWhole)
  (x0 : Vec F S10000x128 .f32) (x1 : Vec F S400x10000 .f32) (x2 : Vec F S128x128 .f32) (x3 : Vec F S1x128 .f32)
  (x4 : Vec F S128x128 .f32) (x5 : Vec F S1x128 .f32) (x6 : Vec F S128x512 .f32) (x7 : Vec F S1x512 .f32)
  (a0 a1 : Vec F S10000x128 .f32) (a2 : Vec F S1x128 .f32)

local notation "BODY" => cc0__gcn_body i M0 h0 M1 h1 M2 h2 M3 h3 M4 h4 M5 h5 M6 h6 M7 h7 M8 h8 P0 g0 P1 g1 P2 g2

/-- The first point: whatever the scratch buffers held, Y1 ends at x · W1, Y2 with its first block stored, the sum at zero. -/
theorem run_first (hc1 : IsInit i) (hc2 : IsL1 i) (hc3 : ¬ IsL2 i) (hc4 : ¬ IsOut i) (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ O
      ∗ (∃ a, owns (c : Thread nD τ) P0 fullShare a) ∗ owns (c : Thread nD τ) P1 fullShare a1 ∗ (∃ a, owns (c : Thread nD τ) P2 fullShare a)
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ O
          ∗ owns (c : Thread nD τ) P0 fullShare (y1v x0 x2)
          ∗ owns (c : Thread nD τ) P1 fullShare (y2w P1 g1 a1 i hc2 (layer1 x1 (y1v x0 x2) x3 x4))
          ∗ owns (c : Thread nD τ) P2 fullShare (acc0 (F := F))) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%f4, %hf4, H4⟩, HO, ⟨%a0', %fa0, %hfa0, Ha0⟩, ⟨%fa1, %hfa1, Ha1⟩, ⟨%a2', %fa2, %hfa2, Ha2⟩, Hk⟩
  subst hf0 hf1 hf2 hf3 hf4
  obtain rfl := g1.eq_unread hfa1
  simp only [cc0__gcn_body_eq_skeleton]; unfold cc0__gcn_body_skel
  sl_exec (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [HO]; · iexact HO
  isplitl [Ha0]
  · iexists _; isplitr; swap; (· iexact Ha0); ipureintro; exact View.read_writes_eq_canon _ _ _ (y1cover _ _)
  isplitl [Ha1]
  · iexists _; isplitr; swap; (· iexact Ha1); ipureintro
    exact congrArg (fun z => P1.view.read (Elt F) (P1.view.writes (Elt F) (g1.unread a1) [⟨rOff i hc2, k0_pay2 (View.ld (M1.view.read (Elt F) f1) rAdj) z (View.ld (M3.view.read (Elt F) f3) rB) (View.ld (M4.view.read (Elt F) f4) rW)⟩]))
      (View.readCov_eq_canon_ld P0.view (y1Pieces (M0.view.read (Elt F) f0) (M2.view.read (Elt F) f2)) rX (y1cover _ _))
  iexists _; isplitr; swap; (· iexact Ha2); ipureintro; exact View.read_writes_eq_canon _ _ _ (coverB _)

/-- A later point of phase 0: Y1 at `a0` and the sum are as found; Y2 at `a1` gets its block stored. -/
theorem run_l1 (hc1 : ¬ IsInit i) (hc2 : IsL1 i) (hc3 : ¬ IsL2 i) (hc4 : ¬ IsOut i) (O : sProp 𝕄) (Q : PUnit → sProp 𝕄) :
    iprop(owns (c : Thread nD τ) M1 fullShare x1 ∗ owns (c : Thread nD τ) M3 fullShare x3 ∗ owns (c : Thread nD τ) M4 fullShare x4 ∗ O
      ∗ owns (c : Thread nD τ) P0 fullShare a0 ∗ owns (c : Thread nD τ) P1 fullShare a1
      ∗ (iprop(owns (c : Thread nD τ) M1 fullShare x1 ∗ owns (c : Thread nD τ) M3 fullShare x3 ∗ owns (c : Thread nD τ) M4 fullShare x4 ∗ O
          ∗ owns (c : Thread nD τ) P0 fullShare a0
          ∗ owns (c : Thread nD τ) P1 fullShare (y2w P1 g1 a1 i hc2 (layer1 x1 a0 x3 x4))) -∗ Q ⟨⟩))
      ⊢ wp frame (wpE (defs₀ (F := F)) Variants.none c none) Set.univ BODY Q := by
  unfold owns
  iintro ⟨⟨%f1, %hf1, H1⟩, ⟨%f3, %hf3, H3⟩, ⟨%f4, %hf4, H4⟩, HO, ⟨%fa0, %hfa0, Ha0⟩, ⟨%fa1, %hfa1, Ha1⟩, Hk⟩
  subst hf1 hf3 hf4 hfa0
  obtain rfl := g1.eq_unread hfa1
  simp only [cc0__gcn_body_eq_skeleton]; unfold cc0__gcn_body_skel
  sl_exec (disch := assumption)
  sl_step
  iapply Hk
  isplitl [H1]; · iexists f1; isplitr; (· ipureintro; rfl); iexact H1
  isplitl [H3]; · iexists f3; isplitr; (· ipureintro; rfl); iexact H3
  isplitl [H4]; · iexists f4; isplitr; (· ipureintro; rfl); iexact H4
  isplitl [HO]; · iexact HO
  isplitl [Ha0]; · iexists fa0; isplitr; (· ipureintro; rfl); iexact Ha0
  iexists _; isplitr; swap; (· iexact Ha1); ipureintro; rfl

/-- A point of phase 1 but the last: Y2 at `a1` is as found, the sum at `a2` gets this block's column sums added. -/
theorem run_l2 (hc1 : ¬ IsInit i) (hc2 : ¬ IsL1 i) (hc3 : IsL2 i) (hc4 : ¬ IsOut i) (O : sProp 𝕄) (Q : PUnit → sProp 𝕄) :
    iprop(owns (c : Thread nD τ) M1 fullShare x1 ∗ owns (c : Thread nD τ) M5 fullShare x5 ∗ O
      ∗ owns (c : Thread nD τ) P1 fullShare a1 ∗ owns (c : Thread nD τ) P2 fullShare a2
      ∗ (iprop(owns (c : Thread nD τ) M1 fullShare x1 ∗ owns (c : Thread nD τ) M5 fullShare x5 ∗ O
          ∗ owns (c : Thread nD τ) P1 fullShare a1 ∗ owns (c : Thread nD τ) P2 fullShare (accStep x1 a1 x5 a2)) -∗ Q ⟨⟩))
      ⊢ wp frame (wpE (defs₀ (F := F)) Variants.none c none) Set.univ BODY Q := by
  unfold owns
  iintro ⟨⟨%f1, %hf1, H1⟩, ⟨%f5, %hf5, H5⟩, HO, ⟨%fa1, %hfa1, Ha1⟩, ⟨%fa2, %hfa2, Ha2⟩, Hk⟩
  subst hf1 hf5 hfa1 hfa2
  simp only [cc0__gcn_body_eq_skeleton]; unfold cc0__gcn_body_skel
  sl_exec (disch := assumption)
  sl_step
  iapply Hk
  isplitl [H1]; · iexists f1; isplitr; (· ipureintro; rfl); iexact H1
  isplitl [H5]; · iexists f5; isplitr; (· ipureintro; rfl); iexact H5
  isplitl [HO]; · iexact HO
  isplitl [Ha1]; · iexists fa1; isplitr; (· ipureintro; rfl); iexact Ha1
  iexists _; isplitr; swap; (· iexact Ha2); ipureintro; exact View.read_writes_eq_canon _ _ _ (coverB _)

/-- The last point: as a point of phase 1, and the output's buffer, whatever it held, ends at the output row of the new sum. -/
theorem run_last (hc1 : ¬ IsInit i) (hc2 : ¬ IsL1 i) (hc3 : IsL2 i) (hc4 : IsOut i) (Q : PUnit → sProp 𝕄) :
    iprop(owns (c : Thread nD τ) M1 fullShare x1 ∗ owns (c : Thread nD τ) M5 fullShare x5 ∗ owns (c : Thread nD τ) M6 fullShare x6
      ∗ owns (c : Thread nD τ) M7 fullShare x7 ∗ (∃ d, owns (c : Thread nD τ) M8 fullShare d)
      ∗ owns (c : Thread nD τ) P1 fullShare a1 ∗ owns (c : Thread nD τ) P2 fullShare a2
      ∗ (iprop(owns (c : Thread nD τ) M1 fullShare x1 ∗ owns (c : Thread nD τ) M5 fullShare x5 ∗ owns (c : Thread nD τ) M6 fullShare x6
          ∗ owns (c : Thread nD τ) M7 fullShare x7 ∗ owns (c : Thread nD τ) M8 fullShare (outv (accStep x1 a1 x5 a2) x6 x7)
          ∗ owns (c : Thread nD τ) P1 fullShare a1 ∗ owns (c : Thread nD τ) P2 fullShare (accStep x1 a1 x5 a2)) -∗ Q ⟨⟩))
      ⊢ wp frame (wpE (defs₀ (F := F)) Variants.none c none) Set.univ BODY Q := by
  unfold owns
  iintro ⟨⟨%f1, %hf1, H1⟩, ⟨%f5, %hf5, H5⟩, ⟨%f6, %hf6, H6⟩, ⟨%f7, %hf7, H7⟩, ⟨%d8, %f8, %hf8, H8⟩, ⟨%fa1, %hfa1, Ha1⟩, ⟨%fa2, %hfa2, Ha2⟩, Hk⟩
  subst hf1 hf5 hf6 hf7 hfa1 hfa2
  simp only [cc0__gcn_body_eq_skeleton]; unfold cc0__gcn_body_skel
  sl_exec (disch := assumption)
  sl_step
  iapply Hk
  isplitl [H1]; · iexists f1; isplitr; (· ipureintro; rfl); iexact H1
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]
  · iexists _; isplitr; swap; (· iexact H8); ipureintro
    refine (View.read_writes_eq_canon _ _ _ (coverBr _)).trans ?_
    exact congrArg (fun z => View.canon [(⟨rBr, k0_pay4 z (View.ld (M6.view.read (Elt F) f6) rWr) (View.ld (M7.view.read (Elt F) f7) rBr)⟩ : View.Piece (Elt F) S1x512 .f32)])
      (View.readCov_eq_canon_ld P2.view _ rB (coverB _))
  isplitl [Ha1]; · iexists fa1; isplitr; (· ipureintro; rfl); iexact Ha1
  iexists _; isplitr; swap; (· iexact Ha2); ipureintro; exact View.read_writes_eq_canon _ _ _ (coverB _)

end Runs

end Cert.Proof.KernelIdealBody

end
-- ==== Proof.KernelIdealPoints.lean ====
/-
  The kernel's run as a pipeline of fifty points, for any float instance: what the three scratch buffers hold before each
  point, and that the body at each point takes that to what they hold before the next.
  Before point 0 the scratch buffers hold anything. Before point k ≥ 1: Y1 holds x · W1; rows [0, 400 · min k 25) of Y2
  hold max(adj · Y1 + b1, 0) · W2 (its later rows whatever they held); the running sum holds zero while k ≤ 25 and, for
  k = 25 + j, the column sums of max(adj · Y2 + b2, 0) over the first j blocks of rows, added block after block.
  The output row is stored at the last point only, from the final sum.
-/
import proofs.«121906_g47081431499005_cont_8to1c4_562_17_alg».proof.Proof.KernelIdealBody
import proofs.«121906_g47081431499005_cont_8to1c4_562_17_alg».proof.Proof.Gen.KernelIdeal.Frame
import proofs.«121906_g47081431499005_cont_8to1c4_562_17_alg».proof.Proof.Gen.KernelIdeal.Points
import Idealize.ShloMosaic.Lib.WritesUnit
import Idealize.ShloMosaic.Lib.ValueIdx

set_option maxRecDepth 16384

noncomputable section

namespace Cert.Proof.KernelIdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-! ## The kinds of point: point t is (phase t / 25, block t % 25) -/

theorem N_fifty : cfg0.N = 50 := N_0

theorem isInit_iff : ∀ t : Fin cfg0.N, IsInit (grid0.coords t) ↔ t.val = 0 :=
  (by decide +kernel : ∀ t : Fin grid0.N, IsInit (grid0.coords t) ↔ t.val = 0)
theorem isL1_iff : ∀ t : Fin cfg0.N, IsL1 (grid0.coords t) ↔ t.val < 25 :=
  (by decide +kernel : ∀ t : Fin grid0.N, IsL1 (grid0.coords t) ↔ t.val < 25)
theorem isL2_iff : ∀ t : Fin cfg0.N, IsL2 (grid0.coords t) ↔ 25 ≤ t.val :=
  (by decide +kernel : ∀ t : Fin grid0.N, IsL2 (grid0.coords t) ↔ 25 ≤ t.val)
theorem isOut_iff : ∀ t : Fin cfg0.N, IsOut (grid0.coords t) ↔ t.val = 49 :=
  (by decide +kernel : ∀ t : Fin grid0.N, IsOut (grid0.coords t) ↔ t.val = 49)
/-- In phase 0 the block of Y2 a point stores starts at row 400 t. -/
theorem off_eq : ∀ t : Fin cfg0.N, t.val < 25 → k0_off1 (grid0.coords t) = ![400 * t.val, 0] :=
  (by decide +kernel : ∀ t : Fin grid0.N, t.val < 25 → k0_off1 (grid0.coords t) = ![400 * t.val, 0])

/-- The output's window is idle except at the last point, and written back exactly there. -/
theorem idle8_of_out (t : Fin cfg0.N) (h : IsOut (grid0.coords t)) : idle0 8 (grid0.coords t) = false := by
  show (!(k0_cond4 (grid0.coords t) == 1#1)) = false; rw [show (k0_cond4 (grid0.coords t) == 1#1) = true from beq_iff_eq.mpr h]; rfl
theorem idle8_of_not_out (t : Fin cfg0.N) (h : ¬ IsOut (grid0.coords t)) : idle0 8 (grid0.coords t) = true := by
  show (!(k0_cond4 (grid0.coords t) == 1#1)) = true; rw [show (k0_cond4 (grid0.coords t) == 1#1) = false from beq_eq_false_iff_ne.mpr h]; rfl
theorem flush8_of_not_out (t : Fin cfg0.N) (h : ¬ IsOut (grid0.coords t)) : (cfg0.win 8).flush t = false :=
  Bool.eq_false_iff.mpr fun hf => h ((isOut_iff t).mpr (by have h1 := (flush0_8 t).mp hf; have h2 : t.val < 50 := lt_of_lt_of_eq t.isLt N_fifty; omega))

variable (m : (ℓ : Loc nD τ sig) → Buf (Elt F) ℓ) (ρ : Dev nD → PrngReg)

/-! ## The scratch buffers and the input blocks -/

abbrev sc0 : Memref sig .tc .vmem S10000x128 .f32 := Memref.whole cc0_scratch0
abbrev sc1 : Memref sig .tc .vmem S10000x128 .f32 := Memref.whole cc0_scratch1
abbrev sc2 : Memref sig .tc .vmem S1x128 .f32 := Memref.whole cc0_scratch2

/-- The input blocks at a point: x, the adjacency's block of 400 rows, W1, b1, W2, b2, Wr, br. -/
abbrev bx (c : Dev nD) (t : Fin cfg0.N) : Vec F S10000x128 .f32 := iblk m c 0 t
abbrev badj (c : Dev nD) (t : Fin cfg0.N) : Vec F S400x10000 .f32 := iblk m c 1 t
abbrev bW1 (c : Dev nD) (t : Fin cfg0.N) : Vec F S128x128 .f32 := iblk m c 2 t
abbrev bb1 (c : Dev nD) (t : Fin cfg0.N) : Vec F S1x128 .f32 := iblk m c 3 t
abbrev bW2 (c : Dev nD) (t : Fin cfg0.N) : Vec F S128x128 .f32 := iblk m c 4 t
abbrev bb2 (c : Dev nD) (t : Fin cfg0.N) : Vec F S1x128 .f32 := iblk m c 5 t
abbrev bWr (c : Dev nD) (t : Fin cfg0.N) : Vec F S128x512 .f32 := iblk m c 6 t
abbrev bbr (c : Dev nD) (t : Fin cfg0.N) : Vec F S1x512 .f32 := iblk m c 7 t

/-- The first point. -/
def t₀ : Fin cfg0.N := ⟨0, by rw [N_fifty]; decide⟩

/-- Y1 = x · W1, as the first point leaves it. -/
def Y1 (c : Dev nD) : Vec F S10000x128 .f32 := y1v (bx m c t₀) (bW1 m c t₀)

/-- The point of phase 0 that stores row y of Y2. -/
def tOf (y : S10000x128.Idx) : Fin cfg0.N := ⟨(y 0).val / 400, by have := ValueIdx.idx2_lt0 y; rw [N_fifty]; omega⟩

/-- Y2 = max(adj · Y1 + b1, 0) · W2, row by row: row y is row y % 400 of the block its point stores. -/
def Y2 (c : Dev nD) : Vec F S10000x128 .f32 := fun y =>
  layer1 (badj m c (tOf y)) (Y1 m c) (bb1 m c (tOf y)) (bW2 m c (tOf y)) (ValueIdx.ix2 ⟨(y 0).val % 400, Nat.mod_lt _ (by decide)⟩ (y 1))

/-- Contents of the scratch Y2 whose first 400 k rows are Y2's. -/
def Good (c : Dev nD) (k : ℕ) (a1 : Vec F S10000x128 .f32) : Prop := ∀ y : S10000x128.Idx, (y 0).val < 400 * k → a1 y = Y2 m c y

/-- The running column sum before point k. -/
def accAt (c : Dev nD) : ℕ → Vec F S1x128 .f32
  | 0 => acc0
  | k + 1 => if h : k < cfg0.N then (if k < 25 then acc0 else accStep (badj m c ⟨k, h⟩) (Y2 m c) (bb2 m c ⟨k, h⟩) (accAt c k)) else acc0

theorem accAt_l1 (c : Dev nD) (k : ℕ) (hk : k ≤ 25) : accAt m c k = acc0 := by
  cases k with
  | zero => rfl
  | succ k => show (if h : k < cfg0.N then _ else _) = _; split
              · rw [if_pos (by omega)]
              · rfl
theorem accAt_l2 (c : Dev nD) (t : Fin cfg0.N) (h : 25 ≤ t.val) :
    accAt m c (t.val + 1) = accStep (badj m c t) (Y2 m c) (bb2 m c t) (accAt m c t.val) := by
  show (if h : t.val < cfg0.N then _ else _) = _
  rw [dif_pos t.isLt, if_neg (by omega)]

/-- A point of phase 0 that finds the first 400 t rows of Y2 in place leaves the first 400 (t + 1). -/
theorem good_step (c : Dev nD) (t : Fin cfg0.N) (ht : t.val < 25) (hL : IsL1 (grid0.coords t)) (g1 : sc1.IsWhole) (a1 : Vec F S10000x128 .f32)
    (ha : Good m c t.val a1) :
    Good m c (t.val + 1) (y2w sc1 g1 a1 (grid0.coords t) hL (layer1 (badj m c t) (Y1 m c) (bb1 m c t) (bW2 m c t))) := by
  intro y hy
  have hy0 := ValueIdx.idx2_lt0 y
  unfold y2w
  by_cases hrow : 400 * t.val ≤ (y 0).val
  · have htof : tOf y = t := Fin.ext (by show (y 0).val / 400 = t.val; omega)
    rw [View.read_writes_cons_rows_of_mem (v := sc1.view) (f := g1.unread a1) (k0_off1_inb (grid0.coords t) hL) _ [] y
      (ValueIdx.ix2 ⟨(y 0).val % 400, Nat.mod_lt _ (by decide)⟩ (y 1)) (off_eq t ht)
      (by show (y 0).val = 400 * t.val + (y 0).val % 400; omega) rfl]
    unfold Y2; rw [htof]
  · rw [View.read_writes_cons_rows_of_not_mem (v := sc1.view) (f := g1.unread a1) (k0_off1_inb (grid0.coords t) hL) _ [] y
      (off_eq t ht) (W := 400) rfl (Or.inl (by omega)), View.writes_nil, g1.read_unread]
    exact ha y (by omega)

theorem good_mono (c : Dev nD) {k k' : ℕ} (h : k' ≤ k) (a1 : Vec F S10000x128 .f32) (ha : Good m c k a1) : Good m c k' a1 :=
  fun y hy => ha y (lt_of_lt_of_le hy (Nat.mul_le_mul_left _ h))

/-- Once all twenty-five blocks are in place the scratch holds Y2. -/
theorem good_full (c : Dev nD) (a1 : Vec F S10000x128 .f32) (ha : Good m c 25 a1) : a1 = Y2 m c :=
  funext fun y => ha y (by have := ValueIdx.idx2_lt0 y; omega)

end Cert.Proof.KernelIdealBody

end
-- ==== Proof.KernelIdealFrame.lean ====
/-
  The pipeline's proof data for the kernel's fifty points and the body's obligation at each of them, for any float instance:
  the invariant before point k is the scratch contents named in the points module; the body of each kind of point takes it
  to the invariant before point k + 1.
-/
import proofs.«121906_g47081431499005_cont_8to1c4_562_17_alg».proof.Proof.KernelIdealPoints
import proofs.«121906_g47081431499005_cont_8to1c4_562_17_alg».proof.Proof.Gen.KernelIdeal.Frame
import proofs.«121906_g47081431499005_cont_8to1c4_562_17_alg».proof.Proof.Gen.KernelIdeal.Points
import Idealize.ShloMosaic.Lib.WritesUnit
import Idealize.ShloMosaic.Lib.ValueIdx

set_option maxRecDepth 16384

noncomputable section

namespace Cert.Proof.KernelIdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- The scratch buffers before point k. -/
def scPart (c : Dev nD) (k : Fin (cfg0.N + 1)) : sProp 𝕄 :=
  if k.val = 0 then iprop((∃ a, owns (c : Thread nD τ) sc0 fullShare a) ∗ (∃ a, owns (c : Thread nD τ) sc1 fullShare a) ∗ (∃ a, owns (c : Thread nD τ) sc2 fullShare a))
  else iprop(owns (c : Thread nD τ) sc0 fullShare (Y1 m c) ∗ (∃ a1, ⌜Good m c (min k.val 25) a1⌝ ∗ owns (c : Thread nD τ) sc1 fullShare a1)
    ∗ owns (c : Thread nD τ) sc2 fullShare (accAt m c k.val))
def Φv (c : Dev nD) (k : Fin (cfg0.N + 1)) : sProp 𝕄 := iprop(scPart m c k ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outv (accAt m c (t.val + 1)) (bWr m c t) (bbr m c t)
  Φ k := Φv m c k
  q _ := fullShare
  owed _ := 0

abbrev 𝒱₀ : Variants := Variants.none

theorem before_0 (c : Dev nD) (t : Fin cfg0.N) (d) : (dats m 0 c).before 0 t d = iblk m c 0 t :=
  before0_0_of m (dats m 0 c) rfl (fun _ => rfl) t d
theorem after_0 (c : Dev nD) (t : Fin cfg0.N) : (dats m 0 c).after 0 t = iblk m c 0 t := rfl
theorem idle_0 (t : Fin cfg0.N) : idle0 0 (grid0.coords t) = false := rfl
theorem before_1 (c : Dev nD) (t : Fin cfg0.N) (d) : (dats m 0 c).before 1 t d = iblk m c 1 t :=
  before0_1_of m (dats m 0 c) rfl (fun _ => rfl) t d
theorem after_1 (c : Dev nD) (t : Fin cfg0.N) : (dats m 0 c).after 1 t = iblk m c 1 t := rfl
theorem idle_1 (t : Fin cfg0.N) : idle0 1 (grid0.coords t) = false := rfl
theorem before_2 (c : Dev nD) (t : Fin cfg0.N) (d) : (dats m 0 c).before 2 t d = iblk m c 2 t :=
  before0_2_of m (dats m 0 c) rfl (fun _ => rfl) t d
theorem after_2 (c : Dev nD) (t : Fin cfg0.N) : (dats m 0 c).after 2 t = iblk m c 2 t := rfl
theorem idle_2 (t : Fin cfg0.N) : idle0 2 (grid0.coords t) = false := rfl
theorem before_3 (c : Dev nD) (t : Fin cfg0.N) (d) : (dats m 0 c).before 3 t d = iblk m c 3 t :=
  before0_3_of m (dats m 0 c) rfl (fun _ => rfl) t d
theorem after_3 (c : Dev nD) (t : Fin cfg0.N) : (dats m 0 c).after 3 t = iblk m c 3 t := rfl
theorem idle_3 (t : Fin cfg0.N) : idle0 3 (grid0.coords t) = false := rfl
theorem before_4 (c : Dev nD) (t : Fin cfg0.N) (d) : (dats m 0 c).before 4 t d = iblk m c 4 t :=
  before0_4_of m (dats m 0 c) rfl (fun _ => rfl) t d
theorem after_4 (c : Dev nD) (t : Fin cfg0.N) : (dats m 0 c).after 4 t = iblk m c 4 t := rfl
theorem idle_4 (t : Fin cfg0.N) : idle0 4 (grid0.coords t) = false := rfl
theorem before_5 (c : Dev nD) (t : Fin cfg0.N) (d) : (dats m 0 c).before 5 t d = iblk m c 5 t :=
  before0_5_of m (dats m 0 c) rfl (fun _ => rfl) t d
theorem after_5 (c : Dev nD) (t : Fin cfg0.N) : (dats m 0 c).after 5 t = iblk m c 5 t := rfl
theorem idle_5 (t : Fin cfg0.N) : idle0 5 (grid0.coords t) = false := rfl
theorem before_6 (c : Dev nD) (t : Fin cfg0.N) (d) : (dats m 0 c).before 6 t d = iblk m c 6 t :=
  before0_6_of m (dats m 0 c) rfl (fun _ => rfl) t d
theorem after_6 (c : Dev nD) (t : Fin cfg0.N) : (dats m 0 c).after 6 t = iblk m c 6 t := rfl
theorem idle_6 (t : Fin cfg0.N) : idle0 6 (grid0.coords t) = false := rfl
theorem before_7 (c : Dev nD) (t : Fin cfg0.N) (d) : (dats m 0 c).before 7 t d = iblk m c 7 t :=
  before0_7_of m (dats m 0 c) rfl (fun _ => rfl) t d
theorem after_7 (c : Dev nD) (t : Fin cfg0.N) : (dats m 0 c).after 7 t = iblk m c 7 t := rfl
theorem idle_7 (t : Fin cfg0.N) : idle0 7 (grid0.coords t) = false := rfl
theorem after_8 (c : Dev nD) (t : Fin cfg0.N) : (dats m 0 c).after 8 t = outv (accAt m c (t.val + 1)) (bWr m c t) (bbr m c t) := by dsimp only [dats]

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

theorem Φ_zero (c : Dev nD) (k : Fin (cfg0.N + 1)) (h : k.val = 0) :
    (dats m 0 c).Φ k = iprop(((∃ a, owns (c : Thread nD τ) sc0 fullShare a) ∗ (∃ a, owns (c : Thread nD τ) sc1 fullShare a) ∗ (∃ a, owns (c : Thread nD τ) sc2 fullShare a)) ∗ ∃ r, prngReg c r) := by
  show Φv m c _ = _; unfold Φv scPart; rw [if_pos h]
theorem Φ_pos (c : Dev nD) (k : Fin (cfg0.N + 1)) (h : k.val ≠ 0) :
    (dats m 0 c).Φ k = iprop((owns (c : Thread nD τ) sc0 fullShare (Y1 m c) ∗ (∃ a1, ⌜Good m c (min k.val 25) a1⌝ ∗ owns (c : Thread nD τ) sc1 fullShare a1)
      ∗ owns (c : Thread nD τ) sc2 fullShare (accAt m c k.val)) ∗ ∃ r, prngReg c r) := by
  show Φv m c _ = _; unfold Φv scPart; rw [if_neg h]

/-! ## The body obligation -/

set_option maxHeartbeats 1000000 in
/-- At every point the body takes the invariant before the point to the invariant after it, by the point's kind. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  have hN := N_fifty
  have htlt : t.val < 50 := lt_of_lt_of_eq t.isLt N_fifty
  by_cases h0 : t.val = 0
  · -- the first point
    obtain rfl : t = t₀ := Fin.ext h0
    have hI : IsInit (grid0.coords t₀) := (isInit_iff t₀).mpr h0
    have hL1 : IsL1 (grid0.coords t₀) := (isL1_iff t₀).mpr (by omega)
    have hL2 : ¬ IsL2 (grid0.coords t₀) := fun h => by have := (isL2_iff t₀).mp h; omega
    have hO : ¬ IsOut (grid0.coords t₀) := fun h => by have := (isOut_iff t₀).mp h; omega
    simp only [idle_0, idle_1, idle_2, idle_3, idle_4, idle_5, idle_6, idle_7, idle8_of_not_out t₀ hO, flush8_of_not_out t₀ hO, before_0, before_1, before_2, before_3, before_4, before_5, before_6, before_7, after_0, after_1, after_2, after_3, after_4, after_5, after_6, after_7]
    rw [Φ_zero m c t₀.castSucc h0, Φ_pos m c t₀.succ (by show t₀.val + 1 ≠ 0; omega)]
    iintro ⟨⟨⟨⟨%a0, Hs0⟩, ⟨%a1, Hs1⟩, ⟨%a2, Hs2⟩⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, H8⟩
    iapply (run_first (c := c) (i := grid0.coords t₀) (M0 := st0_0 t₀) (h0 := hstage0_0 ((cfg0.slots t₀ 0).cast nbuf0_0)) (M1 := st0_1 t₀) (h1 := hstage0_1 ((cfg0.slots t₀ 1).cast nbuf0_1)) (M2 := st0_2 t₀) (h2 := hstage0_2 ((cfg0.slots t₀ 2).cast nbuf0_2)) (M3 := st0_3 t₀) (h3 := hstage0_3 ((cfg0.slots t₀ 3).cast nbuf0_3)) (M4 := st0_4 t₀) (h4 := hstage0_4 ((cfg0.slots t₀ 4).cast nbuf0_4)) (M5 := st0_5 t₀) (h5 := hstage0_5 ((cfg0.slots t₀ 5).cast nbuf0_5)) (M6 := st0_6 t₀) (h6 := hstage0_6 ((cfg0.slots t₀ 6).cast nbuf0_6)) (M7 := st0_7 t₀) (h7 := hstage0_7 ((cfg0.slots t₀ 7).cast nbuf0_7)) (M8 := st0_8 t₀) (h8 := hstage0_8 ((cfg0.slots t₀ 8).cast nbuf0_8)) (P0 := sc0) (g0 := Memref.isWhole_whole _) (P1 := sc1) (g1 := Memref.isWhole_whole _) (P2 := sc2) (g2 := Memref.isWhole_whole _)
      (x0 := bx m c t₀) (x1 := badj m c t₀) (x2 := bW1 m c t₀) (x3 := bb1 m c t₀) (x4 := bW2 m c t₀) (a1 := a1) hI hL1 hL2 hO _ _)
    isplitl [H0]; · iexact H0
    isplitl [H1]; · iexact H1
    isplitl [H2]; · iexact H2
    isplitl [H3]; · iexact H3
    isplitl [H4]; · iexact H4
    isplitl [H8]; · iexact H8
    isplitl [Hs0]; · iexists a0; iexact Hs0
    isplitl [Hs1]; · iexact Hs1
    isplitl [Hs2]; · iexists a2; iexact Hs2
    iintro ⟨H0, H1, H2, H3, H4, H8, Hs0, Hs1, Hs2⟩
    isplitl [Hs0 Hs1 Hs2 Hp]
    · isplitr [Hp]; swap; · iexact Hp
      isplitl [Hs0]; · iexact Hs0
      isplitl [Hs1]
      · iexists _; isplitr; swap; · iexact Hs1
        ipureintro
        rw [show min t₀.succ.val 25 = t₀.val + 1 from by show min (t₀.val + 1) 25 = _; omega]
        exact good_step m c t₀ (by omega) hL1 _ a1 (fun y hy => absurd hy (by rw [h0]; omega))
      rw [show accAt m c t₀.succ.val = acc0 from accAt_l1 m c _ (by show t₀.val + 1 ≤ 25; omega)]
      iexact Hs2
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · by_cases h25 : t.val < 25
    · -- a later point of phase 0
      have hI : ¬ IsInit (grid0.coords t) := fun h => h0 ((isInit_iff t).mp h)
      have hL1 : IsL1 (grid0.coords t) := (isL1_iff t).mpr h25
      have hL2 : ¬ IsL2 (grid0.coords t) := fun h => by have := (isL2_iff t).mp h; omega
      have hO : ¬ IsOut (grid0.coords t) := fun h => by have := (isOut_iff t).mp h; omega
      simp only [idle_0, idle_1, idle_2, idle_3, idle_4, idle_5, idle_6, idle_7, idle8_of_not_out t hO, flush8_of_not_out t hO, before_0, before_1, before_2, before_3, before_4, before_5, before_6, before_7, after_0, after_1, after_2, after_3, after_4, after_5, after_6, after_7]
      rw [Φ_pos m c t.castSucc h0, Φ_pos m c t.succ (by show t.val + 1 ≠ 0; omega)]
      iintro ⟨⟨⟨Hs0, ⟨%a1, %ha1, Hs1⟩, Hs2⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run_l1 (c := c) (i := grid0.coords t) (M0 := st0_0 t) (h0 := hstage0_0 ((cfg0.slots t 0).cast nbuf0_0)) (M1 := st0_1 t) (h1 := hstage0_1 ((cfg0.slots t 1).cast nbuf0_1)) (M2 := st0_2 t) (h2 := hstage0_2 ((cfg0.slots t 2).cast nbuf0_2)) (M3 := st0_3 t) (h3 := hstage0_3 ((cfg0.slots t 3).cast nbuf0_3)) (M4 := st0_4 t) (h4 := hstage0_4 ((cfg0.slots t 4).cast nbuf0_4)) (M5 := st0_5 t) (h5 := hstage0_5 ((cfg0.slots t 5).cast nbuf0_5)) (M6 := st0_6 t) (h6 := hstage0_6 ((cfg0.slots t 6).cast nbuf0_6)) (M7 := st0_7 t) (h7 := hstage0_7 ((cfg0.slots t 7).cast nbuf0_7)) (M8 := st0_8 t) (h8 := hstage0_8 ((cfg0.slots t 8).cast nbuf0_8)) (P0 := sc0) (g0 := Memref.isWhole_whole _) (P1 := sc1) (g1 := Memref.isWhole_whole _) (P2 := sc2) (g2 := Memref.isWhole_whole _)
        (x1 := badj m c t) (x3 := bb1 m c t) (x4 := bW2 m c t) (a0 := Y1 m c) (a1 := a1) hI hL1 hL2 hO _ _)
      isplitl [H1]; · iexact H1
      isplitl [H3]; · iexact H3
      isplitl [H4]; · iexact H4
      isplitl [H8]; · iexact H8
      isplitl [Hs0]; · iexact Hs0
      isplitl [Hs1]; · iexact Hs1
      iintro ⟨H1, H3, H4, H8, Hs0, Hs1⟩
      isplitl [Hs0 Hs1 Hs2 Hp]
      · isplitr [Hp]; swap; · iexact Hp
        isplitl [Hs0]; · iexact Hs0
        isplitl [Hs1]
        · iexists _; isplitr; swap; · iexact Hs1
          ipureintro
          rw [show min t.succ.val 25 = t.val + 1 from by show min (t.val + 1) 25 = _; omega]
          exact good_step m c t h25 hL1 _ a1 (by rw [show min t.castSucc.val 25 = t.val from by show min t.val 25 = _; omega] at ha1; exact ha1)
        rw [show accAt m c t.succ.val = accAt m c t.castSucc.val from (accAt_l1 m c _ (by show t.val + 1 ≤ 25; omega)).trans (accAt_l1 m c _ (by show t.val ≤ 25; omega)).symm]
        iexact Hs2
      isplitl [HO]; · iapply (owesAt_intro m c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hI : ¬ IsInit (grid0.coords t) := fun h => h0 ((isInit_iff t).mp h)
      have hL1 : ¬ IsL1 (grid0.coords t) := fun h => h25 ((isL1_iff t).mp h)
      have hL2 : IsL2 (grid0.coords t) := (isL2_iff t).mpr (by omega)
      by_cases h49 : t.val = 49
      · -- the last point
        have hO : IsOut (grid0.coords t) := (isOut_iff t).mpr h49
        simp only [idle_0, idle_1, idle_2, idle_3, idle_4, idle_5, idle_6, idle_7, idle8_of_out t hO, before_0, before_1, before_2, before_3, before_4, before_5, before_6, before_7, after_0, after_1, after_2, after_3, after_4, after_5, after_6, after_7]
        rw [after_8, accAt_l2 m c t (by omega)]
        rw [Φ_pos m c t.castSucc h0, Φ_pos m c t.succ (by show t.val + 1 ≠ 0; omega)]
        iintro ⟨⟨⟨Hs0, ⟨%a1, %ha1, Hs1⟩, Hs2⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        obtain rfl : a1 = Y2 m c := good_full m c a1 (by rw [show min t.castSucc.val 25 = 25 from by show min t.val 25 = _; omega] at ha1; exact ha1)
        rw [show accAt m c t.succ.val = accStep (badj m c t) (Y2 m c) (bb2 m c t) (accAt m c t.val) from accAt_l2 m c t (by omega)]
        iapply (run_last (c := c) (i := grid0.coords t) (M0 := st0_0 t) (h0 := hstage0_0 ((cfg0.slots t 0).cast nbuf0_0)) (M1 := st0_1 t) (h1 := hstage0_1 ((cfg0.slots t 1).cast nbuf0_1)) (M2 := st0_2 t) (h2 := hstage0_2 ((cfg0.slots t 2).cast nbuf0_2)) (M3 := st0_3 t) (h3 := hstage0_3 ((cfg0.slots t 3).cast nbuf0_3)) (M4 := st0_4 t) (h4 := hstage0_4 ((cfg0.slots t 4).cast nbuf0_4)) (M5 := st0_5 t) (h5 := hstage0_5 ((cfg0.slots t 5).cast nbuf0_5)) (M6 := st0_6 t) (h6 := hstage0_6 ((cfg0.slots t 6).cast nbuf0_6)) (M7 := st0_7 t) (h7 := hstage0_7 ((cfg0.slots t 7).cast nbuf0_7)) (M8 := st0_8 t) (h8 := hstage0_8 ((cfg0.slots t 8).cast nbuf0_8)) (P0 := sc0) (g0 := Memref.isWhole_whole _) (P1 := sc1) (g1 := Memref.isWhole_whole _) (P2 := sc2) (g2 := Memref.isWhole_whole _)
          (x1 := badj m c t) (x5 := bb2 m c t) (x6 := bWr m c t) (x7 := bbr m c t) (a1 := Y2 m c) (a2 := accAt m c t.val) hI hL1 hL2 hO _)
        isplitl [H1]; · iexact H1
        isplitl [H5]; · iexact H5
        isplitl [H6]; · iexact H6
        isplitl [H7]; · iexact H7
        isplitl [H8]; · iexists _; iexact H8
        isplitl [Hs1]; · iexact Hs1
        isplitl [Hs2]; · iexact Hs2
        iintro ⟨H1, H5, H6, H7, H8, Hs1, Hs2⟩
        isplitl [Hs0 Hs1 Hs2 Hp]
        · isplitr [Hp]; swap; · iexact Hp
          isplitl [Hs0]; · iexact Hs0
          isplitl [Hs1]
          · iexists _; isplitr; swap; · iexact Hs1
            ipureintro
            exact fun y _ => rfl
          iexact Hs2
        isplitl [HO]; · iapply (owesAt_intro m c); iexact HO
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · -- a point of phase 1 but the last
        have hO : ¬ IsOut (grid0.coords t) := fun h => h49 ((isOut_iff t).mp h)
        simp only [idle_0, idle_1, idle_2, idle_3, idle_4, idle_5, idle_6, idle_7, idle8_of_not_out t hO, flush8_of_not_out t hO, before_0, before_1, before_2, before_3, before_4, before_5, before_6, before_7, after_0, after_1, after_2, after_3, after_4, after_5, after_6, after_7]
        rw [Φ_pos m c t.castSucc h0, Φ_pos m c t.succ (by show t.val + 1 ≠ 0; omega)]
        iintro ⟨⟨⟨Hs0, ⟨%a1, %ha1, Hs1⟩, Hs2⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, H8⟩
        obtain rfl : a1 = Y2 m c := good_full m c a1 (by rw [show min t.castSucc.val 25 = 25 from by show min t.val 25 = _; omega] at ha1; exact ha1)
        rw [show accAt m c t.succ.val = accStep (badj m c t) (Y2 m c) (bb2 m c t) (accAt m c t.val) from accAt_l2 m c t (by omega)]
        iapply (run_l2 (c := c) (i := grid0.coords t) (M0 := st0_0 t) (h0 := hstage0_0 ((cfg0.slots t 0).cast nbuf0_0)) (M1 := st0_1 t) (h1 := hstage0_1 ((cfg0.slots t 1).cast nbuf0_1)) (M2 := st0_2 t) (h2 := hstage0_2 ((cfg0.slots t 2).cast nbuf0_2)) (M3 := st0_3 t) (h3 := hstage0_3 ((cfg0.slots t 3).cast nbuf0_3)) (M4 := st0_4 t) (h4 := hstage0_4 ((cfg0.slots t 4).cast nbuf0_4)) (M5 := st0_5 t) (h5 := hstage0_5 ((cfg0.slots t 5).cast nbuf0_5)) (M6 := st0_6 t) (h6 := hstage0_6 ((cfg0.slots t 6).cast nbuf0_6)) (M7 := st0_7 t) (h7 := hstage0_7 ((cfg0.slots t 7).cast nbuf0_7)) (M8 := st0_8 t) (h8 := hstage0_8 ((cfg0.slots t 8).cast nbuf0_8)) (P0 := sc0) (g0 := Memref.isWhole_whole _) (P1 := sc1) (g1 := Memref.isWhole_whole _) (P2 := sc2) (g2 := Memref.isWhole_whole _)
          (x1 := badj m c t) (x5 := bb2 m c t) (a1 := Y2 m c) (a2 := accAt m c t.val) hI hL1 hL2 hO _ _)
        isplitl [H1]; · iexact H1
        isplitl [H5]; · iexact H5
        isplitl [H8]; · iexact H8
        isplitl [Hs1]; · iexact Hs1
        isplitl [Hs2]; · iexact Hs2
        iintro ⟨H1, H5, H8, Hs1, Hs2⟩
        isplitl [Hs0 Hs1 Hs2 Hp]
        · isplitr [Hp]; swap; · iexact Hp
          isplitl [Hs0]; · iexact Hs0
          isplitl [Hs1]
          · iexists _; isplitr; swap; · iexact Hs1
            ipureintro
            exact fun y _ => rfl
          iexact Hs2
        isplitl [HO]; · iapply (owesAt_intro m c); iexact HO
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8

/-! ## The launch -/

/-- Before the first point the scratch buffers hold anything: the pipeline's own account of them. -/
theorem PhiA_eq (c : Dev nD) :
    (Pipeline.ΦA spec0 c : sProp 𝕄)
      = iprop(((∃ a, owns (c : Thread nD τ) sc0 fullShare a) ∗ (∃ a, owns (c : Thread nD τ) sc1 fullShare a) ∗ (∃ a, owns (c : Thread nD τ) sc2 fullShare a)) ∗ ∃ r, prngReg c r) := by
  unfold Pipeline.ΦA; rw [scopedRest0_eq]; simp only [sc0, sc1, sc2, owns_whole]; try rfl

theorem hin (c : Dev nD) : (Pipeline.ΦA spec0 c : sProp 𝕄) ⊢ (dats m 0 c).Φ 0 := by
  rw [PhiA_eq, Φ_zero m c 0 rfl]

theorem hout (c : Dev nD) : (dats m 0 c).Φ (Fin.last cfg0.N) ⊢ (Pipeline.ΦA spec0 c : sProp 𝕄) := by
  rw [PhiA_eq, Φ_pos m c (Fin.last cfg0.N) (by show cfg0.N ≠ 0; rw [N_fifty]; decide)]
  iintro ⟨⟨H0, ⟨%a1, -, H1⟩, H2⟩, Hp⟩
  isplitr [Hp]; swap; · iexact Hp
  isplitl [H0]; · iexists _; iexact H0
  isplitl [H1]; · iexists _; iexact H1
  iexists _; iexact H2

/-- Every weakly fair execution of @main on the TensorCores terminates; each windowed array ends at the library's account
    of its window and every other buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) 0 launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hin := hin m) (hout := hout m)

end Cert.Proof.KernelIdealBody

end
-- ==== Proof.Finite.lean ====
/-
  The precondition read: every entry of each of the eight argument arrays has absolute value below +∞, so it is a real
  number read in the extended reals.
-/
import proofs.«121906_g47081431499005_cont_8to1c4_562_17_alg».proof.Defs
import proofs.«121906_g47081431499005_cont_8to1c4_562_17_alg».proof.Proof.Gen.Pre_finite_inputs
import Idealize.ShloMosaic.Lib.ReduceAll
import Idealize.ShloMosaic.Lib.Affine
import Idealize.ShloMosaic.Lib.ValueIdx

set_option maxRecDepth 16384

noncomputable section

namespace Cert.Proof.Finite

open Cert.Pre_finite_inputs
open Idealize.ShloMosaic Idealize.ShloMosaic.ValueIdx

/-- An extended real whose absolute value is below +∞ is a real number. -/
theorem real_of_abs_lt (v : EReal) (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | top => simp [Ideal.cmp] at h
  | coe r => exact ⟨r, rfl⟩

instance : Subsingleton S_.Idx := ⟨fun a b => funext fun d => d.elim0⟩

/-- An array all of whose entries pass the test |v| < +∞ is an array of real numbers. -/
theorem real_of_all {S : Shape} {axes : List (Fin S.rank)} (v : FVec Ideal S .f32) (bc : S_.BroadcastsInDim S ![])
    (red : S.ReducesTo axes S_) (hu : 0 < S_.numel)
    (e : Host.reduce IntOp.andi (cmpf .olt (Host.absf v) (broadcastInDim S ![] bc (constant S_ .f32 0x7F800000#32))) (constantI S_ 1 1#1) red hu ix0 = 1#1) :
    ∃ w : S.Idx → ℝ, ∀ i, v i = (w i : EReal) := by
  have hall : ∀ i, ∃ r : ℝ, v i = (r : EReal) := fun i =>
    real_of_abs_lt (v i) (Host.reduce_andi_all _ _ red hu ix0 e i)
  exact ⟨fun i => (hall i).choose, fun i => (hall i).choose_spec⟩

variable [hPre : Cert.Pre_finite_inputs.Facts]

/-- The printed precondition, opened: each of its eight tests. -/
theorem reals_of_pre (x0 : FVec Ideal S10000x128 .f32) (x1 : FVec Ideal S10000x10000 .f32) (x2 : FVec Ideal S128x128 .f32) (x3 : FVec Ideal S128 .f32)
    (x4 : FVec Ideal S128x128 .f32) (x5 : FVec Ideal S128 .f32) (x6 : FVec Ideal S128x512 .f32) (x7 : FVec Ideal S512 .f32)
    (hpre : fn (F := Ideal) x0 x1 x2 x3 x4 x5 x6 x7 = (fun _ => 1#1)) :
    (∃ w : S10000x128.Idx → ℝ, ∀ i, x0 i = (w i : EReal)) ∧ (∃ w : S10000x10000.Idx → ℝ, ∀ i, x1 i = (w i : EReal))
    ∧ (∃ w : S128x128.Idx → ℝ, ∀ i, x2 i = (w i : EReal)) ∧ (∃ w : S128.Idx → ℝ, ∀ i, x3 i = (w i : EReal))
    ∧ (∃ w : S128x128.Idx → ℝ, ∀ i, x4 i = (w i : EReal)) ∧ (∃ w : S128.Idx → ℝ, ∀ i, x5 i = (w i : EReal))
    ∧ (∃ w : S128x512.Idx → ℝ, ∀ i, x6 i = (w i : EReal)) ∧ (∃ w : S512.Idx → ℝ, ∀ i, x7 i = (w i : EReal)) := by
  have h := congrFun hpre ix0
  dsimp only [fn, fn_part1, fn_part2] at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all _ _ _ _ h0, real_of_all _ _ _ _ h1, real_of_all _ _ _ _ h2, real_of_all _ _ _ _ h3,
    real_of_all _ _ _ _ h4, real_of_all _ _ _ _ h5, real_of_all _ _ _ _ h6, real_of_all _ _ _ _ h7⟩

end Cert.Proof.Finite

end
-- ==== Proof.KernelIdealBlocks.lean ====
/-
  The input blocks of the kernel's windows read off the arrays as launched: every window but the adjacency's stages its
  whole array at every point; the adjacency's block at point t is rows [400 (t % 25), 400 (t % 25) + 400). The three bias
  arrays reach the kernel as one-row matrices: row 0, column j of each is entry j of the vector.
-/
import proofs.«121906_g47081431499005_cont_8to1c4_562_17_alg».proof.Proof.KernelIdealFrame
import Idealize.ShloMosaic.Lib.StableHlo.Run
import Idealize.ShloMosaic.Lib.Pipeline.Value

set_option maxRecDepth 16384

noncomputable section

namespace Cert.Proof.KernelIdealBody

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat)

variable {F : FTy → Type} [FloatOps F] [Named F]
variable (m : (ℓ : Loc nD τ sig) → Buf (Elt F) ℓ)

theorem idx_0 : ∀ t : Fin cfg0.N, win0_0.index t 0 = 0 ∧ win0_0.index t 1 = 0 :=
  (by decide +kernel : ∀ t : Fin grid0.N, win0_0.index t 0 = 0 ∧ win0_0.index t 1 = 0)
/-- Window 0's block is its whole array at every point. -/
theorem blk_0 (c : Dev nD) (t : Fin cfg0.N) (y : S10000x128.Idx) :
    (iblk m c 0 t : Vec F S10000x128 .f32) y = (V m c main_arg0 : S10000x128.Idx → Elt F .f32) y := by
  have hi := idx_0 t
  unfold iblk
  rw [View.read_apply]
  show V m c main_arg0 _ = V m c main_arg0 _
  congr 1
  funext a
  apply Fin.ext
  match a with
  | ⟨0, _⟩ => show win0_0.index t 0 * 10000 + 1 * (y 0).val = (y 0).val; rw [hi.1]; omega
  | ⟨1, _⟩ => show win0_0.index t 1 * 128 + 1 * (y 1).val = (y 1).val; rw [hi.2]; omega

theorem idx_2 : ∀ t : Fin cfg0.N, win0_2.index t 0 = 0 ∧ win0_2.index t 1 = 0 :=
  (by decide +kernel : ∀ t : Fin grid0.N, win0_2.index t 0 = 0 ∧ win0_2.index t 1 = 0)
/-- Window 2's block is its whole array at every point. -/
theorem blk_2 (c : Dev nD) (t : Fin cfg0.N) (y : S128x128.Idx) :
    (iblk m c 2 t : Vec F S128x128 .f32) y = (V m c main_arg2 : S128x128.Idx → Elt F .f32) y := by
  have hi := idx_2 t
  unfold iblk
  rw [View.read_apply]
  show V m c main_arg2 _ = V m c main_arg2 _
  congr 1
  funext a
  apply Fin.ext
  match a with
  | ⟨0, _⟩ => show win0_2.index t 0 * 128 + 1 * (y 0).val = (y 0).val; rw [hi.1]; omega
  | ⟨1, _⟩ => show win0_2.index t 1 * 128 + 1 * (y 1).val = (y 1).val; rw [hi.2]; omega

theorem idx_3 : ∀ t : Fin cfg0.N, win0_3.index t 0 = 0 ∧ win0_3.index t 1 = 0 :=
  (by decide +kernel : ∀ t : Fin grid0.N, win0_3.index t 0 = 0 ∧ win0_3.index t 1 = 0)
/-- Window 3's block is its whole array at every point. -/
theorem blk_3 (c : Dev nD) (t : Fin cfg0.N) (y : S1x128.Idx) :
    (iblk m c 3 t : Vec F S1x128 .f32) y = (V m c main_v0 : S1x128.Idx → Elt F .f32) y := by
  have hi := idx_3 t
  unfold iblk
  rw [View.read_apply]
  show V m c main_v0 _ = V m c main_v0 _
  congr 1
  funext a
  apply Fin.ext
  match a with
  | ⟨0, _⟩ => show win0_3.index t 0 * 1 + 1 * (y 0).val = (y 0).val; rw [hi.1]; omega
  | ⟨1, _⟩ => show win0_3.index t 1 * 128 + 1 * (y 1).val = (y 1).val; rw [hi.2]; omega

theorem idx_4 : ∀ t : Fin cfg0.N, win0_4.index t 0 = 0 ∧ win0_4.index t 1 = 0 :=
  (by decide +kernel : ∀ t : Fin grid0.N, win0_4.index t 0 = 0 ∧ win0_4.index t 1 = 0)
/-- Window 4's block is its whole array at every point. -/
theorem blk_4 (c : Dev nD) (t : Fin cfg0.N) (y : S128x128.Idx) :
    (iblk m c 4 t : Vec F S128x128 .f32) y = (V m c main_arg4 : S128x128.Idx → Elt F .f32) y := by
  have hi := idx_4 t
  unfold iblk
  rw [View.read_apply]
  show V m c main_arg4 _ = V m c main_arg4 _
  congr 1
  funext a
  apply Fin.ext
  match a with
  | ⟨0, _⟩ => show win0_4.index t 0 * 128 + 1 * (y 0).val = (y 0).val; rw [hi.1]; omega
  | ⟨1, _⟩ => show win0_4.index t 1 * 128 + 1 * (y 1).val = (y 1).val; rw [hi.2]; omega

theorem idx_5 : ∀ t : Fin cfg0.N, win0_5.index t 0 = 0 ∧ win0_5.index t 1 = 0 :=
  (by decide +kernel : ∀ t : Fin grid0.N, win0_5.index t 0 = 0 ∧ win0_5.index t 1 = 0)
/-- Window 5's block is its whole array at every point. -/
theorem blk_5 (c : Dev nD) (t : Fin cfg0.N) (y : S1x128.Idx) :
    (iblk m c 5 t : Vec F S1x128 .f32) y = (V m c main_v1 : S1x128.Idx → Elt F .f32) y := by
  have hi := idx_5 t
  unfold iblk
  rw [View.read_apply]
  show V m c main_v1 _ = V m c main_v1 _
  congr 1
  funext a
  apply Fin.ext
  match a with
  | ⟨0, _⟩ => show win0_5.index t 0 * 1 + 1 * (y 0).val = (y 0).val; rw [hi.1]; omega
  | ⟨1, _⟩ => show win0_5.index t 1 * 128 + 1 * (y 1).val = (y 1).val; rw [hi.2]; omega

theorem idx_6 : ∀ t : Fin cfg0.N, win0_6.index t 0 = 0 ∧ win0_6.index t 1 = 0 :=
  (by decide +kernel : ∀ t : Fin grid0.N, win0_6.index t 0 = 0 ∧ win0_6.index t 1 = 0)
/-- Window 6's block is its whole array at every point. -/
theorem blk_6 (c : Dev nD) (t : Fin cfg0.N) (y : S128x512.Idx) :
    (iblk m c 6 t : Vec F S128x512 .f32) y = (V m c main_arg6 : S128x512.Idx → Elt F .f32) y := by
  have hi := idx_6 t
  unfold iblk
  rw [View.read_apply]
  show V m c main_arg6 _ = V m c main_arg6 _
  congr 1
  funext a
  apply Fin.ext
  match a with
  | ⟨0, _⟩ => show win0_6.index t 0 * 128 + 1 * (y 0).val = (y 0).val; rw [hi.1]; omega
  | ⟨1, _⟩ => show win0_6.index t 1 * 512 + 1 * (y 1).val = (y 1).val; rw [hi.2]; omega

theorem idx_7 : ∀ t : Fin cfg0.N, win0_7.index t 0 = 0 ∧ win0_7.index t 1 = 0 :=
  (by decide +kernel : ∀ t : Fin grid0.N, win0_7.index t 0 = 0 ∧ win0_7.index t 1 = 0)
/-- Window 7's block is its whole array at every point. -/
theorem blk_7 (c : Dev nD) (t : Fin cfg0.N) (y : S1x512.Idx) :
    (iblk m c 7 t : Vec F S1x512 .f32) y = (V m c main_v2 : S1x512.Idx → Elt F .f32) y := by
  have hi := idx_7 t
  unfold iblk
  rw [View.read_apply]
  show V m c main_v2 _ = V m c main_v2 _
  congr 1
  funext a
  apply Fin.ext
  match a with
  | ⟨0, _⟩ => show win0_7.index t 0 * 1 + 1 * (y 0).val = (y 0).val; rw [hi.1]; omega
  | ⟨1, _⟩ => show win0_7.index t 1 * 512 + 1 * (y 1).val = (y 1).val; rw [hi.2]; omega

theorem idx_1 : ∀ t : Fin cfg0.N, win0_1.index t 0 = t.val % 25 ∧ win0_1.index t 1 = 0 :=
  (by decide +kernel : ∀ t : Fin grid0.N, win0_1.index t 0 = t.val % 25 ∧ win0_1.index t 1 = 0)
/-- The adjacency's block at point t is rows [400 (t % 25), 400 (t % 25) + 400) of the adjacency. -/
theorem blk_1 (c : Dev nD) (t : Fin cfg0.N) (p : Fin 400) (k : Fin 10000) (r : Fin 10000) (hr : r.val = 400 * (t.val % 25) + p.val) :
    (iblk m c 1 t : Vec F S400x10000 .f32) (ix2 p k) = (m ((c : Thread nD τ).loc main_arg1) : S10000x10000.Idx → Elt F .f32) (ix2 r k) := by
  have hi := idx_1 t
  unfold iblk
  rw [View.read_apply]
  show V m c main_arg1 _ = m (c.tc.loc main_arg1) _
  rw [V_main_arg1]
  congr 1
  funext a
  apply Fin.ext
  match a with
  | ⟨0, _⟩ => show win0_1.index t 0 * 400 + 1 * p.val = r.val; rw [hi.1, hr]; omega
  | ⟨1, _⟩ => show win0_1.index t 1 * 10000 + 1 * k.val = k.val; rw [hi.2]; omega

/-- The bias vectors as the kernel finds them: one-row matrices. -/
theorem V_v0 (c : Dev nD) : (V m c main_v0 : S1x128.Idx → Elt F .f32)
    = shapeCast S1x128 (m ((c : Thread nD τ).loc main_arg3) : S128.Idx → Elt F .f32) shapeCasts_S128_S1x128 := by
  show StableHlo.after hostOps0 (fun b => m (c, b)) (Proc.devRef .tc main_v0) = _; after_results; rfl
theorem V_v1 (c : Dev nD) : (V m c main_v1 : S1x128.Idx → Elt F .f32)
    = shapeCast S1x128 (m ((c : Thread nD τ).loc main_arg5) : S128.Idx → Elt F .f32) shapeCasts_S128_S1x128 := by
  show StableHlo.after hostOps0 (fun b => m (c, b)) (Proc.devRef .tc main_v1) = _; after_results; rfl
theorem V_v2 (c : Dev nD) : (V m c main_v2 : S1x512.Idx → Elt F .f32)
    = shapeCast S1x512 (m ((c : Thread nD τ).loc main_arg7) : S512.Idx → Elt F .f32) shapeCasts_S512_S1x512 := by
  show StableHlo.after hostOps0 (fun b => m (c, b)) (Proc.devRef .tc main_v2) = _; after_results; rfl

/-- Row 0, column j of a vector kept as a one-row matrix is entry j. -/
theorem row128 (v : S128.Idx → Elt F .f32) (u : Fin 1) (j : Fin 128) : shapeCast S1x128 v shapeCasts_S128_S1x128 (ix2 u j) = v (ix1 j) := by
  rw [shapeCast_addUnit_apply ![128] v shapeCasts_S128_S1x128 (ix2 u j)]
  exact congrArg v (funext fun a => by match a with | ⟨0, _⟩ => rfl)
theorem row512 (v : S512.Idx → Elt F .f32) (u : Fin 1) (j : Fin 512) : shapeCast S1x512 v shapeCasts_S512_S1x512 (ix2 u j) = v (ix1 j) := by
  rw [shapeCast_addUnit_apply ![512] v shapeCasts_S512_S1x512 (ix2 u j)]
  exact congrArg v (funext fun a => by match a with | ⟨0, _⟩ => rfl)

end Cert.Proof.KernelIdealBody

end
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.LibFirstAxis.lean ====
/-
  Reductions along the FIRST axis of a matrix, and layout operations around a unit middle axis of a rank-3 array, read
  at an index written by coordinates, over any extents:

  * a lane sum over axis 0 of an `[a, b]` matrix, at the ideal values and into the zero word, read at column `k`, is
    the sum over the rows `p` of the entry `(p, k)` (a column sum); the host's reduce-add over axis 0 is the same sum
    added to its initial value;
  * the host's reduce-add of a vector `[b]` to a scalar is its initial value plus the sum of the entries;
  * a sum over the index set of a rank-1 shape is the sum over its one coordinate;
  * an `[a, b, c]` array sliced at offsets zero to its first middle row `[a, 1, c]` reads the operand at `(i, 0, k)`;
  * an `[a, 1, c]` array reshaped to the matrix `[a, c]` reads the operand at `(i, 0, k)`.

  Each is the library's general read-at-an-index lemma of the operation with the operand's index already chosen.
-/
import Idealize.ShloMosaic.Lib.Pipeline.Value
import Idealize.ShloMosaic.Lib.ValueIdx
import Idealize.ShloMosaic.PureOps.Ideal.Laws

noncomputable section

namespace Cert.LibFirstAxis

open Idealize.ShloMosaic Idealize.ShloMosaic.ValueIdx

variable {α : Type}

/-- The index of `[a, b]` over column `k` of `[b]` with row `p` inserted on the first axis is `(p, k)`. -/
theorem lift_first {a b : ℕ} (h : (⟨2, ![a, b]⟩ : Shape).Reduces [0] ⟨1, ![b]⟩) (k : Fin b) (p : Fin a) :
    h.lift (ix1 k) p = ix2 p k := by
  funext ax
  apply Fin.ext
  match ax with
  | ⟨0, _⟩ => rfl
  | ⟨1, _⟩ => rfl

/-- A lane sum over the first axis, at the ideal values and into the zero word, is the column's sum over the rows. -/
theorem multiReduction_add_first {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (k : Fin b) :
    multiReduction .add [0] ⟨1, ![b]⟩ src 0x00000000#32 h hφ hacc (ix1 k) = ∑ p : Fin a, src (ix2 p k) :=
  (Ideal.multiReduction_add_single src _ h hφ hacc (ix1 k)).trans
    (Finset.sum_congr rfl fun p _ => congrArg src (lift_first h k p))

/-- The host's sum over the first axis, at the ideal values: the initial value plus the column's sum over the rows. -/
theorem hostReduceAdd_first {a b : ℕ} (h' : (⟨2, ![a, b]⟩ : Shape).ReducesTo [0] ⟨1, ![b]⟩)
    (h : (⟨2, ![a, b]⟩ : Shape).Reduces [0] ⟨1, ![b]⟩) (x : (⟨2, ![a, b]⟩ : Shape).Idx → EReal) (init : EReal)
    (k : Fin b) :
    Ideal.hostReduceAdd h' x init (ix1 k) = init + ∑ p : Fin a, x (ix2 p k) :=
  (Ideal.hostReduceAdd_single h' h x init (ix1 k)).trans
    (congrArg (init + ·) (Finset.sum_congr rfl fun p _ => congrArg x (lift_first h k p)))

/-- A rank-1 index set is its one coordinate's range … -/
def idxEquiv1 {n : ℕ} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ k : Fin n, f (ix1 k) := by
  rw [← Equiv.sum_comp (idxEquiv1 (n := n)).symm f]
  rfl

/-- The host's sum of a vector to a scalar, at the ideal values: the initial value plus the sum of its entries. -/
theorem hostReduceAdd_vector {b : ℕ} (h' : (⟨1, ![b]⟩ : Shape).ReducesTo [0] ⟨0, ![]⟩)
    (x : (⟨1, ![b]⟩ : Shape).Idx → EReal) (init : EReal) (j : (⟨0, ![]⟩ : Shape).Idx) :
    Ideal.hostReduceAdd h' x init j = init + ∑ k : Fin b, x (ix1 k) :=
  (Ideal.hostReduceAdd_total h' (fun d => d.elim0) x init j).trans (congrArg (init + ·) (sum_idx1 x))

/-- An `[a, b, c]` array sliced at offsets zero to `[a, 1, c]` reads, at `(i, u, k)`, the operand at `(i, 0, k)`. -/
theorem slice_first_mid_apply {a b c : ℕ} (x : (⟨3, ![a, b, c]⟩ : Shape).Idx → α)
    (h : (⟨3, ![a, b, c]⟩ : Shape).Slices ![0, 0, 0] ⟨3, ![a, 1, c]⟩) (i : Fin a) (u : Fin 1) (k : Fin c) (hb : 0 < b) :
    extractStridedSlice ⟨3, ![a, 1, c]⟩ ![0, 0, 0] x h (ix3 i u k) = x (ix3 i (⟨0, hb⟩ : Fin b) k) :=
  extractStridedSlice_apply ![0, 0, 0] x h (ix3 i u k) (ix3 i (⟨0, hb⟩ : Fin b) k) fun ax => by
    match ax with
    | ⟨0, _⟩ => exact (Nat.zero_add _).symm
    | ⟨1, _⟩ =>
      show 0 = 0 + u.val
      have hu : u.val = 0 := by omega
      rw [hu]
    | ⟨2, _⟩ => exact (Nat.zero_add _).symm

/-- An `[a, 1, c]` array reshaped to `[a, c]` reads, at `(i, k)`, the operand at `(i, 0, k)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

end Cert.LibFirstAxis

end
-- ==== Proof.KernelIdealRead.lean ====
/-
  The kernel body's four kinds of stored value read at an index, at the ideal values (extended reals, exact operations):
  a block of x · W1; a block of max(adj · Y1 + b1, 0) · W2; the running column sum plus a block's column sums of
  max(adj · Y2 + b2, 0); and the output row (sum · 1/10000) · Wr + br. Each matrix product into the zero accumulator is the
  sum over the contracted position; a bias row is laid along every row; the named constant is 1/10000.
-/
import proofs.«121906_g47081431499005_cont_8to1c4_562_17_alg».proof.Proof.Gen.KernelIdeal.Skeleton
import proofs.«121906_g47081431499005_cont_8to1c4_562_17_alg».proof.Proof.LibPlainDot
import proofs.«121906_g47081431499005_cont_8to1c4_562_17_alg».proof.Proof.LibFirstAxis
import Idealize.ShloMosaic.Lib.Pipeline.Value
import Idealize.ShloMosaic.Lib.ValueIdx
import Idealize.ShloMosaic.PureOps.Ideal.Laws

noncomputable section

namespace Cert.Proof.KernelIdealRead

open Cert.KernelIdeal Cert.KernelIdeal.Gen
open Idealize.ShloMosaic Idealize.ShloMosaic.ValueIdx Idealize.ShloMosaic.Pipeline

theorem dA_l0 (i : S400x128.Idx) (q : dot_S400x128_S128x128_S400x128_1_0_0_1_n_n.contr.Idx) : (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem dA_r1 (i : S400x128.Idx) (q : dot_S400x128_S128x128_S400x128_1_0_0_1_n_n.contr.Idx) : (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

theorem dB_l0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem dB_r1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

theorem dC_l0 (i : S1x512.Idx) (q : dot_S1x128_S128x512_S1x512_1_0_0_1_n_n.contr.Idx) : (dot_S1x128_S128x512_S1x512_1_0_0_1_n_n.lhsIdx i q 0).val = (i 0).val := by
  unfold DotDims.lhsIdx
  rw [dif_neg (show ¬(0 : Fin S1x128.rank) ∈ dot_S1x128_S128x512_S1x512_1_0_0_1_n_n.lhsBatch by decide), dif_pos (show (0 : Fin S1x128.rank) ∈ dot_S1x128_S128x512_S1x512_1_0_0_1_n_n.lhsNonContracting by decide)]
  rfl
theorem dC_r1 (i : S1x512.Idx) (q : dot_S1x128_S128x512_S1x512_1_0_0_1_n_n.contr.Idx) : (dot_S1x128_S128x512_S1x512_1_0_0_1_n_n.rhsIdx i q 1).val = (i 1).val := by
  unfold DotDims.rhsIdx
  rw [dif_neg (show ¬(1 : Fin S128x512.rank) ∈ dot_S1x128_S128x512_S1x512_1_0_0_1_n_n.rhsBatch by decide), dif_pos (show (1 : Fin S128x512.rank) ∈ dot_S1x128_S128x512_S1x512_1_0_0_1_n_n.rhsNonContracting by decide)]
  rfl

/-- The zero word is the real zero. -/
theorem zero_word : (Scalar.ofBits (F := Ideal) .f32 0x00000000#32 : EReal) = 0 := Ideal.ofBits_zero_f32

/-- The three matrix products of the body into the zero accumulator, read at an entry. -/
theorem mmA (l : FVec Ideal S400x128 .f32) (r : FVec Ideal S128x128 .f32) (p : Fin 400) (q : Fin 128) :
    matmul dot_S400x128_S128x128_S400x128_1_0_0_1_n_n none l r (constant S400x128 .f32 0x00000000#32) (ix2 p q) = ∑ k : Fin 128, l (ix2 p k) * r (ix2 k q) :=
  PlainDot.matmul_zero_ix2 dot_S400x128_S128x128_S400x128_1_0_0_1_n_n rfl rfl rfl rfl dA_l0 dA_r1 none l r p q
theorem mmB (l : FVec Ideal S400x10000 .f32) (r : FVec Ideal S10000x128 .f32) (p : Fin 400) (q : Fin 128) :
    matmul dot_S400x10000_S10000x128_S400x128_1_0_0_1_n_n none l r (constant S400x128 .f32 0x00000000#32) (ix2 p q) = ∑ k : Fin 10000, l (ix2 p k) * r (ix2 k q) :=
  PlainDot.matmul_zero_ix2 dot_S400x10000_S10000x128_S400x128_1_0_0_1_n_n rfl rfl rfl rfl dB_l0 dB_r1 none l r p q
theorem mmC (l : FVec Ideal S1x128 .f32) (r : FVec Ideal S128x512 .f32) (p : Fin 1) (q : Fin 512) :
    matmul dot_S1x128_S128x512_S1x512_1_0_0_1_n_n none l r (constant S1x512 .f32 0x00000000#32) (ix2 p q) = ∑ k : Fin 128, l (ix2 p k) * r (ix2 k q) :=
  PlainDot.matmul_zero_ix2 dot_S1x128_S128x512_S1x512_1_0_0_1_n_n rfl rfl rfl rfl dC_l0 dC_r1 none l r p q

/-- A block of 400 rows of x times W1. -/
theorem chunk_apply (v16 : Vec Ideal S400x128 .f32) (v17 : Vec Ideal S128x128 .f32) (p : Fin 400) (q : Fin 128) :
    k0_pay5 (F := Ideal) v16 v17 (ix2 p q) = ∑ k : Fin 128, v16 (ix2 p k) * v17 (ix2 k q) := by
  unfold k0_pay5
  try dsimp only
  rw [shapeCast_self, mmA]

/-- A block of 400 rows of max(adj · Y1 + b1, 0) · W2. -/
theorem layer1_apply (v16 : Vec Ideal S400x10000 .f32) (v17 : Vec Ideal S10000x128 .f32) (v19 : Vec Ideal S1x128 .f32) (v25 : Vec Ideal S128x128 .f32)
    (p : Fin 400) (q : Fin 128) :
    k0_pay2 (F := Ideal) v16 v17 v19 v25 (ix2 p q)
      = ∑ j : Fin 128, max ((∑ k : Fin 10000, v16 (ix2 p k) * v17 (ix2 k j)) + v19 (ix2 0 j)) 0 * v25 (ix2 j q) := by
  unfold k0_pay2
  try dsimp only
  rw [shapeCast_self, mmA]
  refine Finset.sum_congr rfl fun j _ => ?_
  rw [maximumf_apply, addf_apply, mmB, shapeCast_self,
    broadcastTo_apply v19 broadcasts_S1x128_S400x128 (ix2 p j) (ix2 0 j) (fun a => by match a with | ⟨0, _⟩ => rfl | ⟨1, _⟩ => rfl),
    broadcast_apply, zero_word]

/-- The running sum plus the column sums of a block of 400 rows of max(adj · Y2 + b2, 0). -/
theorem accStep_apply (v16 : Vec Ideal S400x10000 .f32) (v17 : Vec Ideal S10000x128 .f32) (v19 : Vec Ideal S1x128 .f32) (v25 : Vec Ideal S1x128 .f32)
    (h : Fin 128) :
    k0_pay3 (F := Ideal) v16 v17 v19 v25 (ix2 0 h)
      = v25 (ix2 0 h) + ∑ p : Fin 400, max ((∑ k : Fin 10000, v16 (ix2 p k) * v17 (ix2 k h)) + v19 (ix2 0 h)) 0 := by
  unfold k0_pay3
  try dsimp only
  rw [shapeCast_self, addf_apply, shapeCast_addUnit_apply ![128] _ shapeCasts_S128_S1x128 (ix2 0 h)]
  rw [show (fun a : Fin 1 => (ix2 (0 : Fin 1) h : S1x128.Idx) a.succ) = ix1 h from funext fun a => by match a with | ⟨0, _⟩ => rfl]
  refine congrArg (v25 (ix2 0 h) + ·) ((LibFirstAxis.multiReduction_add_first (a := 400) (b := 128) _ _ _ _ h).trans (Finset.sum_congr rfl fun p _ => ?_))
  rw [maximumf_apply, addf_apply, mmB, shapeCast_self,
    broadcastTo_apply v19 broadcasts_S1x128_S400x128 (ix2 p h) (ix2 0 h) (fun a => by match a with | ⟨0, _⟩ => rfl | ⟨1, _⟩ => rfl),
    broadcast_apply, zero_word]

/-- The named constant is 1/10000. -/
theorem inv_n : Named.named (F := Ideal) κ "inv_10000" (φ := .f32) 0x38D1B717#32 = ((1 / 10000 : ℝ) : EReal) :=
  IdealRules.named_const.ideal_named_scalar _ _ _ _ rfl

/-- The output row: (sum · 1/10000) · Wr + br. -/
theorem out_apply (v16 : Vec Ideal S1x128 .f32) (v19 : Vec Ideal S128x512 .f32) (v21 : Vec Ideal S1x512 .f32) (o : Fin 512) :
    k0_pay4 (F := Ideal) v16 v19 v21 (ix2 0 o)
      = (∑ h : Fin 128, (v16 (ix2 0 h) * ((1 / 10000 : ℝ) : EReal)) * v19 (ix2 h o)) + v21 (ix2 0 o) := by
  unfold k0_pay4
  try dsimp only
  rw [addf_apply, shapeCast_self, mmC]
  refine congrArg (· + _) (Finset.sum_congr rfl fun h _ => ?_)
  rw [mulf_apply, broadcast_apply, inv_n]

end Cert.Proof.KernelIdealRead

end
-- ==== Proof.KernelIdealValue.lean ====
/-
  What the kernel's scratch buffers and its output row hold, at the ideal values, as formulas of the arrays as launched
  (x, adj, W1, b1, W2, b2, Wr, br):
    Y1 (r, h) = Σ_f x (r, f) · W1 (f, h);
    Y2 (r, h) = Σ_j max(Σ_k adj (r, k) · Y1 (k, j) + b1 j, 0) · W2 (j, h);
    the running sum before point 25 + j is, in column h, the sum over the first j blocks of 400 rows r of
      max(Σ_k adj (r, k) · Y2 (k, h) + b2 h, 0);
    the output row is  Σ_h (sum h · 1/10000) · Wr (h, o) + br o.
-/
import proofs.«121906_g47081431499005_cont_8to1c4_562_17_alg».proof.Proof.KernelIdealBlocks
import proofs.«121906_g47081431499005_cont_8to1c4_562_17_alg».proof.Proof.KernelIdealRead
import Idealize.ShloMosaic.Lib.Pipeline.Value

set_option maxRecDepth 16384

noncomputable section

namespace Cert.Proof.KernelIdealBody

open Cert.KernelIdeal Cert.KernelIdeal.Gen Cert.Proof.KernelIdealRead
open Idealize.ShloMosaic Idealize.ShloMosaic.TcCoe Idealize.ShloMosaic.ValueIdx Idealize.ShloMosaic.Pipeline
open Idealize.SL Idealize.SL.Sem

variable (m : (ℓ : Loc nD τ sig) → Buf (Elt Ideal) ℓ) (c : Dev nD)

theorem hz : (![0, 0] : Fin 2 → ℕ) = fun _ => 0 := funext fun a => by fin_cases a <;> rfl

/-- The arrays as launched. -/
abbrev aX : Vec Ideal S10000x128 .f32 := m ((c : Thread nD τ).loc main_arg0)
abbrev aA : Vec Ideal S10000x10000 .f32 := m ((c : Thread nD τ).loc main_arg1)
abbrev aW1 : Vec Ideal S128x128 .f32 := m ((c : Thread nD τ).loc main_arg2)
abbrev aB1 : Vec Ideal S128 .f32 := m ((c : Thread nD τ).loc main_arg3)
abbrev aW2 : Vec Ideal S128x128 .f32 := m ((c : Thread nD τ).loc main_arg4)
abbrev aB2 : Vec Ideal S128 .f32 := m ((c : Thread nD τ).loc main_arg5)
abbrev aWr : Vec Ideal S128x512 .f32 := m ((c : Thread nD τ).loc main_arg6)
abbrev aBr : Vec Ideal S512 .f32 := m ((c : Thread nD τ).loc main_arg7)

/-! ## Y1 -/

/-- The row and the column of an index of a 10000 × 128 array. -/
def rowOf (y : S10000x128.Idx) : Fin 10000 := ⟨(y 0).val, ValueIdx.idx2_lt0 y⟩
def colOf (y : S10000x128.Idx) : Fin 128 := ⟨(y 1).val, ValueIdx.idx2_lt1 y⟩

/-- One stored block of Y1, entry (p, q), is row o + p of x against column q of W1. -/
theorem chunk_ok (o : ℕ) (inb : ∀ a, (![o, 0] : Fin 2 → ℕ) a + S400x128.size a ≤ S10000x128.size a) (p : Fin 400) (q : Fin 128)
    (y : S10000x128.Idx) (h0 : (y 0).val = o + p.val) (h1 : (y 1).val = q.val) :
    k0_pay5 (F := Ideal) (View.ld (bx m c t₀) (Rect.unit (s := S10000x128) ![o, 0] S400x128.size inb)) (View.ld (bW1 m c t₀) rW) (ix2 p q)
      = ∑ f : Fin 128, aX m c (ix2 (rowOf y) f) * aW1 m c (ix2 f (colOf y)) := by
  rw [chunk_apply]
  refine Finset.sum_congr rfl fun f _ => ?_
  congr 1
  · show iblk m c 0 t₀ ((Rect.unit (s := S10000x128) ![o, 0] S400x128.size inb).emb (ix2 p f)) = _
    refine (blk_0 m c t₀ _).trans ?_
    rw [V_main_arg0]
    exact congrArg _ (funext fun a => Fin.ext (by
      match a with
      | ⟨0, _⟩ => show o + 1 * p.val = (y 0).val; omega
      | ⟨1, _⟩ => show 0 + 1 * f.val = f.val; omega))
  · rw [View.ld_unit_zero (S := S128x128) hz]
    show iblk m c 2 t₀ (ix2 f q) = _
    refine (blk_2 m c t₀ _).trans ?_
    rw [V_main_arg2]
    exact congrArg _ (funext fun a => Fin.ext (by
      match a with
      | ⟨0, _⟩ => rfl
      | ⟨1, _⟩ => exact h1.symm))

theorem chunk_ok' (o : ℕ) (inb : ∀ a, (![o, 0] : Fin 2 → ℕ) a + S400x128.size a ≤ S10000x128.size a) (xx : S400x128.Idx) :
    k0_pay5 (F := Ideal) (View.ld (bx m c t₀) (Rect.unit (s := S10000x128) ![o, 0] S400x128.size inb)) (View.ld (bW1 m c t₀) rW) xx
      = ∑ f : Fin 128, aX m c (ix2 (rowOf ((Rect.unit (s := S10000x128) ![o, 0] S400x128.size inb).emb xx)) f)
          * aW1 m c (ix2 f (colOf ((Rect.unit (s := S10000x128) ![o, 0] S400x128.size inb).emb xx))) := by
  obtain ⟨p, q, rfl⟩ : ∃ (p : Fin 400) (q : Fin 128), xx = ix2 p q := ⟨xx 0, xx 1, eq_ix2 xx⟩
  exact chunk_ok m c o inb p q _ (by show o + 1 * p.val = o + p.val; omega) (by show 0 + 1 * q.val = q.val; omega)

theorem Y1_apply (r : Fin 10000) (h : Fin 128) :
    Y1 m c (ix2 r h) = ∑ f : Fin 128, aX m c (ix2 r f) * aW1 m c (ix2 f h) := by
  unfold Y1 y1v
  refine View.canon_apply_of_pieces (fun y => ∑ f : Fin 128, aX m c (ix2 (rowOf y) f) * aW1 m c (ix2 f (colOf y))) (y1Pieces _ _) ?_ (ix2 r h) (y1cover _ _ _)
  intro pc hpc
  simp only [y1Pieces, List.mem_cons, List.mem_nil_iff, or_false] at hpc
  rcases hpc with rfl | rfl | rfl | rfl | rfl | rfl | rfl | rfl | rfl | rfl | rfl | rfl | rfl | rfl | rfl | rfl | rfl | rfl | rfl | rfl | rfl | rfl | rfl | rfl | rfl
  all_goals exact fun xx => chunk_ok' m c _ _ xx

/-! ## Y2 -/

/-- A stored block of Y2 read at an entry, of the blocks it is computed from. -/
theorem layer1_ld (x1 : Vec Ideal S400x10000 .f32) (y1 : Vec Ideal S10000x128 .f32) (x3 : Vec Ideal S1x128 .f32) (x4 : Vec Ideal S128x128 .f32)
    (p : Fin 400) (q : Fin 128) :
    layer1 x1 y1 x3 x4 (ix2 p q) = ∑ j : Fin 128, max ((∑ k : Fin 10000, x1 (ix2 p k) * y1 (ix2 k j)) + x3 (ix2 0 j)) 0 * x4 (ix2 j q) := by
  show k0_pay2 _ _ _ _ (ix2 p q) = _
  rw [layer1_apply, View.ld_unit_zero (S := S400x10000) hz, View.ld_unit_zero (S := S10000x128) hz, View.ld_unit_zero (S := S1x128) hz, View.ld_unit_zero (S := S128x128) hz]

theorem Y2_apply (r : Fin 10000) (h : Fin 128) :
    Y2 m c (ix2 r h) = ∑ j : Fin 128, max ((∑ k : Fin 10000, aA m c (ix2 r k) * Y1 m c (ix2 k j)) + aB1 m c (ix1 j)) 0 * aW2 m c (ix2 j h) := by
  have hr := r.isLt
  show layer1 (badj m c (tOf (ix2 r h))) (Y1 m c) (bb1 m c (tOf (ix2 r h))) (bW2 m c (tOf (ix2 r h))) (ix2 ⟨r.val % 400, Nat.mod_lt _ (by decide)⟩ h) = _
  rw [layer1_ld]
  refine Finset.sum_congr rfl fun j _ => ?_
  congr 2
  · congr 1
    · refine Finset.sum_congr rfl fun k _ => ?_
      congr 1
      exact blk_1 m c _ _ k r (by show r.val = 400 * ((r.val / 400) % 25) + r.val % 400; omega)
    · show iblk m c 3 _ (ix2 0 j) = _
      refine (blk_3 m c _ _).trans ?_
      rw [V_v0, row128]
  · show iblk m c 4 _ (ix2 j h) = _
    refine (blk_4 m c _ _).trans ?_
    rw [V_main_arg4]

/-! ## The running column sum -/

/-- Row r of max(adj · Y2 + b2, 0), column h; zero past the last row. -/
def z2 (r : ℕ) (h : Fin 128) : EReal :=
  if hr : r < 10000 then max ((∑ k : Fin 10000, aA m c (ix2 ⟨r, hr⟩ k) * Y2 m c (ix2 k h)) + aB2 m c (ix1 h)) 0 else 0

theorem acc0_apply (h : Fin 128) : acc0 (F := Ideal) (ix2 0 h) = 0 := by
  unfold acc0
  rw [View.canon_unit_zero hz]
  unfold k0_pay1 k0_pay32
  rw [shapeCast_self, broadcast_apply]
  exact zero_word

theorem accAt_apply (j : ℕ) (hj : j ≤ 25) (h : Fin 128) :
    accAt m c (25 + j) (ix2 0 h) = ∑ i ∈ Finset.range j, ∑ p : Fin 400, z2 m c (i * 400 + p.val) h := by
  induction j with
  | zero => rw [Finset.range_zero, Finset.sum_empty, accAt_l1 m c 25 (le_refl _)]; exact acc0_apply h
  | succ j ih =>
    have hlt : 25 + j < cfg0.N := by rw [N_fifty]; omega
    rw [Finset.sum_range_succ, ← ih (by omega)]
    rw [show 25 + (j + 1) = (⟨25 + j, hlt⟩ : Fin cfg0.N).val + 1 from rfl, accAt_l2 m c ⟨25 + j, hlt⟩ (by show 25 ≤ 25 + j; omega)]
    unfold accStep
    rw [View.canon_unit_zero hz, accStep_apply, View.ld_unit_zero (S := S400x10000) hz, View.ld_unit_zero (S := S10000x128) hz, View.ld_unit_zero (S := S1x128) hz, View.ld_unit_zero (S := S1x128) hz]
    congr 1
    refine Finset.sum_congr rfl fun p _ => ?_
    have hp := p.isLt
    unfold z2
    rw [dif_pos (by omega : j * 400 + p.val < 10000)]
    congr 2
    · refine Finset.sum_congr rfl fun k _ => ?_
      congr 1
      exact blk_1 m c _ p k ⟨j * 400 + p.val, by omega⟩ (by show j * 400 + p.val = 400 * ((25 + j) % 25) + p.val; omega)
    · show iblk m c 5 _ (ix2 0 h) = _
      refine (blk_5 m c _ _).trans ?_
      rw [V_v1, row128]

/-! ## The output row -/

theorem outv_apply (acc : Vec Ideal S1x128 .f32) (t : Fin cfg0.N) (o : Fin 512) :
    outv acc (bWr m c t) (bbr m c t) (ix2 0 o)
      = (∑ h : Fin 128, (acc (ix2 0 h) * ((1 / 10000 : ℝ) : EReal)) * aWr m c (ix2 h o)) + aBr m c (ix1 o) := by
  unfold outv
  rw [View.canon_unit_zero hz, out_apply, View.ld_unit_zero (S := S1x128) hz, View.ld_unit_zero (S := S128x512) hz, View.ld_unit_zero (S := S1x512) hz]
  congr 1
  · refine Finset.sum_congr rfl fun h _ => ?_
    congr 1
    show iblk m c 6 t (ix2 h o) = _
    refine (blk_6 m c t _).trans ?_
    rw [V_main_arg6]
  · show iblk m c 7 t (ix2 0 o) = _
    refine (blk_7 m c t _).trans ?_
    rw [V_v2, row512]

end Cert.Proof.KernelIdealBody

end
-- ==== Proof.KernelIdealFinal.lean ====
/-
  The kernel's result array: the one write-back, at the last point, writes the output row over the whole 1 × 512 array, and
  the host line after the region reshapes it to 128 × 4. So every run ends with the result at that reshape of the row
  (sum · 1/10000) · Wr + br of the final column sums, the eight arguments as launched.
-/
import proofs.«121906_g47081431499005_cont_8to1c4_562_17_alg».proof.Proof.KernelIdealFrame
import Idealize.ShloMosaic.Lib.StableHlo.Run
import Idealize.ShloMosaic.Lib.Pipeline.Value

set_option maxRecDepth 16384

noncomputable section

namespace Cert.Proof.KernelIdealBody

open Cert.KernelIdeal Cert.KernelIdeal.Gen
open Idealize.ShloMosaic Idealize.ShloMosaic.TcCoe Idealize.ShloMosaic.StableHlo
open Idealize.SL Idealize.SL.Sem
open Idealize.ShloMosaic.Pipeline (Dat)

variable {F : FTy → Type} [FloatOps F] [Named F]
variable (m : (ℓ : Loc nD τ sig) → Buf (Elt F) ℓ) (ρ : Dev nD → PrngReg)

/-- The last point. -/
def t49 : Fin cfg0.N := ⟨49, by rw [N_fifty]; decide⟩

/-- The output row: of the final column sums, Wr and br. -/
def outRow (c : Dev nD) : Vec F S1x512 .f32 := outv (accAt m c 50) (bWr m c t49) (bbr m c t49)

/-- The one write-back writes the output row: block (0, 0) of the 1 × 512 array read through zero offsets is the array. -/
theorem flushed_eq (c : Dev nD) (t : Fin cfg0.N) (hf : (cfg0.win 8).flush t = true) :
    (dats m 0 c).flushed 8 t = ((cfg0.win 8).blk t).view.read (Elt F) (outRow m c) := by
  have h1 : t.val = 49 := by have h2 := (flush0_8 t).mp hf; have h3 : t.val < 50 := lt_of_lt_of_eq t.isLt N_fifty; omega
  obtain rfl : t = t49 := Fin.ext h1
  show (cfg0.win 8).cut (grid0.coords t49) ((dats m 0 c).after 8 t49) = _
  rw [after_8]
  have hz' : (fun a => win0_8.index t49 a * main_v3.ty.shape.size a) = fun _ => 0 := funext fun a => by fin_cases a <;> decide
  exact (Memref.read_access_unit_zero (Elt F) main_v3 hz' (fun a => by rw [congrFun hz' a]; simp) (outRow m c)).symm

/-- So the result's array ends holding the output row: the last point's block covers it. -/
theorem final_out (c : Dev nD) : (dats m 0 c).arrAt 8 cfg0.N = outRow m c :=
  (dats m 0 c).arrAt_eq_of_cover 8 (outRow m c) (flushed_eq m c) fun i =>
    ⟨t49, (flush0_8 t49).mpr rfl, by
      show i ∈ ((View.whole main_v3).slice (win0_8.rect t49)).set
      rw [View.set_slice_whole, Rect.mem_set_unit]
      intro a
      have h0 : (i 0 : Nat) < 1 := (i 0).isLt
      have h1 : (i 1 : Nat) < 512 := (i 1).isLt
      match a with
      | ⟨0, _⟩ => show win0_8.index t49 0 * win0_8.size 0 ≤ (i 0 : Nat) ∧ (i 0 : Nat) < win0_8.index t49 0 * win0_8.size 0 + win0_8.xsize (grid0.coords t49) 0
                  rw [show win0_8.index t49 0 * win0_8.size 0 = 0 from by decide +kernel, show win0_8.xsize (grid0.coords t49) 0 = 1 from by decide +kernel]; omega
      | ⟨1, _⟩ => show win0_8.index t49 1 * win0_8.size 1 ≤ (i 1 : Nat) ∧ (i 1 : Nat) < win0_8.index t49 1 * win0_8.size 1 + win0_8.xsize (grid0.coords t49) 1
                  rw [show win0_8.index t49 1 * win0_8.size 1 = 0 from by decide +kernel, show win0_8.xsize (grid0.coords t49) 1 = 512 from by decide +kernel]; omega⟩

/-- The host line after the region: the result is the array reshaped to 128 × 4. -/
theorem tail_v4 (c : Dev nD) :
    Pipeline.afterTail₀ cfgs (dats m) 0 (V0 m) [hostOps1] c main_v4 = shapeCast S128x4 (outRow m c) shapeCasts_S1x512_S128x4 := by
  unfold Pipeline.afterTail₀
  show StableHlo.after hostOps1 _ (Proc.devRef .tc main_v4) = _
  after_results
  funext i
  show shapeCast S128x4 (Pipeline.withArrays spec0 c (V0 m c) (fun w => (dats m 0 c).arrAt w cfg0.N) (Proc.devRef .tc main_v3)) shapeCasts_S1x512_S128x4 i = _
  rw [(Pipeline.withArrays_arr spec0 launch0.win.arr_inj c _ _ 8).trans (final_out m c)]

/-- The run, read: the result at the reshaped output row, the arguments as launched. -/
theorem run_value : θ_run defs (onTc (τ := τ) (main (F := F))) ⟨m, fun _ => 0, ρ⟩ (fun r => ∀ c : Dev nD,
      r.2.mem ((c.tc : Thread nD τ).loc main_v4) = shapeCast S128x4 (outRow m c) shapeCasts_S1x512_S128x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v4 (Pipeline.mem_restRefs_of main_v4 (by decide) (by decide))).trans (tail_v4 m c),
      ((h c).1 0).trans (((dats m 0 c).arrAt_in 0 rfl _).trans (V_main_arg0 m c)),
      ((h c).1 1).trans (((dats m 0 c).arrAt_in 1 rfl _).trans (V_main_arg1 m c)),
      ((h c).1 2).trans (((dats m 0 c).arrAt_in 2 rfl _).trans (V_main_arg2 m c)),
      (((h c).2 main_arg3 (Pipeline.mem_restRefs_of main_arg3 (by decide) (by decide))).trans (W_main_arg3 m (dats m) c)),
      ((h c).1 4).trans (((dats m 0 c).arrAt_in 4 rfl _).trans (V_main_arg4 m c)),
      (((h c).2 main_arg5 (Pipeline.mem_restRefs_of main_arg5 (by decide) (by decide))).trans (W_main_arg5 m (dats m) c)),
      ((h c).1 6).trans (((dats m 0 c).arrAt_in 6 rfl _).trans (V_main_arg6 m c)),
      (((h c).2 main_arg7 (Pipeline.mem_restRefs_of main_arg7 (by decide) (by decide))).trans (W_main_arg7 m (dats m) c))⟩) (run_main m ρ)

end Cert.Proof.KernelIdealBody

end
-- ==== Proof.LibERealSums.lean ====
/-
  Real numbers read in the extended reals, and one entry of an associated matrix product.
  `coe_sum`: a finite sum of real numbers read in the extended reals is the extended-real sum of the numbers (any index type,
  any finite set). `coe_max`: likewise the greater of two. `assoc_entry`: for a row a over N positions, a matrix x of
  N × K and a column w over K positions,  Σ_k a k · (Σ_f x k f · w f) = Σ_f (Σ_k a k · x k f) · w f  — the entry of
  a · (x · w) and of (a · x) · w.
-/
import Mathlib.Data.EReal.Basic
import Mathlib.Algebra.BigOperators.Fin
import Mathlib.Algebra.Order.BigOperators.Group.Finset
import Mathlib.Tactic.Ring

namespace Cert.LibERealSums

open Finset

/-- A finite sum of real numbers read in the extended reals is the sum of the numbers read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greater of two real numbers, read in the extended reals, is the greater of the two read there. -/
theorem coe_max (x y : ℝ) : ((max x y : ℝ) : EReal) = max (x : EReal) (y : EReal) :=
  EReal.coe_strictMono.monotone.map_max

/-- Associativity of the matrix product, one entry: row `a` of the left factor against column w of x · w. -/
theorem assoc_entry {N K : ℕ} (a : Fin N → ℝ) (x : Fin N → Fin K → ℝ) (w : Fin K → ℝ) :
    ∑ k, a k * (∑ f, x k f * w f) = ∑ f, (∑ k, a k * x k f) * w f := by
  simp only [Finset.mul_sum, Finset.sum_mul]
  rw [Finset.sum_comm]
  exact Finset.sum_congr rfl fun f _ => Finset.sum_congr rfl fun k _ => by ring

end Cert.LibERealSums
-- ==== Proof.GcnAlgebra.lean ====
/-
  The algebra that joins the two programs, over any finite sizes: a rectified layer computed as max(a · (x · w) + b, 0)
  equals the one computed as max((a · x) · w + b, 0), entry by entry, by associativity of the matrix product; so the two
  programs' second layers agree, and with them the output rows.
-/
import proofs.«121906_g47081431499005_cont_8to1c4_562_17_alg».proof.Proof.LibERealSums

namespace Cert.Proof.GcnAlgebra

open Finset Cert.LibERealSums

variable {N F H O : ℕ}

section Real
variable (x : Fin N → Fin F → ℝ) (a : Fin N → Fin N → ℝ) (w1 : Fin F → Fin H → ℝ) (b1 : Fin H → ℝ)
  (w2 : Fin H → Fin H → ℝ) (b2 : Fin H → ℝ) (wr : Fin H → Fin O → ℝ) (br : Fin O → ℝ)

/-- The kernel's order: project first, then propagate. -/
def kz1 (r : Fin N) (j : Fin H) : ℝ := max ((∑ k, a r k * (∑ f, x k f * w1 f j)) + b1 j) 0
def kz2 (r : Fin N) (h : Fin H) : ℝ := max ((∑ k, a r k * (∑ j, kz1 x a w1 b1 k j * w2 j h)) + b2 h) 0
/-- The reference's order: propagate first, then project. -/
def rz1 (r : Fin N) (h : Fin H) : ℝ := max ((∑ f, (∑ k, a r k * x k f) * w1 f h) + b1 h) 0
def rz2 (r : Fin N) (h : Fin H) : ℝ := max ((∑ j, (∑ k, a r k * rz1 x a w1 b1 k j) * w2 j h) + b2 h) 0

theorem kz1_eq (r : Fin N) (j : Fin H) : kz1 x a w1 b1 r j = rz1 x a w1 b1 r j := by
  unfold kz1 rz1; rw [assoc_entry (a r) x fun f => w1 f j]
theorem kz2_eq (r : Fin N) (h : Fin H) : kz2 x a w1 b1 w2 b2 r h = rz2 x a w1 b1 w2 b2 r h := by
  unfold kz2 rz2
  rw [assoc_entry (a r) (kz1 x a w1 b1) fun j => w2 j h]
  simp only [kz1_eq]

/-- The two output rows: the kernel multiplies the column sums by 1/n, the reference divides zero plus them by n. -/
theorem out_eq (n : ℝ) (o : Fin O) :
    (∑ h, ((∑ r, kz2 x a w1 b1 w2 b2 r h) * (1 / n)) * wr h o) + br o
      = (∑ h, ((0 + ∑ r, rz2 x a w1 b1 w2 b2 r h) * (1 / n)) * wr h o) + br o := by
  simp only [kz2_eq, zero_add]
end Real

end Cert.Proof.GcnAlgebra
-- ==== Proof.LibSumBlocks.lean ====
/-
  A sum over  n = a · b  consecutive positions, cut into  a  consecutive blocks of  b  positions each, is the sum
  over the blocks of each block's sum.  This holds in any commutative monoid — only the grouping of the terms
  changes — so on the extended reals it needs no finiteness.
-/
import Mathlib.Algebra.BigOperators.Fin
import Mathlib.Logic.Equiv.Fin.Basic

namespace Cert.LibSumBlocks

/-- Position r of block s lies inside the a · b positions. -/
theorem idx_lt {a b : ℕ} (s : Fin a) (r : Fin b) : s.val * b + r.val < a * b := by
  have h1 : s.val * b + r.val < s.val * b + b := Nat.add_lt_add_left r.isLt _
  have h2 : s.val * b + b = (s.val + 1) * b := (Nat.succ_mul _ _).symm
  have h3 : (s.val + 1) * b ≤ a * b := Nat.mul_le_mul_right b s.isLt
  omega

/-- A sum over a · b consecutive positions as the sum over the a blocks of each block's b terms. -/
theorem sum_blocks {M : Type*} [AddCommMonoid M] {a b n : ℕ} (hn : a * b = n) (f : Fin n → M) :
    ∑ i : Fin n, f i = ∑ s : Fin a, ∑ r : Fin b, f ⟨s.val * b + r.val, hn ▸ idx_lt s r⟩ := by
  subst hn
  rw [← Equiv.sum_comp finProdFinEquiv f, Fintype.sum_prod_type]
  refine Finset.sum_congr rfl fun s _ => Finset.sum_congr rfl fun r _ => congrArg f (Fin.ext ?_)
  show r.val + b * s.val = s.val * b + r.val
  rw [Nat.mul_comm, Nat.add_comm]

end Cert.LibSumBlocks
-- ==== Proof.BridgeK.lean ====
/-
  The kernel's stages, on arrays of real numbers, are real numbers read in the extended reals: Y1, Y2, each row of the second
  rectified layer, the final column sums (the twenty-five blocks of 400 rows together are the 10000 rows), the output row.
-/
import proofs.«121906_g47081431499005_cont_8to1c4_562_17_alg».proof.Proof.KernelIdealValue
import proofs.«121906_g47081431499005_cont_8to1c4_562_17_alg».proof.Proof.KernelIdealFinal
import proofs.«121906_g47081431499005_cont_8to1c4_562_17_alg».proof.Proof.GcnAlgebra
import proofs.«121906_g47081431499005_cont_8to1c4_562_17_alg».proof.Proof.LibSumBlocks

set_option maxRecDepth 16384

noncomputable section

namespace Cert.Proof.BridgeK

open Cert.KernelIdeal Cert.KernelIdeal.Gen Cert.Proof.KernelIdealBody Cert.Proof.GcnAlgebra Cert.LibERealSums
open Idealize.ShloMosaic Idealize.ShloMosaic.TcCoe Idealize.ShloMosaic.ValueIdx
open Idealize.SL Idealize.SL.Sem

variable (m : (ℓ : Loc nD τ sig) → Buf (Elt Ideal) ℓ) (c : Dev nD)
variable (x : S10000x128.Idx → ℝ) (a : S10000x10000.Idx → ℝ) (w1 : S128x128.Idx → ℝ) (b1 : S128.Idx → ℝ)
    (w2 : S128x128.Idx → ℝ) (b2 : S128.Idx → ℝ) (wr : S128x512.Idx → ℝ) (br : S512.Idx → ℝ)

theorem y1_real (hx : ∀ i, aX m c i = (x i : EReal)) (ha : ∀ i, aA m c i = (a i : EReal)) (hw1 : ∀ i, aW1 m c i = (w1 i : EReal)) (hb1 : ∀ i, aB1 m c i = (b1 i : EReal))
    (hw2 : ∀ i, aW2 m c i = (w2 i : EReal)) (hb2 : ∀ i, aB2 m c i = (b2 i : EReal)) (hwr : ∀ i, aWr m c i = (wr i : EReal)) (hbr : ∀ i, aBr m c i = (br i : EReal)) (r : Fin 10000) (h : Fin 128) :
    Y1 m c (ix2 r h) = ((∑ f : Fin 128, x (ix2 r f) * w1 (ix2 f h) : ℝ) : EReal) := by
  rw [Y1_apply]; simp only [hx, hw1, coe_sum, EReal.coe_mul, EReal.coe_add, coe_max, EReal.coe_zero]

theorem y2_real (hx : ∀ i, aX m c i = (x i : EReal)) (ha : ∀ i, aA m c i = (a i : EReal)) (hw1 : ∀ i, aW1 m c i = (w1 i : EReal)) (hb1 : ∀ i, aB1 m c i = (b1 i : EReal))
    (hw2 : ∀ i, aW2 m c i = (w2 i : EReal)) (hb2 : ∀ i, aB2 m c i = (b2 i : EReal)) (hwr : ∀ i, aWr m c i = (wr i : EReal)) (hbr : ∀ i, aBr m c i = (br i : EReal)) (r : Fin 10000) (h : Fin 128) :
    Y2 m c (ix2 r h) = ((∑ j : Fin 128, kz1 (fun r f => x (ix2 r f)) (fun r k => a (ix2 r k)) (fun f h => w1 (ix2 f h)) (fun j => b1 (ix1 j)) r j * w2 (ix2 j h) : ℝ) : EReal) := by
  rw [Y2_apply]
  simp only [y1_real m c x a w1 b1 w2 b2 wr br hx ha hw1 hb1 hw2 hb2 hwr hbr, ha, hb1, hw2, kz1, coe_sum, EReal.coe_mul, EReal.coe_add, coe_max, EReal.coe_zero]

theorem z2_real (hx : ∀ i, aX m c i = (x i : EReal)) (ha : ∀ i, aA m c i = (a i : EReal)) (hw1 : ∀ i, aW1 m c i = (w1 i : EReal)) (hb1 : ∀ i, aB1 m c i = (b1 i : EReal))
    (hw2 : ∀ i, aW2 m c i = (w2 i : EReal)) (hb2 : ∀ i, aB2 m c i = (b2 i : EReal)) (hwr : ∀ i, aWr m c i = (wr i : EReal)) (hbr : ∀ i, aBr m c i = (br i : EReal)) (r : Fin 10000) (h : Fin 128) :
    z2 m c r.val h = ((kz2 (fun r f => x (ix2 r f)) (fun r k => a (ix2 r k)) (fun f h => w1 (ix2 f h)) (fun j => b1 (ix1 j)) (fun j h => w2 (ix2 j h)) (fun h => b2 (ix1 h)) r h : ℝ) : EReal) := by
  unfold z2
  rw [dif_pos r.isLt]
  simp only [Fin.eta, y2_real m c x a w1 b1 w2 b2 wr br hx ha hw1 hb1 hw2 hb2 hwr hbr, ha, hb2, kz2, coe_sum, EReal.coe_mul, EReal.coe_add, coe_max, EReal.coe_zero]

theorem acc_real (hx : ∀ i, aX m c i = (x i : EReal)) (ha : ∀ i, aA m c i = (a i : EReal)) (hw1 : ∀ i, aW1 m c i = (w1 i : EReal)) (hb1 : ∀ i, aB1 m c i = (b1 i : EReal))
    (hw2 : ∀ i, aW2 m c i = (w2 i : EReal)) (hb2 : ∀ i, aB2 m c i = (b2 i : EReal)) (hwr : ∀ i, aWr m c i = (wr i : EReal)) (hbr : ∀ i, aBr m c i = (br i : EReal)) (h : Fin 128) :
    accAt m c 50 (ix2 0 h) = ((∑ r : Fin 10000, kz2 (fun r f => x (ix2 r f)) (fun r k => a (ix2 r k)) (fun f h => w1 (ix2 f h)) (fun j => b1 (ix1 j)) (fun j h => w2 (ix2 j h)) (fun h => b2 (ix1 h)) r h : ℝ) : EReal) := by
  rw [show (50 : ℕ) = 25 + 25 from rfl, accAt_apply m c 25 (le_refl _) h, Finset.sum_range (fun i => ∑ p : Fin 400, z2 m c (i * 400 + p.val) h)]
  rw [coe_sum, Cert.LibSumBlocks.sum_blocks (a := 25) (b := 400) (by norm_num) (fun r : Fin 10000 => ((kz2 (fun r f => x (ix2 r f)) (fun r k => a (ix2 r k)) (fun f h => w1 (ix2 f h)) (fun j => b1 (ix1 j)) (fun j h => w2 (ix2 j h)) (fun h => b2 (ix1 h)) r h : ℝ) : EReal))]
  refine Finset.sum_congr rfl fun s _ => Finset.sum_congr rfl fun p _ => ?_
  exact z2_real m c x a w1 b1 w2 b2 wr br hx ha hw1 hb1 hw2 hb2 hwr hbr ⟨s.val * 400 + p.val, _⟩ h

theorem row_real (hx : ∀ i, aX m c i = (x i : EReal)) (ha : ∀ i, aA m c i = (a i : EReal)) (hw1 : ∀ i, aW1 m c i = (w1 i : EReal)) (hb1 : ∀ i, aB1 m c i = (b1 i : EReal))
    (hw2 : ∀ i, aW2 m c i = (w2 i : EReal)) (hb2 : ∀ i, aB2 m c i = (b2 i : EReal)) (hwr : ∀ i, aWr m c i = (wr i : EReal)) (hbr : ∀ i, aBr m c i = (br i : EReal)) (u : Fin 1) (o : Fin 512) :
    outRow m c (ix2 u o)
      = (((∑ h : Fin 128, ((∑ r : Fin 10000, kz2 (fun r f => x (ix2 r f)) (fun r k => a (ix2 r k)) (fun f h => w1 (ix2 f h)) (fun j => b1 (ix1 j)) (fun j h => w2 (ix2 j h)) (fun h => b2 (ix1 h)) r h) * (1 / 10000)) * wr (ix2 h o)) + br (ix1 o) : ℝ) : EReal) := by
  obtain rfl : u = 0 := Subsingleton.elim _ _
  unfold outRow
  rw [outv_apply]
  simp only [acc_real m c x a w1 b1 w2 b2 wr br hx ha hw1 hb1 hw2 hb2 hwr hbr, hwr, hbr, coe_sum, EReal.coe_mul, EReal.coe_add, coe_max, EReal.coe_zero]

end Cert.Proof.BridgeK

end
-- ==== Proof.RefRead.lean ====
/-
  The reference program's stages read at an index, at the ideal values, as formulas of its arguments
  (x, adj, W1, b1, W2, b2, Wr, br):
    layer one  (r, h) = max(Σ_f (Σ_k adj (r, k) · x (k, f)) · W1 (f, h) + b1 h, 0);
    layer two  (r, h) = max(Σ_j (Σ_k adj (r, k) · layer one (k, j)) · W2 (j, h) + b2 h, 0);
    the result row o = Σ_h ((0 + Σ_r layer two (r, h)) / 10000) · Wr (h, o) + br o,
  reshaped to 128 × 4 by the same cast the kernel's last line applies.
-/
import proofs.«121906_g47081431499005_cont_8to1c4_562_17_alg».proof.Proof.Gen.ReferenceIdeal.Run
import proofs.«121906_g47081431499005_cont_8to1c4_562_17_alg».proof.Proof.Gen.ReferenceIdeal.Read
import Idealize.ShloMosaic.Lib.ValueIdx

set_option maxRecDepth 16384

noncomputable section

namespace Cert.Proof.RefRead

open Cert.ReferenceIdeal Cert.ReferenceIdeal.Gen Cert.ReferenceIdeal.Read
open Idealize.ShloMosaic Idealize.ShloMosaic.ValueIdx

/-- The zero word is the real zero, and the divisor's word the real 10000. -/
theorem ofBits_zero : Ideal.ofBits .f32 0x00000000#32 = 0 := Ideal.ofBits_zero_f32
theorem ofBits_10000 : Ideal.ofBits .f32 0x461C4000#32 = ((10000 : ℝ) : EReal) := by
  simp [Ideal.ofBits, Ideal.ieee, -EReal.coe_mul]; norm_num

variable (x0 : Vec Ideal S10000x128 .f32) (x1 : Vec Ideal S10000x10000 .f32) (x2 : Vec Ideal S128x128 .f32) (x3 : Vec Ideal S128 .f32)
    (x4 : Vec Ideal S128x128 .f32) (x5 : Vec Ideal S128 .f32) (x6 : Vec Ideal S128x512 .f32) (x7 : Vec Ideal S512 .f32)

/-- Layer one. -/
theorem layer1_apply (r : Fin 10000) (h : Fin 128) :
    val_main_v5 (F := Ideal) x0 x1 x2 x3 (ix2 r h)
      = max ((∑ f : Fin 128, (∑ k : Fin 10000, x1 (ix2 r k) * x0 (ix2 k f)) * x2 (ix2 f h)) + x3 (ix1 h)) 0 := by
  rw [val_main_v5_apply, val_main_v4_apply, val_main_v1_apply, val_main_v3_apply, val_main_v2_apply, val_main_call0_v0_apply, val_main_call0_cst_apply]
  simp only [val_main_v0_apply, Ideal.maximumf_def, Ideal.addf_def, Ideal.ofBits_def, ofBits_zero]
  congr 2
  · refine Finset.sum_congr rfl fun f _ => ?_
    congr 1
    · refine Finset.sum_congr rfl fun k _ => ?_
      congr 1
      · exact congrArg x1 (funext fun a => Fin.ext (by match a with | ⟨0, _⟩ => rfl | ⟨1, _⟩ => rfl))
      · exact congrArg x0 (funext fun a => Fin.ext (by match a with | ⟨0, _⟩ => rfl | ⟨1, _⟩ => rfl))
    · exact congrArg x2 (funext fun a => Fin.ext (by match a with | ⟨0, _⟩ => rfl | ⟨1, _⟩ => rfl))
  · exact congrArg x3 (funext fun a => Fin.ext (by match a with | ⟨0, _⟩ => rfl))

/-- Layer two. -/
theorem layer2_apply (r : Fin 10000) (h : Fin 128) :
    val_main_v11 (F := Ideal) x0 x1 x2 x3 x4 x5 (ix2 r h)
      = max ((∑ j : Fin 128, (∑ k : Fin 10000, x1 (ix2 r k) * val_main_v5 (F := Ideal) x0 x1 x2 x3 (ix2 k j)) * x4 (ix2 j h)) + x5 (ix1 h)) 0 := by
  rw [val_main_v11_apply, val_main_v10_apply, val_main_v7_apply, val_main_v9_apply, val_main_v8_apply, val_main_call1_v0_apply, val_main_call1_cst_apply]
  simp only [val_main_v6_apply, Ideal.maximumf_def, Ideal.addf_def, Ideal.ofBits_def, ofBits_zero]
  congr 2
  · refine Finset.sum_congr rfl fun j _ => ?_
    congr 1
    · refine Finset.sum_congr rfl fun k _ => ?_
      congr 1
      · exact congrArg x1 (funext fun a => Fin.ext (by match a with | ⟨0, _⟩ => rfl | ⟨1, _⟩ => rfl))
      · exact congrArg (val_main_v5 (F := Ideal) x0 x1 x2 x3) (funext fun a => Fin.ext (by match a with | ⟨0, _⟩ => rfl | ⟨1, _⟩ => rfl))
    · exact congrArg x4 (funext fun a => Fin.ext (by match a with | ⟨0, _⟩ => rfl | ⟨1, _⟩ => rfl))
  · exact congrArg x5 (funext fun a => Fin.ext (by match a with | ⟨0, _⟩ => rfl))

/-- The result row before the last reshape. -/
theorem row_apply (u : Fin 1) (o : Fin 512) :
    val_main_v18 (F := Ideal) x0 x1 x2 x3 x4 x5 x6 x7 (ix2 u o)
      = (∑ h : Fin 128, Ideal.div (0 + ∑ r : Fin 10000, val_main_v11 (F := Ideal) x0 x1 x2 x3 x4 x5 (ix2 r h)) ((10000 : ℝ) : EReal) * x6 (ix2 h o))
        + x7 (ix1 o) := by
  rw [val_main_v18_apply, val_main_v16_apply, val_main_v17_apply]
  simp only [val_main_v15_apply, val_main_v13_apply, val_main_v12_apply, val_main_v14_apply, val_main_cst_0_apply, val_main_cst_apply,
    Ideal.addf_def, Ideal.hostDivf_def, Ideal.ofBits_def, ofBits_zero, ofBits_10000]
  refine congrArg₂ (· + ·) (Finset.sum_congr rfl fun h _ => ?_) (congrArg x7 (funext fun a => Fin.ext (by match a with | ⟨0, _⟩ => rfl)))
  refine congrArg₂ (· * ·) (congrArg (fun z => Ideal.div (0 + z) ((10000 : ℝ) : EReal)) (Finset.sum_congr rfl fun r _ => ?_)) (congrArg x6 (funext fun a => Fin.ext (by match a with | ⟨0, _⟩ => rfl | ⟨1, _⟩ => rfl)))
  exact congrArg (val_main_v11 (F := Ideal) x0 x1 x2 x3 x4 x5) (funext fun a => Fin.ext (by match a with | ⟨0, _⟩ => rfl | ⟨1, _⟩ => rfl))

end Cert.Proof.RefRead

end
-- ==== Proof.BridgeR.lean ====
/-
  The reference's stages, on arrays of real numbers, are real numbers read in the extended reals: its two rectified layers
  and its result row, the division by 10000 a product with 1/10000.
-/
import proofs.«121906_g47081431499005_cont_8to1c4_562_17_alg».proof.Proof.RefRead
import proofs.«121906_g47081431499005_cont_8to1c4_562_17_alg».proof.Proof.GcnAlgebra
import Idealize.ShloMosaic.PureOps.Ideal

set_option maxRecDepth 16384

noncomputable section

namespace Cert.Proof.BridgeR

open Cert.ReferenceIdeal Cert.ReferenceIdeal.Gen Cert.ReferenceIdeal.Read Cert.Proof.GcnAlgebra Cert.LibERealSums
open Idealize.ShloMosaic Idealize.ShloMosaic.ValueIdx

variable (x0 : Vec Ideal S10000x128 .f32) (x1 : Vec Ideal S10000x10000 .f32) (x2 : Vec Ideal S128x128 .f32) (x3 : Vec Ideal S128 .f32)
    (x4 : Vec Ideal S128x128 .f32) (x5 : Vec Ideal S128 .f32) (x6 : Vec Ideal S128x512 .f32) (x7 : Vec Ideal S512 .f32)
variable (x : S10000x128.Idx → ℝ) (a : S10000x10000.Idx → ℝ) (w1 : S128x128.Idx → ℝ) (b1 : S128.Idx → ℝ)
    (w2 : S128x128.Idx → ℝ) (b2 : S128.Idx → ℝ) (wr : S128x512.Idx → ℝ) (br : S512.Idx → ℝ)

theorem l1_real (hx : ∀ i, x0 i = (x i : EReal)) (ha : ∀ i, x1 i = (a i : EReal)) (hw1 : ∀ i, x2 i = (w1 i : EReal)) (hb1 : ∀ i, x3 i = (b1 i : EReal))
    (r : Fin 10000) (h : Fin 128) :
    val_main_v5 (F := Ideal) x0 x1 x2 x3 (ix2 r h) = ((rz1 (fun r f => x (ix2 r f)) (fun r k => a (ix2 r k)) (fun f h => w1 (ix2 f h)) (fun j => b1 (ix1 j)) r h : ℝ) : EReal) := by
  rw [RefRead.layer1_apply]; simp only [hx, ha, hw1, hb1, rz1, coe_sum, EReal.coe_mul, EReal.coe_add, coe_max, EReal.coe_zero]

theorem l2_real (hx : ∀ i, x0 i = (x i : EReal)) (ha : ∀ i, x1 i = (a i : EReal)) (hw1 : ∀ i, x2 i = (w1 i : EReal)) (hb1 : ∀ i, x3 i = (b1 i : EReal))
    (hw2 : ∀ i, x4 i = (w2 i : EReal)) (hb2 : ∀ i, x5 i = (b2 i : EReal)) (r : Fin 10000) (h : Fin 128) :
    val_main_v11 (F := Ideal) x0 x1 x2 x3 x4 x5 (ix2 r h) = ((rz2 (fun r f => x (ix2 r f)) (fun r k => a (ix2 r k)) (fun f h => w1 (ix2 f h)) (fun j => b1 (ix1 j)) (fun j h => w2 (ix2 j h)) (fun h => b2 (ix1 h)) r h : ℝ) : EReal) := by
  rw [RefRead.layer2_apply]
  simp only [l1_real x0 x1 x2 x3 x a w1 b1 hx ha hw1 hb1, ha, hw2, hb2, rz2, coe_sum, EReal.coe_mul, EReal.coe_add, coe_max, EReal.coe_zero]

theorem row_real (hx : ∀ i, x0 i = (x i : EReal)) (ha : ∀ i, x1 i = (a i : EReal)) (hw1 : ∀ i, x2 i = (w1 i : EReal)) (hb1 : ∀ i, x3 i = (b1 i : EReal))
    (hw2 : ∀ i, x4 i = (w2 i : EReal)) (hb2 : ∀ i, x5 i = (b2 i : EReal)) (hwr : ∀ i, x6 i = (wr i : EReal)) (hbr : ∀ i, x7 i = (br i : EReal))
    (u : Fin 1) (o : Fin 512) :
    val_main_v18 (F := Ideal) x0 x1 x2 x3 x4 x5 x6 x7 (ix2 u o)
      = (((∑ h : Fin 128, ((0 + ∑ r : Fin 10000, rz2 (fun r f => x (ix2 r f)) (fun r k => a (ix2 r k)) (fun f h => w1 (ix2 f h)) (fun j => b1 (ix1 j)) (fun j h => w2 (ix2 j h)) (fun h => b2 (ix1 h)) r h) * (1 / 10000)) * wr (ix2 h o)) + br (ix1 o) : ℝ) : EReal) := by
  rw [RefRead.row_apply]
  simp only [l2_real x0 x1 x2 x3 x4 x5 x a w1 b1 w2 b2 hx ha hw1 hb1 hw2 hb2, hwr, hbr, Ideal.div_coe (by norm_num : (10000 : ℝ) ≠ 0), coe_sum, EReal.coe_mul, EReal.coe_add, coe_max, EReal.coe_zero]

end Cert.Proof.BridgeR

end
-- ==== Proof.Algebraic.lean ====
/-
  The algebraic claim: from memories that agree on the eight arguments, both programs run to the end, and their results —
  the same reshape of a 1 × 512 row on either side — are equal entry by entry as extended reals.
-/
import proofs.«121906_g47081431499005_cont_8to1c4_562_17_alg».proof.Defs
import proofs.«121906_g47081431499005_cont_8to1c4_562_17_alg».proof.Proof.Gen.Kernel
import proofs.«121906_g47081431499005_cont_8to1c4_562_17_alg».proof.Proof.Gen.KernelIdeal
import proofs.«121906_g47081431499005_cont_8to1c4_562_17_alg».proof.Proof.Gen.ReferenceIdeal
import proofs.«121906_g47081431499005_cont_8to1c4_562_17_alg».proof.Proof.Gen.Pre_finite_inputs
import proofs.«121906_g47081431499005_cont_8to1c4_562_17_alg».proof.Proof.Finite
import proofs.«121906_g47081431499005_cont_8to1c4_562_17_alg».proof.Proof.BridgeK
import proofs.«121906_g47081431499005_cont_8to1c4_562_17_alg».proof.Proof.BridgeR

set_option maxRecDepth 16384

noncomputable section

namespace Cert.Proof

open Idealize.ShloMosaic Idealize.ShloMosaic.TcCoe Idealize.ShloMosaic.ValueIdx Idealize.SL.Sem

theorem algebraic : Cert.algebraic_KernelIdeal_ReferenceIdeal := by
  intro m ρ m' ρ' hpre hagree
  refine ⟨fun c => shapeCast Cert.KernelIdeal.S128x4 (Cert.Proof.KernelIdealBody.outRow m c) Cert.KernelIdeal.Facts₀.shapeCasts_S1x512_S128x4,
    Cert.Proof.KernelIdealBody.run_value m ρ, ?_⟩
  refine (θ_run Cert.ReferenceIdeal.defs _ _).mono (fun _ h c => ⟨(h c).1.trans ?_, (h c).2⟩)
    (Cert.ReferenceIdeal.Value.run (F := Ideal) m' ρ')
  obtain ⟨⟨x, hx⟩, ⟨a, ha⟩, ⟨w1, hw1⟩, ⟨b1, hb1⟩, ⟨w2, hw2⟩, ⟨b2, hb2⟩, ⟨wr, hwr⟩, ⟨br, hbr⟩⟩ :=
    Cert.Proof.Finite.reals_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (hpre c)
  show shapeCast _ (Cert.ReferenceIdeal.Read.val_main_v18 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))) _ = _
  refine congrArg (fun z => shapeCast Cert.KernelIdeal.S128x4 z Cert.KernelIdeal.Facts₀.shapeCasts_S1x512_S128x4) (funext fun i => ?_)
  obtain ⟨u, o, rfl⟩ : ∃ (u : Fin 1) (o : Fin 512), i = ix2 u o := ⟨i 0, i 1, eq_ix2 i⟩
  rw [Cert.Proof.BridgeR.row_real (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) x a w1 b1 w2 b2 wr br
      (fun i => by rw [(hagree c).1]; exact hx i)
      (fun i => by rw [(hagree c).2.1]; exact ha i)
      (fun i => by rw [(hagree c).2.2.1]; exact hw1 i)
      (fun i => by rw [(hagree c).2.2.2.1]; exact hb1 i)
      (fun i => by rw [(hagree c).2.2.2.2.1]; exact hw2 i)
      (fun i => by rw [(hagree c).2.2.2.2.2.1]; exact hb2 i)
      (fun i => by rw [(hagree c).2.2.2.2.2.2.1]; exact hwr i)
      (fun i => by rw [(hagree c).2.2.2.2.2.2.2]; exact hbr i)
      u o,
    Cert.Proof.BridgeK.row_real m c x a w1 b1 w2 b2 wr br hx ha hw1 hb1 hw2 hb2 hwr hbr u o]
  exact congrArg _ (Cert.Proof.GcnAlgebra.out_eq (fun r f => x (ix2 r f)) (fun r k => a (ix2 r k)) (fun f h => w1 (ix2 f h)) (fun j => b1 (ix1 j))
    (fun j h => w2 (ix2 j h)) (fun h => b2 (ix1 h)) (fun h o => wr (ix2 h o)) (fun o => br (ix1 o)) 10000 o).symm

end Cert.Proof

end
-- ==== Proof.lean ====
/-
  The certificate of a two-layer dense graph-convolution kernel against its reference.
  The kernel keeps three scratch buffers across its fifty grid points: Y1 = x · W1, Y2 = max(adj · Y1 + b1, 0) · W2 filled
  400 rows per point in its first phase, and a running column sum of max(adj · Y2 + b2, 0) in its second; its last point
  stores (sum · 1/10000) · Wr + br. The reference computes max((adj · x) · W1 + b1, 0), then max((adj · that) · W2 + b2, 0),
  its column means, times Wr, plus br. On finite inputs every value is a real number, and the two agree by associativity
  of the matrix product (adj · (x · W1) = (adj · x) · W1, and likewise for W2) and by the sum over 10000 rows being the
  sum of its twenty-five blocks of 400; the mean's division by 10000 is the product with the named constant 1/10000.
  The three frames: each kernel's is its pipeline run over the invariant of its scratch buffers; the reference's is its run.
-/
import proofs.«121906_g47081431499005_cont_8to1c4_562_17_alg».proof.Defs
import proofs.«121906_g47081431499005_cont_8to1c4_562_17_alg».proof.Proof.Gen.Kernel
import proofs.«121906_g47081431499005_cont_8to1c4_562_17_alg».proof.Proof.Gen.KernelIdeal
import proofs.«121906_g47081431499005_cont_8to1c4_562_17_alg».proof.Proof.Gen.ReferenceIdeal
import proofs.«121906_g47081431499005_cont_8to1c4_562_17_alg».proof.Proof.Gen.Pre_finite_inputs
import proofs.«121906_g47081431499005_cont_8to1c4_562_17_alg».proof.Proof.KernelFrame
import proofs.«121906_g47081431499005_cont_8to1c4_562_17_alg».proof.Proof.KernelIdealFrame
import proofs.«121906_g47081431499005_cont_8to1c4_562_17_alg».proof.Proof.Gen.ReferenceIdeal.Run
import proofs.«121906_g47081431499005_cont_8to1c4_562_17_alg».proof.Proof.Algebraic
import Idealize.ShloMosaic.Adequacy
import Idealize.ShloMosaic.Init

noncomputable section

namespace Cert.Proof

open Idealize.ShloMosaic Idealize.SL.Sem

theorem frame_kernel : Cert.frame_Kernel := fun m ρ _ =>
  Cert.Kernel.Gen.frame_of m ρ (Cert.Proof.KernelBody.dats m) (fun _ _ => rfl) (Cert.Proof.KernelBody.run_main (F := Bits) m ρ)

theorem frame_kernelIdeal : Cert.frame_KernelIdeal := fun m ρ _ =>
  Cert.KernelIdeal.Gen.frame_of m ρ (Cert.Proof.KernelIdealBody.dats m) (fun _ _ => rfl) (Cert.Proof.KernelIdealBody.run_main (F := Ideal) m ρ)

theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the literal 9.99999974e-5 named 1/10000. -/
theorem preserves : Cert.preserves_Kernel_KernelIdeal :=
  IdealRules.named_const.statement Cert.KernelIdeal.κ "inv_10000" .f32 0x38D1B717#32 ((1 / 10000 : ℝ) : EReal) rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
